-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xFF333332#32 ⊥
  ∧ IdealRules.named_const.Statement Cert.KernelIdeal.κ "inv_1000000000000000000000000000000" .f32 0x0DA24260#32 ((1 / 1000000000000000000000000000000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x2048x1024 .f32) (main_arg1 : FVec F S3072x1024 .f32) (main_arg2 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S2x2048x1024 : Shape := ⟨3, ![2, 2048, 1024]⟩
abbrev S3072x1024 : Shape := ⟨2, ![3072, 1024]⟩
abbrev S1024x1024 : Shape := ⟨2, ![1024, 1024]⟩
abbrev S1024x3072 : Shape := ⟨2, ![1024, 3072]⟩
abbrev S4096x1024 : Shape := ⟨2, ![4096, 1024]⟩
abbrev S4096x3072 : Shape := ⟨2, ![4096, 3072]⟩
abbrev S2x2048x3072 : Shape := ⟨3, ![2, 2048, 3072]⟩
abbrev S2x2048x16x64 : Shape := ⟨4, ![2, 2048, 16, 64]⟩
abbrev S2x256x16x64 : Shape := ⟨4, ![2, 256, 16, 64]⟩
abbrev S32x256x1 : Shape := ⟨3, ![32, 256, 1]⟩
abbrev S32x256x64 : Shape := ⟨3, ![32, 256, 64]⟩
abbrev S2x16x256x64 : Shape := ⟨4, ![2, 16, 256, 64]⟩
abbrev S32x256x256 : Shape := ⟨3, ![32, 256, 256]⟩
abbrev S32x256 : Shape := ⟨2, ![32, 256]⟩

abbrev nBuf : Space → Nat
  | .hbm => 20
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S1024x3072, .f32⟩
  | .hbm, ⟨4, _⟩ => ⟨S1024x3072, .bf16⟩
  | .hbm, ⟨5, _⟩ => ⟨S1024x1024, .f32⟩
  | .hbm, ⟨6, _⟩ => ⟨S1024x1024, .bf16⟩
  | .hbm, ⟨7, _⟩ => ⟨S4096x1024, .f32⟩
  | .hbm, ⟨8, _⟩ => ⟨S4096x3072, .f32⟩
  | .hbm, ⟨9, _⟩ => ⟨S2x2048x3072, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S2x2048x16x64, .f32⟩
  | .hbm, ⟨14, _⟩ => ⟨S2x2048x16x64, .f32⟩
  | .hbm, ⟨15, _⟩ => ⟨S2x2048x16x64, .f32⟩
  | .hbm, ⟨16, _⟩ => ⟨S2x2048x16x64, .f32⟩
  | .hbm, ⟨17, _⟩ => ⟨S4096x1024, .f32⟩
  | .hbm, ⟨18, _⟩ => ⟨S4096x1024, .f32⟩
  | .hbm, ⟨19, _⟩ => ⟨S2x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S2x256x16x64, .f32⟩
  | .local _ .vmem, ⟨7, _⟩ => ⟨S2x256x16x64, .f32⟩
  | .local _ .vmem, ⟨8, _⟩ => ⟨S2x256x16x64, .f32⟩
  | .local _ .vmem, ⟨9, _⟩ => ⟨S2x256x16x64, .f32⟩
  | .local _ .vmem, ⟨10, _⟩ => ⟨S2x256x16x64, .f32⟩
  | .local _ .vmem, ⟨11, _⟩ => ⟨S2x256x16x64, .f32⟩
  | .local _ .vmem, ⟨12, _⟩ => ⟨S2x256x16x64, .f32⟩
  | .local _ .vmem, ⟨13, _⟩ => ⟨S2x256x16x64, .f32⟩
  | .local _ .vmem, ⟨14, _⟩ => ⟨S32x256x1, .f32⟩
  | .local _ .vmem, ⟨15, _⟩ => ⟨S32x256x1, .f32⟩
  | .local _ .vmem, ⟨16, _⟩ => ⟨S32x256x64, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .bf16⟩
  | .local _ .vmem, ⟨20, _⟩ => ⟨S1024x1024, .f32⟩
  | .local _ .vmem, ⟨21, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 8], ![false, false]⟩

def k1_cond3 (i : grid1.Coords) : BitVec 1 :=
  let arg1 : BitVec 32 := BitVec.ofNat 32 (i 1).val
  let c7_i32 : BitVec 32 := 7#32
  let v6 : BitVec 1 := Scalar.cmpi .eq arg1 c7_i32
  let v7 : BitVec 32 := Scalar.extui v6
  let c0_i32_2 : BitVec 32 := 0#32
  let v8 : BitVec 1 := Scalar.cmpi .ne v7 c0_i32_2
  v8

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 4 → Nat :=
  let arg0 : BitVec 32 := BitVec.ofNat 32 (i 0).val
  let arg1 : BitVec 32 := BitVec.ofNat 32 (i 1).val
  let v0 : BitVec 32 := Scalar.minsi arg1 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let v0 : BitVec 32 := Scalar.minsi arg1 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 2 → Memref sig .tc .vmem S2x256x16x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2x256x16x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2x256x16x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2x256x16x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  transposes_S3072x1024_S1024x3072_1_0 : S3072x1024.Transposes [1, 0] S1024x3072
  bitsLt_bf16_f32 : FTy.bits .bf16 < FTy.bits .f32
  transposes_S1024x1024_S1024x1024_1_0 : S1024x1024.Transposes [1, 0] S1024x1024
  shapeCasts_S2x2048x1024_S4096x1024 : S2x2048x1024.ShapeCasts S4096x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S4096x3072_S2x2048x3072 : S4096x3072.ShapeCasts S2x2048x3072
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  inb_S32x256x1_S32x256x1_0_0_0 : ∀ a, (![0, 0, 0] : Fin 3 → Nat) a + S32x256x1.size a ≤ S32x256x1.size a
  h_S32x256x1 : 0 < S32x256x1.numel
  shapeCasts_S32x256x1_S32x256x1 : S32x256x1.ShapeCasts S32x256x1
  inb_S32x256x64_S32x256x64_0_0_0 : ∀ a, (![0, 0, 0] : Fin 3 → Nat) a + S32x256x64.size a ≤ S32x256x64.size a
  h_S32x256x64 : 0 < S32x256x64.numel
  shapeCasts_S32x256x64_S32x256x64 : S32x256x64.ShapeCasts S32x256x64
  inb_S2x256x16x64_S2x256x16x64_0_0_0_0 : ∀ a, (![0, 0, 0, 0] : Fin 4 → Nat) a + S2x256x16x64.size a ≤ S2x256x16x64.size a
  h_S2x256x16x64 : 0 < S2x256x16x64.numel
  shapeCasts_S2x256x16x64_S2x256x16x64 : S2x256x16x64.ShapeCasts S2x256x16x64
  transposes_S2x256x16x64_p0_2_1_3_S2x16x256x64 : S2x256x16x64.Transposes [0, 2, 1, 3] S2x16x256x64
  shapeCasts_S2x16x256x64_S32x256x64 : S2x16x256x64.ShapeCasts S32x256x64
  iota_S32x256x256_d1_w32 : S32x256x256.Iotas .tc 32 [1]
  iota_S32x256x256_d2_w32 : S32x256x256.Iotas .tc 32 [2]
  reduces_S32x256x256_S32x256 : S32x256x256.Reduces [2] S32x256
  shapeCasts_S32x256_S32x256x1 : S32x256.ShapeCasts S32x256x1
  broadcasts_S32x256x1_S32x256x256 : S32x256x1.Broadcasts S32x256x256
  broadcasts_S32x256x1_S32x256x64 : S32x256x1.Broadcasts S32x256x64
  shapeCasts_S32x256x64_S2x16x256x64 : S32x256x64.ShapeCasts S2x16x256x64
  transposes_S2x16x256x64_p0_2_1_3_S2x256x16x64 : S2x16x256x64.Transposes [0, 2, 1, 3] S2x256x16x64
  shapeCasts_S2x2048x16x64_S4096x1024 : S2x2048x16x64.ShapeCasts S4096x1024
  shapeCasts_S4096x1024_S2x2048x1024 : S4096x1024.ShapeCasts S2x2048x1024
  dot_S1024x1024_S1024x1024_S1024x1024_1_0_0_1_n_n_wf : DotDims.WF S1024x1024 S1024x1024 S1024x1024 [1] [0] [0] [1] [] []
  dot_S32x256x64_S32x256x64_S32x256x256_2_2_1_1_0_0_wf : DotDims.WF S32x256x64 S32x256x64 S32x256x256 [2] [2] [1] [1] [0] [0]
  dot_S32x256x256_S32x256x64_S32x256x64_2_1_1_2_0_0_wf : DotDims.WF S32x256x256 S32x256x64 S32x256x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .bf16 = 32 ∨ (Rect.block (s := S1024x3072) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x3072.size a
  hwx0_2 : ∀ i : grid0.Coords, EltTy.bits .f32 = 32 ∨ (Rect.block (s := S4096x3072) S1024x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x256x16x64.size a ≤ S2x2048x16x64.size a
  hwx1_0 : ∀ i : grid1.Coords, EltTy.bits .f32 = 32 ∨ (Rect.block (s := S2x2048x16x64) S2x256x16x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x256x16x64.size a ≤ S2x2048x16x64.size a
  hwx1_1 : ∀ i : grid1.Coords, EltTy.bits .f32 = 32 ∨ (Rect.block (s := S2x2048x16x64) S2x256x16x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x256x16x64.size a ≤ S2x2048x16x64.size a
  hwx1_2 : ∀ i : grid1.Coords, EltTy.bits .f32 = 32 ∨ (Rect.block (s := S2x2048x16x64) S2x256x16x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x256x16x64.size a ≤ S2x2048x16x64.size a
  hwx1_3 : ∀ i : grid1.Coords, EltTy.bits .f32 = 32 ∨ (Rect.block (s := S2x2048x16x64) S2x256x16x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .f32 = 32 ∨ (Rect.block (s := S4096x1024) S1024x1024.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x1024.size a
  hwx2_2 : ∀ i : grid2.Coords, EltTy.bits .f32 = 32 ∨ (Rect.block (s := S4096x1024) S1024x1024.size (cc2_transform_2 i) (hinb2_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S32x256x64_S32x256x64_S32x256x256_2_2_1_1_0_0 : DotDims S32x256x64 S32x256x64 S32x256x256 where
  lhsContracting := [2]
  rhsContracting := [2]
  lhsNonContracting := [1]
  rhsNonContracting := [1]
  lhsBatch := [0]
  rhsBatch := [0]
  wf := dot_S32x256x64_S32x256x64_S32x256x256_2_2_1_1_0_0_wf
def dot_S32x256x256_S32x256x64_S32x256x64_2_1_1_2_0_0 : DotDims S32x256x256 S32x256x64 S32x256x64 where
  lhsContracting := [2]
  rhsContracting := [1]
  lhsNonContracting := [1]
  rhsNonContracting := [2]
  lhsBatch := [0]
  rhsBatch := [0]
  wf := dot_S32x256x256_S32x256x64_S32x256x64_2_1_1_2_0_0_wf

abbrev win0_0 : Pipeline.Window sig grid0 :=
  Pipeline.Window.ofSpec (Memref.whole main_v4) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S2x256x16x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S2x256x16x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2x256x16x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S2x256x16x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

abbrev win2_0 : Pipeline.Window sig grid2 :=
  Pipeline.Window.ofSpec (Memref.whole main_v14) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x1024.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S1024x1024 : Shape := ⟨2, ![1024, 1024]⟩
abbrev S2x2048x3072 : Shape := ⟨3, ![2, 2048, 3072]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2048x2048 : Shape := ⟨2, ![2048, 2048]⟩
abbrev S2x16x2048 : Shape := ⟨3, ![2, 16, 2048]⟩
abbrev S2x16x2048x1 : Shape := ⟨4, ![2, 16, 2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S2x2048x3072, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x16x64, .f32⟩
  | .hbm, ⟨8, _⟩ => ⟨S2x16x2048x64, .f32⟩
  | .hbm, ⟨9, _⟩ => ⟨S2x2048x16x64, .f32⟩
  | .hbm, ⟨10, _⟩ => ⟨S2x16x2048x64, .f32⟩
  | .hbm, ⟨11, _⟩ => ⟨S2x2048x16x64, .f32⟩
  | .hbm, ⟨12, _⟩ => ⟨S2x16x2048x64, .f32⟩
  | .hbm, ⟨13, _⟩ => ⟨S2x16x2048x2048, .f32⟩
  | .hbm, ⟨14, _⟩ => ⟨S_, .f32⟩
  | .hbm, ⟨15, _⟩ => ⟨S_, .f32⟩
  | .hbm, ⟨16, _⟩ => ⟨S2x16x2048x2048, .f32⟩
  | .hbm, ⟨17, _⟩ => ⟨S2x16x2048x2048, .f32⟩
  | .hbm, ⟨18, _⟩ => ⟨S_, .i1⟩
  | .hbm, ⟨19, _⟩ => ⟨S2048x2048, .i1⟩
  | .hbm, ⟨20, _⟩ => ⟨S2048x2048, .i32⟩
  | .hbm, ⟨21, _⟩ => ⟨S_, .i32⟩
  | .hbm, ⟨22, _⟩ => ⟨S2048x2048, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .i1⟩
  | .hbm, ⟨27, _⟩ => ⟨S2048x2048, .i1⟩
  | .hbm, ⟨28, _⟩ => ⟨S2048x2048, .i1⟩
  | .hbm, ⟨29, _⟩ => ⟨S_, .f32⟩
  | .hbm, ⟨30, _⟩ => ⟨S_, .f32⟩
  | .hbm, ⟨31, _⟩ => ⟨S2x16x2048x2048, .i1⟩
  | .hbm, ⟨32, _⟩ => ⟨S2x16x2048x2048, .f32⟩
  | .hbm, ⟨33, _⟩ => ⟨S2x16x2048x2048, .f32⟩
  | .hbm, ⟨34, _⟩ => ⟨S_, .f32⟩
  | .hbm, ⟨35, _⟩ => ⟨S2x16x2048, .f32⟩
  | .hbm, ⟨36, _⟩ => ⟨S_, .f32⟩
  | .hbm, ⟨37, _⟩ => ⟨S2x16x2048, .f32⟩
  | .hbm, ⟨38, _⟩ => ⟨S2x16x2048, .f32⟩
  | .hbm, ⟨39, _⟩ => ⟨S2x16x2048x1, .f32⟩
  | .hbm, ⟨40, _⟩ => ⟨S2x16x2048x2048, .f32⟩
  | .hbm, ⟨41, _⟩ => ⟨S2x16x2048x2048, .f32⟩
  | .hbm, ⟨42, _⟩ => ⟨S2x16x2048x2048, .f32⟩
  | .hbm, ⟨43, _⟩ => ⟨S_, .f32⟩
  | .hbm, ⟨44, _⟩ => ⟨S2x16x2048, .f32⟩
  | .hbm, ⟨45, _⟩ => ⟨S2x16x2048x1, .f32⟩
  | .hbm, ⟨46, _⟩ => ⟨S2x16x2048x2048, .f32⟩
  | .hbm, ⟨47, _⟩ => ⟨S2x16x2048x2048, .f32⟩
  | .hbm, ⟨48, _⟩ => ⟨S2x16x2048x64, .f32⟩
  | .hbm, ⟨49, _⟩ => ⟨S2x2048x16x64, .f32⟩
  | .hbm, ⟨50, _⟩ => ⟨S2x2048x1024, .f32⟩
  | .hbm, ⟨51, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_0 : Ref sig .tc := ⟨.hbm, 26, rfl⟩
abbrev main_call0_v5 : Ref sig .tc := ⟨.hbm, 27, rfl⟩
abbrev main_v15 : Ref sig .tc := ⟨.hbm, 28, rfl⟩
abbrev main_cst_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]

class Facts₀ : Prop where
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  bcast_S_S2048x2048 : S_.BroadcastsInDim S2048x2048 (![] : Fin 0 → Fin S2048x2048.rank)
  bcast_S2048x2048_S2x16x2048x2048_2_3 : S2048x2048.BroadcastsInDim S2x16x2048x2048 (![2, 3] : Fin 2 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.FrameMatmul.lean ====
import proofs.«156199_j3478923510049_2_alg».proof.Proof.Gen.KernelIdeal.Launch
import proofs.«156199_j3478923510049_2_alg».proof.Proof.Gen.KernelIdeal.Skeleton
import proofs.«156199_j3478923510049_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-! The two matmul regions of @main (custom_calls 0 and 2), each at a PARAMETER `V`: the TensorCore's buffer
    contents when the region is entered. Per region: each window's block at a point, what the body leaves in the
    output window's staging buffer as a function of the two input blocks, the body's triple, the pipeline's proof
    data and its body obligation. -/

-- membership in a rectangle of production extents: the elaborator's structural look recurses once per coordinate
-- of the long axes
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-! # REGION 0 of @main: custom_call 0, `cc0__matmul_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the block
    index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The one rectangle of the body's loads and of its store: the whole 1024×1024 buffer. -/
abbrev r0_0 : Rect S1024x1024 := Rect.unit (s := S1024x1024) ![0, 0] S1024x1024.size inb_S1024x1024_S1024x1024_0_0

/-! ## What the body leaves in the output window's buffer -/

/-- Window 2's staging buffer after the body, from the two input windows' blocks: its 1 store as pieces (the
    payload is the skeleton's, over what the two loads read). -/
def out0_2 (x0 : Vec F S1024x1024 .f32) (x1 : Vec F S1024x1024 .bf16) : Vec F S1024x1024 .f32 :=
  View.canon [⟨r0_0, k0_pay1 (View.ld x0 r0_0) (View.ld x1 r0_0)⟩]

/-- Its store tiles the buffer (checked by evaluation), so it covers it. -/
theorem cover0_2 (p0 : Vec F S1024x1024 .f32) (y : S1024x1024.Idx) :
    ∃ pc ∈ ([⟨r0_0, p0⟩] : List (View.Piece (Elt F) S1024x1024 .f32)), y ∈ pc.1.set :=
  View.cover_of_tiled [⟨r0_0, p0⟩] S1024x1024.size (by rfl) y

/-! ## The body's triple -/

set_option maxHeartbeats 1000000 in
/-- The kernel body on whole staging memrefs, the inputs' at read contents `x0`, `x1` and the output's at anything,
    runs to the continuation holding the inputs' as they were and the output's at `out0_2` of the inputs': the
    printed function is its skeleton, run operation by operation; the load of the output's prior contents is dead. -/
theorem sound_kernel0 (c : Dev nD) (E : Set ℕ) (i : grid0.Coords) (arg0 : Memref sig .tc .vmem S1024x1024 .f32) (harg0 : arg0.IsWhole) (arg1 : Memref sig .tc .vmem S1024x1024 .bf16) (harg1 : arg1.IsWhole) (arg2 : Memref sig .tc .vmem S1024x1024 .f32) (harg2 : arg2.IsWhole)
    (x0 : Vec F S1024x1024 .f32) (x1 : Vec F S1024x1024 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so `sound_kernel0`
    applies; the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # REGION 2 of @main: custom_call 2, `cc2__matmul_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): unfetched, the block
    index has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The one rectangle of the body's loads and of its store: the whole 1024×1024 buffer. -/
abbrev r2_0 : Rect S1024x1024 := Rect.unit (s := S1024x1024) ![0, 0] S1024x1024.size inb_S1024x1024_S1024x1024_0_0

/-! ## What the body leaves in the output window's buffer -/

/-- Window 2's staging buffer after the body, from the two input windows' blocks: its 1 store as pieces (the
    payload is the skeleton's, over what the two loads read). -/
def out2_2 (x0 : Vec F S1024x1024 .f32) (x1 : Vec F S1024x1024 .bf16) : Vec F S1024x1024 .f32 :=
  View.canon [⟨r2_0, k2_pay1 (View.ld x0 r2_0) (View.ld x1 r2_0)⟩]

/-- Its store tiles the buffer (checked by evaluation), so it covers it. -/
theorem cover2_2 (p0 : Vec F S1024x1024 .f32) (y : S1024x1024.Idx) :
    ∃ pc ∈ ([⟨r2_0, p0⟩] : List (View.Piece (Elt F) S1024x1024 .f32)), y ∈ pc.1.set :=
  View.cover_of_tiled [⟨r2_0, p0⟩] S1024x1024.size (by rfl) y

/-! ## The body's triple -/

set_option maxHeartbeats 1000000 in
/-- The kernel body on whole staging memrefs, the inputs' at read contents `x0`, `x1` and the output's at anything,
    runs to the continuation holding the inputs' as they were and the output's at `out2_2` of the inputs': the
    printed function is its skeleton, run operation by operation; the load of the output's prior contents is dead. -/
theorem sound_kernel2 (c : Dev nD) (E : Set ℕ) (i : grid2.Coords) (arg0 : Memref sig .tc .vmem S1024x1024 .f32) (harg0 : arg0.IsWhole) (arg1 : Memref sig .tc .vmem S1024x1024 .bf16) (harg1 : arg1.IsWhole) (arg2 : Memref sig .tc .vmem S1024x1024 .f32) (harg2 : arg2.IsWhole)
    (x0 : Vec F S1024x1024 .f32) (x1 : Vec F S1024x1024 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__matmul_kernel i arg0 harg0 arg1 harg1 arg2 harg2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at
    point `t` each input's buffer at its block and the output's at `out2_2` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_0`, `before2_1`), so `sound_kernel2`
    applies; the invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! # The values: one whole-buffer store over whole-buffer loads -/

/-- The zero offsets of the whole-buffer rectangle, as the constant function the whole-view lemmas take. -/
theorem zero_offsets : (![0, 0] : Fin S1024x1024.rank → ℕ) = fun _ => 0 := by
  funext a; fin_cases a <;> rfl

/-- Region 0's output block is the payload of the two input blocks: the one store covers the whole buffer and leaves
    its payload, and each load through the whole buffer reads the contents. -/
theorem out0_2_eq (x0 : Vec F S1024x1024 .f32) (x1 : Vec F S1024x1024 .bf16) : out0_2 x0 x1 = k0_pay1 x0 x1 := by
  unfold out0_2
  rw [View.canon_unit_zero (S := S1024x1024) zero_offsets inb_S1024x1024_S1024x1024_0_0,
    View.ld_unit_zero (S := S1024x1024) zero_offsets inb_S1024x1024_S1024x1024_0_0,
    View.ld_unit_zero (S := S1024x1024) zero_offsets inb_S1024x1024_S1024x1024_0_0]

/-- Region 2's likewise. -/
theorem out2_2_eq (x0 : Vec F S1024x1024 .f32) (x1 : Vec F S1024x1024 .bf16) : out2_2 x0 x1 = k2_pay1 x0 x1 := by
  unfold out2_2
  rw [View.canon_unit_zero (S := S1024x1024) zero_offsets inb_S1024x1024_S1024x1024_0_0,
    View.ld_unit_zero (S := S1024x1024) zero_offsets inb_S1024x1024_S1024x1024_0_0,
    View.ld_unit_zero (S := S1024x1024) zero_offsets inb_S1024x1024_S1024x1024_0_0]

end Cert.KernelIdeal.Frame

end
-- ==== Proof.AttnDefs.lean ====
import proofs.«156199_j3478923510049_2_alg».proof.Proof.Gen.KernelIdeal.Launch
import proofs.«156199_j3478923510049_2_alg».proof.Proof.Gen.KernelIdeal.Skeleton
import proofs.«156199_j3478923510049_2_alg».proof.Proof.Gen.KernelIdeal.Points

import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ
/-! # The attention call's body: its three conditionals and one block step of the online softmax

The body runs at a grid point (query block, key block). It resets the three carried buffers (running row maximum,
running denominator, running numerator) when the key block is the first; takes one step of the online recurrence when
the key block is at or below the diagonal; and, when the key block is the last, divides the numerator by the
denominator (clamped below) and stores the result into the output block. -/

/-- The first conditional of the attention body: the key-block coordinate is 0. -/
abbrev cond1_0 (i : grid1.Coords) : Prop := (Scalar.cmpi .ne (Scalar.extui (Scalar.cmpi .eq (BitVec.ofNat 32 (i 1).val) 0#32)) 0#32) = 1#1
/-- The second: the key block is at or below the diagonal (key-block coordinate ≤ query-block coordinate). -/
abbrev cond1_1 (i : grid1.Coords) : Prop := (Scalar.cmpi .ne (Scalar.extui (Scalar.cmpi .sle (BitVec.ofNat 32 (i 1).val) (BitVec.ofNat 32 (i 0).val))) 0#32) = 1#1
/-- The third: the key-block coordinate is the last one. -/
abbrev cond1_2 (i : grid1.Coords) : Prop := k1_cond3 i = 1#1

/-- The two grid coordinates as the body's 32-bit words: the query block and the key block. -/
abbrev qw (i : grid1.Coords) : BitVec 32 := BitVec.ofNat 32 (i 0).val
abbrev kw (i : grid1.Coords) : BitVec 32 := BitVec.ofNat 32 (i 1).val

/-- What the reset stores: −∞ in the running maximum, 0 in the running denominator and numerator. -/
abbrev initM : Vec F S32x256x1 .f32 := k1_pay1
abbrev initL : Vec F S32x256x1 .f32 := k1_pay2
abbrev initA : Vec F S32x256x64 .f32 := k1_pay3

/-- One block step of the running row maximum: the old maximum against this block's masked, scaled scores. -/
abbrev stepM (i : grid1.Coords) (q k : Vec F S2x256x16x64 .f32) (mx : Vec F S32x256x1 .f32) : Vec F S32x256x1 .f32 :=
  k1_pay6 (k1_pay10 (qw i) (kw i) q k mx)
/-- One block step of the running denominator: the old one rescaled, plus this block's exponentials summed. -/
abbrev stepL (i : grid1.Coords) (q k : Vec F S2x256x16x64 .f32) (mx l : Vec F S32x256x1 .f32) : Vec F S32x256x1 .f32 :=
  k1_pay4 (k1_pay11 (qw i) (kw i) q k mx) (k1_pay12 (qw i) (kw i) q k mx) l
/-- One block step of the running numerator: the old one rescaled, plus this block's exponentials against the values. -/
abbrev stepA (i : grid1.Coords) (q k v : Vec F S2x256x16x64 .f32) (mx : Vec F S32x256x1 .f32) (acc : Vec F S32x256x64 .f32) : Vec F S32x256x64 .f32 :=
  k1_pay5 (k1_pay8 v) (k1_pay11 (qw i) (kw i) q k mx) (k1_pay12 (qw i) (kw i) q k mx) acc
/-- What the last key block stores into the output block: numerator over clamped denominator, heads moved back beside
    the positions. -/
abbrev finO (l : Vec F S32x256x1 .f32) (acc : Vec F S32x256x64 .f32) : Vec F S2x256x16x64 .f32 := k1_pay7 l acc

theorem hz3 : (![0, 0, 0] : Fin 3 → Nat) = fun _ => 0 := by funext a; fin_cases a <;> rfl
theorem hz4 : (![0, 0, 0, 0] : Fin 4 → Nat) = fun _ => 0 := by funext a; fin_cases a <;> rfl

/-- A store through the whole buffer, last, leaves its payload, whatever the buffer held and whatever was stored before. -/
theorem read_writes_whole {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

end Cert.KernelIdeal.Frame

end
-- ==== Proof.AttnPoints.lean ====
import proofs.«156199_j3478923510049_2_alg».proof.Proof.Gen.KernelIdeal.Launch
import proofs.«156199_j3478923510049_2_alg».proof.Proof.Gen.KernelIdeal.Skeleton
import proofs.«156199_j3478923510049_2_alg».proof.Proof.Gen.KernelIdeal.Points
import proofs.«156199_j3478923510049_2_alg».proof.Proof.AttnDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ
/-! # The attention call over its 64 grid points: the conditions in closed form, where the output window is idle,
the memrefs the body is called with, and the region's invariant with the three carried buffers named -/

/-- A grid point's number is 8 · (query block) + (key block): the first conditional holds where the key block is 0, -/
theorem hcond1_0 : ∀ t : Fin cfg1.N, cond1_0 (grid1.coords t) ↔ t.val % 8 = 0 :=
  (by decide +kernel : ∀ t : Fin grid1.N, cond1_0 (grid1.coords t) ↔ t.val % 8 = 0)
/-- the second where the key block is at or below the query block, -/
theorem hcond1_1 : ∀ t : Fin cfg1.N, cond1_1 (grid1.coords t) ↔ t.val % 8 ≤ t.val / 8 :=
  (by decide +kernel : ∀ t : Fin grid1.N, cond1_1 (grid1.coords t) ↔ t.val % 8 ≤ t.val / 8)
/-- the third where the key block is 7. -/
theorem hcond1_2 : ∀ t : Fin cfg1.N, cond1_2 (grid1.coords t) ↔ t.val % 8 = 7 :=
  (by decide +kernel : ∀ t : Fin grid1.N, cond1_2 (grid1.coords t) ↔ t.val % 8 = 7)

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- The output window is idle, and not written back, exactly where the key block is not the last. -/
theorem idleAt1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel
theorem liveAt1_3 : ∀ t : Fin cfg1.N, cond1_2 (grid1.coords t) → cfg1.idle 3 (grid1.coords t) = false := by decide +kernel

/-- Each window's current staging memref at point `t`, as the pipeline passes it to the body, and its wholeness. -/
abbrev ms1_0 (t : Fin cfg1.N) : Memref sig .tc .vmem S2x256x16x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2x256x16x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x256x16x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2x256x16x64 .f32 := win1_3.stage (cfg1.slots t 3)
abbrev hs1_3 (t : Fin cfg1.N) : (ms1_3 t).IsWhole := hstage1_3 ((cfg1.slots t 3).cast nbuf1_3)
/-- The three carried buffers: whole scoped buffers of the call's own, passed beside the windows. -/
abbrev scM1_0 : Memref sig .tc .vmem S32x256x1 .f32 := Memref.whole cc1_scratch0
abbrev scM1_1 : Memref sig .tc .vmem S32x256x1 .f32 := Memref.whole cc1_scratch1
abbrev scM1_2 : Memref sig .tc .vmem S32x256x64 .f32 := Memref.whole cc1_scratch2

/-- The region's invariant with what is known of the three carried buffers as parameters: every other scoped buffer
    that is no staging buffer of this call at some contents, and the generator register at some state. -/
def PhiWith (c : Dev nD) (P0 P1 P2 : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ P0 ∗ P1 ∗ P2 ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f)) ∗ ∃ r, prngReg c r)

/-- The class's invariant is that form with each carried buffer at some contents. -/
theorem PhiA1_eq (c : Dev nD) :
    (Pipeline.ΦA spec1 c : sProp 𝕄)
      = PhiWith c iprop(∃ d, owns (c : Thread nD τ) scM1_0 fullShare d) iprop(∃ d, owns (c : Thread nD τ) scM1_1 fullShare d) iprop(∃ d, owns (c : Thread nD τ) scM1_2 fullShare d) := by
  unfold Pipeline.ΦA PhiWith; rw [scopedRest1_eq]; simp only [scM1_0, scM1_1, scM1_2, owns_whole]; rfl

/-- The form is monotone in the three parameters. -/
theorem PhiWith_mono (c : Dev nD) {P0 P1 P2 Q0 Q1 Q2 : sProp 𝕄} (h0 : P0 ⊢ Q0) (h1 : P1 ⊢ Q1) (h2 : P2 ⊢ Q2) :
    PhiWith c P0 P1 P2 ⊢ PhiWith c Q0 Q1 Q2 := by
  unfold PhiWith
  iintro ⟨⟨Ha, Hb, Hc, Hd, He, Hf, H0, H1, H2, Hr⟩, Hg⟩
  isplitr [Hg]
  · isplitl [Ha]; · iexact Ha
    isplitl [Hb]; · iexact Hb
    isplitl [Hc]; · iexact Hc
    isplitl [Hd]; · iexact Hd
    isplitl [He]; · iexact He
    isplitl [Hf]; · iexact Hf
    isplitl [H0]; · iapply h0; iexact H0
    isplitl [H1]; · iapply h1; iexact H1
    isplitl [H2]; · iapply h2; iexact H2
    iexact Hr
  iexact Hg

end Cert.KernelIdeal.Frame

end
-- ==== Proof.AttnDat.lean ====
import proofs.«156199_j3478923510049_2_alg».proof.Proof.Gen.KernelIdeal.Launch
import proofs.«156199_j3478923510049_2_alg».proof.Proof.Gen.KernelIdeal.Skeleton
import proofs.«156199_j3478923510049_2_alg».proof.Proof.Gen.KernelIdeal.Points
import proofs.«156199_j3478923510049_2_alg».proof.Proof.AttnPoints
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ
/-! # The attention call's proof data: what the carried buffers hold after each grid point, and the region's invariant -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched the block index has not moved), for any proof data whose array is the entry contents and whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The carried buffers (running maximum, denominator, numerator) after one block step at point `t` from `s`. -/
def nextAt (c : Dev nD) (t : Fin cfg1.N) (s : Vec F S32x256x1 .f32 × Vec F S32x256x1 .f32 × Vec F S32x256x64 .f32) :
    Vec F S32x256x1 .f32 × Vec F S32x256x1 .f32 × Vec F S32x256x64 .f32 :=
  (stepM (grid1.coords t) (iblk1 V c 0 t) (iblk1 V c 1 t) s.1,
   stepL (grid1.coords t) (iblk1 V c 0 t) (iblk1 V c 1 t) s.1 s.2.1,
   stepA (grid1.coords t) (iblk1 V c 0 t) (iblk1 V c 1 t) (iblk1 V c 2 t) s.1 s.2.2)

/-- THE ACCUMULATION. What the carried buffers hold after the body at point `n` = 8 · (query block) + (key block):
    at a first key block one step from the reset values; at a key block at or below the diagonal one step from what
    the point before left; above the diagonal what the point before left. -/
def scAt (c : Dev nD) : (n : ℕ) → n < cfg1.N → Vec F S32x256x1 .f32 × Vec F S32x256x1 .f32 × Vec F S32x256x64 .f32
  | 0, hn => nextAt V c ⟨0, hn⟩ (initM, initL, initA)
  | n + 1, hn =>
    if (n + 1) % 8 = 0 then nextAt V c ⟨n + 1, hn⟩ (initM, initL, initA)
    else if (n + 1) % 8 ≤ (n + 1) / 8 then nextAt V c ⟨n + 1, hn⟩ (scAt c n (Nat.lt_of_succ_lt hn))
    else scAt c n (Nat.lt_of_succ_lt hn)

theorem scAt_first (c : Dev nD) (t : Fin cfg1.N) (h0 : t.val % 8 = 0) :
    scAt V c t.val t.isLt = nextAt V c t (initM, initL, initA) := by
  obtain ⟨n, hn⟩ := t
  cases n with
  | zero => rfl
  | succ n => exact if_pos h0

theorem scAt_step (c : Dev nD) (t : Fin cfg1.N) (h0 : ¬t.val % 8 = 0) (h1 : t.val % 8 ≤ t.val / 8) :
    scAt V c t.val t.isLt = nextAt V c t (scAt V c (t.val - 1) (Nat.lt_of_le_of_lt (Nat.sub_le _ _) t.isLt)) := by
  obtain ⟨n, hn⟩ := t
  cases n with
  | zero => exact absurd (Nat.zero_mod _) h0
  | succ n => exact (if_neg h0).trans ((if_pos h1).trans rfl)

theorem scAt_skip (c : Dev nD) (t : Fin cfg1.N) (h0 : ¬t.val % 8 = 0) (h1 : ¬t.val % 8 ≤ t.val / 8) :
    scAt V c t.val t.isLt = scAt V c (t.val - 1) (Nat.lt_of_le_of_lt (Nat.sub_le _ _) t.isLt) := by
  obtain ⟨n, hn⟩ := t
  cases n with
  | zero => exact absurd (Nat.zero_mod _) h0
  | succ n => exact (if_neg h0).trans ((if_neg h1).trans rfl)

/-- The region's invariant before point `n`: before the first point the class's (every carried buffer at anything);
    afterwards each carried buffer at what the point before left in it. -/
def PhiS (c : Dev nD) : (n : ℕ) → n ≤ cfg1.N → sProp 𝕄
  | 0, _ => Pipeline.ΦA spec1 c
  | n + 1, hn => PhiWith c (owns (c : Thread nD τ) scM1_0 fullShare (scAt V c n hn).1)
      (owns (c : Thread nD τ) scM1_1 fullShare (scAt V c n hn).2.1) (owns (c : Thread nD τ) scM1_2 fullShare (scAt V c n hn).2.2)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = PhiWith c (owns (c : Thread nD τ) scM1_0 fullShare (scAt V c n hn).1)
      (owns (c : Thread nD τ) scM1_1 fullShare (scAt V c n hn).2.1) (owns (c : Thread nD τ) scM1_2 fullShare (scAt V c n hn).2.2) := rfl

theorem PhiS_pos (c : Dev nD) (n : ℕ) (h : n ≤ cfg1.N) (hz : n ≠ 0) :
    PhiS V c n h = PhiWith c (owns (c : Thread nD τ) scM1_0 fullShare (scAt V c (n - 1) (by omega)).1)
      (owns (c : Thread nD τ) scM1_1 fullShare (scAt V c (n - 1) (by omega)).2.1) (owns (c : Thread nD τ) scM1_2 fullShare (scAt V c (n - 1) (by omega)).2.2) := by
  cases n with
  | zero => exact absurd rfl hz
  | succ n => rfl

/-- At every point the invariant gives each carried buffer at SOME contents. -/
theorem PhiS_any (c : Dev nD) (n : ℕ) (h : n ≤ cfg1.N) :
    PhiS V c n h ⊢ PhiWith c iprop(∃ d, owns (c : Thread nD τ) scM1_0 fullShare d) iprop(∃ d, owns (c : Thread nD τ) scM1_1 fullShare d) iprop(∃ d, owns (c : Thread nD τ) scM1_2 fullShare d) := by
  cases n with
  | zero => rw [PhiS_zero V c 0 h rfl, PhiA1_eq]
  | succ n =>
    rw [PhiS_succ]
    refine PhiWith_mono c ?_ ?_ ?_
    · iintro H; iexists _; iexact H
    · iintro H; iexists _; iexact H
    · iintro H; iexists _; iexact H

/-! ## The proof data -/

/-- The proof data of the attention pipeline on core `c`: the arrays as the region finds them; after the body at point
    `t` each input's buffer at its block and the output's at the quotient of what the carried numerator and denominator
    then hold (consulted only where the key block is the last: elsewhere the window is idle); the invariant above;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => finO (scAt V c t.val t.isLt).2.1 (scAt V c t.val t.isLt).2.2
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = finO (scAt V c t.val t.isLt).2.1 (scAt V c t.val t.isLt).2.2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.KernelIdeal.Frame

end
-- ==== Proof.AttnRunA.lean ====
import proofs.«156199_j3478923510049_2_alg».proof.Proof.Gen.KernelIdeal.Launch
import proofs.«156199_j3478923510049_2_alg».proof.Proof.Gen.KernelIdeal.Skeleton
import proofs.«156199_j3478923510049_2_alg».proof.Proof.Gen.KernelIdeal.Points
import proofs.«156199_j3478923510049_2_alg».proof.Proof.AttnDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- The body at a first key block: the carried buffers are reset, then take one step; the output's buffer is not touched.
    Whatever the carried buffers held before is overwritten. -/
theorem run1_A (c : Dev nD) (i : grid1.Coords) (arg2 : Memref sig .tc .vmem S2x256x16x64 .f32) (harg2 : arg2.IsWhole) (arg3 : Memref sig .tc .vmem S2x256x16x64 .f32) (harg3 : arg3.IsWhole) (arg4 : Memref sig .tc .vmem S2x256x16x64 .f32) (harg4 : arg4.IsWhole) (arg5 : Memref sig .tc .vmem S2x256x16x64 .f32) (harg5 : arg5.IsWhole) (arg6 : Memref sig .tc .vmem S32x256x1 .f32) (harg6 : arg6.IsWhole) (arg7 : Memref sig .tc .vmem S32x256x1 .f32) (harg7 : arg7.IsWhole) (arg8 : Memref sig .tc .vmem S32x256x64 .f32) (harg8 : arg8.IsWhole) (hc0 : cond1_0 i) (hc1 : cond1_1 i) (hc2 : ¬cond1_2 i)
    (x0 x1 x2 xi3 : Vec F S2x256x16x64 .f32) (xs0 xs1 : Vec F S32x256x1 .f32) (xs2 : Vec F S32x256x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (stepM i x0 x1 initM) ∗ owns (c : Thread nD τ) arg7 fullShare (stepL i x0 x1 initM initL) ∗ owns (c : Thread nD τ) arg8 fullShare (stepA i x0 x1 x2 initM initA)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3
  obtain rfl := harg6.eq_unread hfs0; obtain rfl := harg7.eq_unread hfs1; obtain rfl := harg8.eq_unread hfs2
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr; swap; · iexact HS0
    ipureintro
    refine (read_writes_whole _ _ hz3 _ _ _).trans ?_
    sl_unfold_run_names
    simp only [View.readAt_eq_ld, harg2.read_unread, harg3.read_unread, harg4.read_unread, harg5.read_unread, harg6.read_unread, harg7.read_unread, harg8.read_unread, View.ld_unit_zero (S := S2x256x16x64) hz4, View.ld_unit_zero (S := S32x256x1) hz3, View.ld_unit_zero (S := S32x256x64) hz3, View.readCov_unit_zero (S := S32x256x1) _ hz3, View.readCov_unit_zero (S := S32x256x64) _ hz3]
    try rfl
  isplitl [HS1]
  · iexists _; isplitr; swap; · iexact HS1
    ipureintro
    refine (read_writes_whole _ _ hz3 _ _ _).trans ?_
    sl_unfold_run_names
    simp only [View.readAt_eq_ld, harg2.read_unread, harg3.read_unread, harg4.read_unread, harg5.read_unread, harg6.read_unread, harg7.read_unread, harg8.read_unread, View.ld_unit_zero (S := S2x256x16x64) hz4, View.ld_unit_zero (S := S32x256x1) hz3, View.ld_unit_zero (S := S32x256x64) hz3, View.readCov_unit_zero (S := S32x256x1) _ hz3, View.readCov_unit_zero (S := S32x256x64) _ hz3]
    try rfl
  · iexists _; isplitr; swap; · iexact HS2
    ipureintro
    refine (read_writes_whole _ _ hz3 _ _ _).trans ?_
    sl_unfold_run_names
    simp only [View.readAt_eq_ld, harg2.read_unread, harg3.read_unread, harg4.read_unread, harg5.read_unread, harg6.read_unread, harg7.read_unread, harg8.read_unread, View.ld_unit_zero (S := S2x256x16x64) hz4, View.ld_unit_zero (S := S32x256x1) hz3, View.ld_unit_zero (S := S32x256x64) hz3, View.readCov_unit_zero (S := S32x256x1) _ hz3, View.readCov_unit_zero (S := S32x256x64) _ hz3]
    try rfl

end Cert.KernelIdeal.Frame

end
-- ==== Proof.AttnRunB.lean ====
import proofs.«156199_j3478923510049_2_alg».proof.Proof.Gen.KernelIdeal.Launch
import proofs.«156199_j3478923510049_2_alg».proof.Proof.Gen.KernelIdeal.Skeleton
import proofs.«156199_j3478923510049_2_alg».proof.Proof.Gen.KernelIdeal.Points
import proofs.«156199_j3478923510049_2_alg».proof.Proof.AttnDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- The body strictly inside the lower triangle (the key block is neither first nor last, and at or below the
    diagonal): each carried buffer takes one step of the online recurrence; the output's buffer is not touched. -/
theorem run1_B (c : Dev nD) (i : grid1.Coords) (arg2 : Memref sig .tc .vmem S2x256x16x64 .f32) (harg2 : arg2.IsWhole) (arg3 : Memref sig .tc .vmem S2x256x16x64 .f32) (harg3 : arg3.IsWhole) (arg4 : Memref sig .tc .vmem S2x256x16x64 .f32) (harg4 : arg4.IsWhole) (arg5 : Memref sig .tc .vmem S2x256x16x64 .f32) (harg5 : arg5.IsWhole) (arg6 : Memref sig .tc .vmem S32x256x1 .f32) (harg6 : arg6.IsWhole) (arg7 : Memref sig .tc .vmem S32x256x1 .f32) (harg7 : arg7.IsWhole) (arg8 : Memref sig .tc .vmem S32x256x64 .f32) (harg8 : arg8.IsWhole) (hc0 : ¬cond1_0 i) (hc1 : cond1_1 i) (hc2 : ¬cond1_2 i)
    (x0 x1 x2 xi3 : Vec F S2x256x16x64 .f32) (xs0 xs1 : Vec F S32x256x1 .f32) (xs2 : Vec F S32x256x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (stepM i x0 x1 xs0) ∗ owns (c : Thread nD τ) arg7 fullShare (stepL i x0 x1 xs0 xs1) ∗ owns (c : Thread nD τ) arg8 fullShare (stepA i x0 x1 x2 xs0 xs2)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3
  obtain rfl := harg6.eq_unread hfs0; obtain rfl := harg7.eq_unread hfs1; obtain rfl := harg8.eq_unread hfs2
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr; swap; · iexact HS0
    ipureintro
    refine (read_writes_whole _ _ hz3 _ _ _).trans ?_
    sl_unfold_run_names
    simp only [View.readAt_eq_ld, harg2.read_unread, harg3.read_unread, harg4.read_unread, harg5.read_unread, harg6.read_unread, harg7.read_unread, harg8.read_unread, View.ld_unit_zero (S := S2x256x16x64) hz4, View.ld_unit_zero (S := S32x256x1) hz3, View.ld_unit_zero (S := S32x256x64) hz3, View.readCov_unit_zero (S := S32x256x1) _ hz3, View.readCov_unit_zero (S := S32x256x64) _ hz3]
    try rfl
  isplitl [HS1]
  · iexists _; isplitr; swap; · iexact HS1
    ipureintro
    refine (read_writes_whole _ _ hz3 _ _ _).trans ?_
    sl_unfold_run_names
    simp only [View.readAt_eq_ld, harg2.read_unread, harg3.read_unread, harg4.read_unread, harg5.read_unread, harg6.read_unread, harg7.read_unread, harg8.read_unread, View.ld_unit_zero (S := S2x256x16x64) hz4, View.ld_unit_zero (S := S32x256x1) hz3, View.ld_unit_zero (S := S32x256x64) hz3, View.readCov_unit_zero (S := S32x256x1) _ hz3, View.readCov_unit_zero (S := S32x256x64) _ hz3]
    try rfl
  · iexists _; isplitr; swap; · iexact HS2
    ipureintro
    refine (read_writes_whole _ _ hz3 _ _ _).trans ?_
    sl_unfold_run_names
    simp only [View.readAt_eq_ld, harg2.read_unread, harg3.read_unread, harg4.read_unread, harg5.read_unread, harg6.read_unread, harg7.read_unread, harg8.read_unread, View.ld_unit_zero (S := S2x256x16x64) hz4, View.ld_unit_zero (S := S32x256x1) hz3, View.ld_unit_zero (S := S32x256x64) hz3, View.readCov_unit_zero (S := S32x256x1) _ hz3, View.readCov_unit_zero (S := S32x256x64) _ hz3]
    try rfl

end Cert.KernelIdeal.Frame

end
-- ==== Proof.AttnRunC.lean ====
import proofs.«156199_j3478923510049_2_alg».proof.Proof.Gen.KernelIdeal.Launch
import proofs.«156199_j3478923510049_2_alg».proof.Proof.Gen.KernelIdeal.Skeleton
import proofs.«156199_j3478923510049_2_alg».proof.Proof.Gen.KernelIdeal.Points
import proofs.«156199_j3478923510049_2_alg».proof.Proof.AttnDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- The body above the diagonal, not at the last key block: nothing is read or written. -/
theorem run1_C (c : Dev nD) (i : grid1.Coords) (arg2 : Memref sig .tc .vmem S2x256x16x64 .f32) (harg2 : arg2.IsWhole) (arg3 : Memref sig .tc .vmem S2x256x16x64 .f32) (harg3 : arg3.IsWhole) (arg4 : Memref sig .tc .vmem S2x256x16x64 .f32) (harg4 : arg4.IsWhole) (arg5 : Memref sig .tc .vmem S2x256x16x64 .f32) (harg5 : arg5.IsWhole) (arg6 : Memref sig .tc .vmem S32x256x1 .f32) (harg6 : arg6.IsWhole) (arg7 : Memref sig .tc .vmem S32x256x1 .f32) (harg7 : arg7.IsWhole) (arg8 : Memref sig .tc .vmem S32x256x64 .f32) (harg8 : arg8.IsWhole) (hc0 : ¬cond1_0 i) (hc1 : ¬cond1_1 i) (hc2 : ¬cond1_2 i)
    (x0 x1 x2 xi3 : Vec F S2x256x16x64 .f32) (xs0 xs1 : Vec F S32x256x1 .f32) (xs2 : Vec F S32x256x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3
  obtain rfl := harg6.eq_unread hfs0; obtain rfl := harg7.eq_unread hfs1; obtain rfl := harg8.eq_unread hfs2
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr; · ipureintro; exact harg6.read_unread _
    iexact HS0
  isplitl [HS1]
  · iexists _; isplitr; · ipureintro; exact harg7.read_unread _
    iexact HS1
  · iexists _; isplitr; · ipureintro; exact harg8.read_unread _
    iexact HS2

end Cert.KernelIdeal.Frame

end
-- ==== Proof.AttnRunD.lean ====
import proofs.«156199_j3478923510049_2_alg».proof.Proof.Gen.KernelIdeal.Launch
import proofs.«156199_j3478923510049_2_alg».proof.Proof.Gen.KernelIdeal.Skeleton
import proofs.«156199_j3478923510049_2_alg».proof.Proof.Gen.KernelIdeal.Points
import proofs.«156199_j3478923510049_2_alg».proof.Proof.AttnDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- The body at the last key block when it is on the diagonal: the carried buffers take one step, and the output block
    is stored from the new denominator and numerator. -/
theorem run1_D (c : Dev nD) (i : grid1.Coords) (arg2 : Memref sig .tc .vmem S2x256x16x64 .f32) (harg2 : arg2.IsWhole) (arg3 : Memref sig .tc .vmem S2x256x16x64 .f32) (harg3 : arg3.IsWhole) (arg4 : Memref sig .tc .vmem S2x256x16x64 .f32) (harg4 : arg4.IsWhole) (arg5 : Memref sig .tc .vmem S2x256x16x64 .f32) (harg5 : arg5.IsWhole) (arg6 : Memref sig .tc .vmem S32x256x1 .f32) (harg6 : arg6.IsWhole) (arg7 : Memref sig .tc .vmem S32x256x1 .f32) (harg7 : arg7.IsWhole) (arg8 : Memref sig .tc .vmem S32x256x64 .f32) (harg8 : arg8.IsWhole) (hc0 : ¬cond1_0 i) (hc1 : cond1_1 i) (hc2 : cond1_2 i)
    (x0 x1 x2 xi3 : Vec F S2x256x16x64 .f32) (xs0 xs1 : Vec F S32x256x1 .f32) (xs2 : Vec F S32x256x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
        ∗ (iprop(owns (c : Thread nD τ) arg2 fullShare x0 ∗ owns (c : Thread nD τ) arg3 fullShare x1 ∗ owns (c : Thread nD τ) arg4 fullShare x2 ∗ owns (c : Thread nD τ) arg5 fullShare (finO (stepL i x0 x1 xs0 xs1) (stepA i x0 x1 x2 xs0 xs2)) ∗ owns (c : Thread nD τ) arg6 fullShare (stepM i x0 x1 xs0) ∗ owns (c : Thread nD τ) arg7 fullShare (stepL i x0 x1 xs0 xs1) ∗ owns (c : Thread nD τ) arg8 fullShare (stepA i x0 x1 x2 xs0 xs2)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3
  obtain rfl := harg6.eq_unread hfs0; obtain rfl := harg7.eq_unread hfs1; obtain rfl := harg8.eq_unread hfs2
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (read_writes_whole _ _ hz4 _ _ _).trans ?_
    sl_unfold_run_names
    simp only [View.readAt_eq_ld, harg2.read_unread, harg3.read_unread, harg4.read_unread, harg5.read_unread, harg6.read_unread, harg7.read_unread, harg8.read_unread, View.ld_unit_zero (S := S2x256x16x64) hz4, View.ld_unit_zero (S := S32x256x1) hz3, View.ld_unit_zero (S := S32x256x64) hz3, View.readCov_unit_zero (S := S32x256x1) _ hz3, View.readCov_unit_zero (S := S32x256x64) _ hz3]
    try rfl
  isplitl [HS0]
  · iexists _; isplitr; swap; · iexact HS0
    ipureintro
    refine (read_writes_whole _ _ hz3 _ _ _).trans ?_
    sl_unfold_run_names
    simp only [View.readAt_eq_ld, harg2.read_unread, harg3.read_unread, harg4.read_unread, harg5.read_unread, harg6.read_unread, harg7.read_unread, harg8.read_unread, View.ld_unit_zero (S := S2x256x16x64) hz4, View.ld_unit_zero (S := S32x256x1) hz3, View.ld_unit_zero (S := S32x256x64) hz3, View.readCov_unit_zero (S := S32x256x1) _ hz3, View.readCov_unit_zero (S := S32x256x64) _ hz3]
    try rfl
  isplitl [HS1]
  · iexists _; isplitr; swap; · iexact HS1
    ipureintro
    refine (read_writes_whole _ _ hz3 _ _ _).trans ?_
    sl_unfold_run_names
    simp only [View.readAt_eq_ld, harg2.read_unread, harg3.read_unread, harg4.read_unread, harg5.read_unread, harg6.read_unread, harg7.read_unread, harg8.read_unread, View.ld_unit_zero (S := S2x256x16x64) hz4, View.ld_unit_zero (S := S32x256x1) hz3, View.ld_unit_zero (S := S32x256x64) hz3, View.readCov_unit_zero (S := S32x256x1) _ hz3, View.readCov_unit_zero (S := S32x256x64) _ hz3]
    try rfl
  · iexists _; isplitr; swap; · iexact HS2
    ipureintro
    refine (read_writes_whole _ _ hz3 _ _ _).trans ?_
    sl_unfold_run_names
    simp only [View.readAt_eq_ld, harg2.read_unread, harg3.read_unread, harg4.read_unread, harg5.read_unread, harg6.read_unread, harg7.read_unread, harg8.read_unread, View.ld_unit_zero (S := S2x256x16x64) hz4, View.ld_unit_zero (S := S32x256x1) hz3, View.ld_unit_zero (S := S32x256x64) hz3, View.readCov_unit_zero (S := S32x256x1) _ hz3, View.readCov_unit_zero (S := S32x256x64) _ hz3]
    try rfl

end Cert.KernelIdeal.Frame

end
-- ==== Proof.AttnRunE.lean ====
import proofs.«156199_j3478923510049_2_alg».proof.Proof.Gen.KernelIdeal.Launch
import proofs.«156199_j3478923510049_2_alg».proof.Proof.Gen.KernelIdeal.Skeleton
import proofs.«156199_j3478923510049_2_alg».proof.Proof.Gen.KernelIdeal.Points
import proofs.«156199_j3478923510049_2_alg».proof.Proof.AttnDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- The body at the last key block when it is above the diagonal: the carried buffers are only read, and the output
    block is stored from the denominator and numerator as they stand. -/
theorem run1_E (c : Dev nD) (i : grid1.Coords) (arg2 : Memref sig .tc .vmem S2x256x16x64 .f32) (harg2 : arg2.IsWhole) (arg3 : Memref sig .tc .vmem S2x256x16x64 .f32) (harg3 : arg3.IsWhole) (arg4 : Memref sig .tc .vmem S2x256x16x64 .f32) (harg4 : arg4.IsWhole) (arg5 : Memref sig .tc .vmem S2x256x16x64 .f32) (harg5 : arg5.IsWhole) (arg6 : Memref sig .tc .vmem S32x256x1 .f32) (harg6 : arg6.IsWhole) (arg7 : Memref sig .tc .vmem S32x256x1 .f32) (harg7 : arg7.IsWhole) (arg8 : Memref sig .tc .vmem S32x256x64 .f32) (harg8 : arg8.IsWhole) (hc0 : ¬cond1_0 i) (hc1 : ¬cond1_1 i) (hc2 : cond1_2 i)
    (x0 x1 x2 xi3 : Vec F S2x256x16x64 .f32) (xs0 xs1 : Vec F S32x256x1 .f32) (xs2 : Vec F S32x256x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
        ∗ (iprop(owns (c : Thread nD τ) arg2 fullShare x0 ∗ owns (c : Thread nD τ) arg3 fullShare x1 ∗ owns (c : Thread nD τ) arg4 fullShare x2 ∗ owns (c : Thread nD τ) arg5 fullShare (finO xs1 xs2) ∗ owns (c : Thread nD τ) arg6 fullShare xs0 ∗ owns (c : Thread nD τ) arg7 fullShare xs1 ∗ owns (c : Thread nD τ) arg8 fullShare xs2) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3
  obtain rfl := harg6.eq_unread hfs0; obtain rfl := harg7.eq_unread hfs1; obtain rfl := harg8.eq_unread hfs2
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (read_writes_whole _ _ hz4 _ _ _).trans ?_
    sl_unfold_run_names
    simp only [View.readAt_eq_ld, harg2.read_unread, harg3.read_unread, harg4.read_unread, harg5.read_unread, harg6.read_unread, harg7.read_unread, harg8.read_unread, View.ld_unit_zero (S := S2x256x16x64) hz4, View.ld_unit_zero (S := S32x256x1) hz3, View.ld_unit_zero (S := S32x256x64) hz3, View.readCov_unit_zero (S := S32x256x1) _ hz3, View.readCov_unit_zero (S := S32x256x64) _ hz3]
    try rfl
  isplitl [HS0]
  · iexists _; isplitr; · ipureintro; exact harg6.read_unread _
    iexact HS0
  isplitl [HS1]
  · iexists _; isplitr; · ipureintro; exact harg7.read_unread _
    iexact HS1
  · iexists _; isplitr; · ipureintro; exact harg8.read_unread _
    iexact HS2

end Cert.KernelIdeal.Frame

end
-- ==== Proof.AttnBody.lean ====
import proofs.«156199_j3478923510049_2_alg».proof.Proof.Gen.KernelIdeal.Launch
import proofs.«156199_j3478923510049_2_alg».proof.Proof.Gen.KernelIdeal.Skeleton
import proofs.«156199_j3478923510049_2_alg».proof.Proof.Gen.KernelIdeal.Points
import proofs.«156199_j3478923510049_2_alg».proof.Proof.AttnDat
import proofs.«156199_j3478923510049_2_alg».proof.Proof.AttnRunA
import proofs.«156199_j3478923510049_2_alg».proof.Proof.AttnRunB
import proofs.«156199_j3478923510049_2_alg».proof.Proof.AttnRunC
import proofs.«156199_j3478923510049_2_alg».proof.Proof.AttnRunD
import proofs.«156199_j3478923510049_2_alg».proof.Proof.AttnRunE
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ
/-! # The attention call's body obligation

Each control case of the body, run at a grid point under the region's invariant (the eleven scoped buffers of the other
calls and the generator register ride along untouched), then the choice of the case from the point's number. -/

variable (V : (c : Dev nD) → (b : Ref sig .tc) → Buf (Elt F) ((c : Thread nD τ).loc b))

/-- A first key block: whatever the carried buffers held, they end one step from the reset values. -/
theorem body1_A (c : Dev nD) (t : Fin cfg1.N) (h0 : t.val % 8 = 0) (O : sProp 𝕄) (xi3 : Vec F S2x256x16x64 .f32) (K : PUnit → sProp 𝕄) :
    iprop(PhiWith c iprop(∃ d, owns (c : Thread nD τ) scM1_0 fullShare d) iprop(∃ d, owns (c : Thread nD τ) scM1_1 fullShare d) iprop(∃ d, owns (c : Thread nD τ) scM1_2 fullShare d) ∗ O ∗ owns (c : Thread nD τ) (ms1_0 t) fullShare (iblk1 V c 0 t) ∗ owns (c : Thread nD τ) (ms1_1 t) fullShare (iblk1 V c 1 t) ∗ owns (c : Thread nD τ) (ms1_2 t) fullShare (iblk1 V c 2 t) ∗ owns (c : Thread nD τ) (ms1_3 t) fullShare xi3
        ∗ (iprop(PhiWith c (owns (c : Thread nD τ) scM1_0 fullShare (nextAt V c t (initM, initL, initA)).1) (owns (c : Thread nD τ) scM1_1 fullShare (nextAt V c t (initM, initL, initA)).2.1) (owns (c : Thread nD τ) scM1_2 fullShare (nextAt V c t (initM, initL, initA)).2.2) ∗ O ∗ owns (c : Thread nD τ) (ms1_0 t) fullShare (iblk1 V c 0 t) ∗ owns (c : Thread nD τ) (ms1_1 t) fullShare (iblk1 V c 1 t) ∗ owns (c : Thread nD τ) (ms1_2 t) fullShare (iblk1 V c 2 t) ∗ owns (c : Thread nD τ) (ms1_3 t) fullShare xi3) -∗ K ⟨⟩))
      ⊢ wp frame (wpE (defs₀ (F := F)) Variants.none c none) Set.univ (bodyAt1 (F := F) t) K := by
  have h1 : t.val % 8 ≤ t.val / 8 := by omega
  have h2 : ¬t.val % 8 = 7 := by omega
  unfold PhiWith bodyAt1
  iintro ⟨⟨⟨Ha, Hb, Hc, Hd, He, Hf, ⟨%e0, HS0⟩, ⟨%e1, HS1⟩, ⟨%e2, HS2⟩, Hr⟩, Hg⟩, HO, H0, H1, H2, H3, Hk⟩
  iapply (run1_A c (grid1.coords t) _ _ _ _ _ _ _ _ _ _ _ _ _ _ ((hcond1_0 t).mpr h0) ((hcond1_1 t).mpr h1) (fun h => h2 ((hcond1_2 t).mp h)) (iblk1 V c 0 t) (iblk1 V c 1 t) (iblk1 V c 2 t) xi3 e0 e1 e2 Set.univ K)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  iapply Hk
  isplitr [HO H0 H1 H2 H3]
  · isplitr [Hg]
    · isplitl [Ha]; · iexact Ha
      isplitl [Hb]; · iexact Hb
      isplitl [Hc]; · iexact Hc
      isplitl [Hd]; · iexact Hd
      isplitl [He]; · iexact He
      isplitl [Hf]; · iexact Hf
      isplitl [HS0]; · iexact HS0
      isplitl [HS1]; · iexact HS1
      isplitl [HS2]; · iexact HS2
      iexact Hr
    iexact Hg
  isplitl [HO]; · iexact HO
  isplitl [H0]; · iexact H0
  isplitl [H1]; · iexact H1
  isplitl [H2]; · iexact H2
  iexact H3

/-- Strictly inside the lower triangle: the carried buffers take one step. -/
theorem body1_B (c : Dev nD) (t : Fin cfg1.N) (h0 : ¬t.val % 8 = 0) (h1 : t.val % 8 ≤ t.val / 8) (h2 : ¬t.val % 8 = 7) (s : Vec F S32x256x1 .f32 × Vec F S32x256x1 .f32 × Vec F S32x256x64 .f32) (O : sProp 𝕄) (xi3 : Vec F S2x256x16x64 .f32) (K : PUnit → sProp 𝕄) :
    iprop(PhiWith c (owns (c : Thread nD τ) scM1_0 fullShare (s).1) (owns (c : Thread nD τ) scM1_1 fullShare (s).2.1) (owns (c : Thread nD τ) scM1_2 fullShare (s).2.2) ∗ O ∗ owns (c : Thread nD τ) (ms1_0 t) fullShare (iblk1 V c 0 t) ∗ owns (c : Thread nD τ) (ms1_1 t) fullShare (iblk1 V c 1 t) ∗ owns (c : Thread nD τ) (ms1_2 t) fullShare (iblk1 V c 2 t) ∗ owns (c : Thread nD τ) (ms1_3 t) fullShare xi3
        ∗ (iprop(PhiWith c (owns (c : Thread nD τ) scM1_0 fullShare (nextAt V c t s).1) (owns (c : Thread nD τ) scM1_1 fullShare (nextAt V c t s).2.1) (owns (c : Thread nD τ) scM1_2 fullShare (nextAt V c t s).2.2) ∗ O ∗ owns (c : Thread nD τ) (ms1_0 t) fullShare (iblk1 V c 0 t) ∗ owns (c : Thread nD τ) (ms1_1 t) fullShare (iblk1 V c 1 t) ∗ owns (c : Thread nD τ) (ms1_2 t) fullShare (iblk1 V c 2 t) ∗ owns (c : Thread nD τ) (ms1_3 t) fullShare xi3) -∗ K ⟨⟩))
      ⊢ wp frame (wpE (defs₀ (F := F)) Variants.none c none) Set.univ (bodyAt1 (F := F) t) K := by
  unfold PhiWith bodyAt1
  iintro ⟨⟨⟨Ha, Hb, Hc, Hd, He, Hf, HS0, HS1, HS2, Hr⟩, Hg⟩, HO, H0, H1, H2, H3, Hk⟩
  iapply (run1_B c (grid1.coords t) _ _ _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) xi3 s.1 s.2.1 s.2.2 Set.univ K)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  iapply Hk
  isplitr [HO H0 H1 H2 H3]
  · isplitr [Hg]
    · isplitl [Ha]; · iexact Ha
      isplitl [Hb]; · iexact Hb
      isplitl [Hc]; · iexact Hc
      isplitl [Hd]; · iexact Hd
      isplitl [He]; · iexact He
      isplitl [Hf]; · iexact Hf
      isplitl [HS0]; · iexact HS0
      isplitl [HS1]; · iexact HS1
      isplitl [HS2]; · iexact HS2
      iexact Hr
    iexact Hg
  isplitl [HO]; · iexact HO
  isplitl [H0]; · iexact H0
  isplitl [H1]; · iexact H1
  isplitl [H2]; · iexact H2
  iexact H3

/-- Above the diagonal, not at the last key block: nothing changes. -/
theorem body1_C (c : Dev nD) (t : Fin cfg1.N) (h0 : ¬t.val % 8 = 0) (h1 : ¬t.val % 8 ≤ t.val / 8) (h2 : ¬t.val % 8 = 7) (s : Vec F S32x256x1 .f32 × Vec F S32x256x1 .f32 × Vec F S32x256x64 .f32) (O : sProp 𝕄) (xi3 : Vec F S2x256x16x64 .f32) (K : PUnit → sProp 𝕄) :
    iprop(PhiWith c (owns (c : Thread nD τ) scM1_0 fullShare (s).1) (owns (c : Thread nD τ) scM1_1 fullShare (s).2.1) (owns (c : Thread nD τ) scM1_2 fullShare (s).2.2) ∗ O ∗ owns (c : Thread nD τ) (ms1_0 t) fullShare (iblk1 V c 0 t) ∗ owns (c : Thread nD τ) (ms1_1 t) fullShare (iblk1 V c 1 t) ∗ owns (c : Thread nD τ) (ms1_2 t) fullShare (iblk1 V c 2 t) ∗ owns (c : Thread nD τ) (ms1_3 t) fullShare xi3
        ∗ (iprop(PhiWith c (owns (c : Thread nD τ) scM1_0 fullShare (s).1) (owns (c : Thread nD τ) scM1_1 fullShare (s).2.1) (owns (c : Thread nD τ) scM1_2 fullShare (s).2.2) ∗ O ∗ owns (c : Thread nD τ) (ms1_0 t) fullShare (iblk1 V c 0 t) ∗ owns (c : Thread nD τ) (ms1_1 t) fullShare (iblk1 V c 1 t) ∗ owns (c : Thread nD τ) (ms1_2 t) fullShare (iblk1 V c 2 t) ∗ owns (c : Thread nD τ) (ms1_3 t) fullShare xi3) -∗ K ⟨⟩))
      ⊢ wp frame (wpE (defs₀ (F := F)) Variants.none c none) Set.univ (bodyAt1 (F := F) t) K := by
  unfold PhiWith bodyAt1
  iintro ⟨⟨⟨Ha, Hb, Hc, Hd, He, Hf, HS0, HS1, HS2, Hr⟩, Hg⟩, HO, H0, H1, H2, H3, Hk⟩
  iapply (run1_C c (grid1.coords t) _ _ _ _ _ _ _ _ _ _ _ _ _ _ (fun h => h0 ((hcond1_0 t).mp h)) (fun h => h1 ((hcond1_1 t).mp h)) (fun h => h2 ((hcond1_2 t).mp h)) (iblk1 V c 0 t) (iblk1 V c 1 t) (iblk1 V c 2 t) xi3 s.1 s.2.1 s.2.2 Set.univ K)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  iapply Hk
  isplitr [HO H0 H1 H2 H3]
  · isplitr [Hg]
    · isplitl [Ha]; · iexact Ha
      isplitl [Hb]; · iexact Hb
      isplitl [Hc]; · iexact Hc
      isplitl [Hd]; · iexact Hd
      isplitl [He]; · iexact He
      isplitl [Hf]; · iexact Hf
      isplitl [HS0]; · iexact HS0
      isplitl [HS1]; · iexact HS1
      isplitl [HS2]; · iexact HS2
      iexact Hr
    iexact Hg
  isplitl [HO]; · iexact HO
  isplitl [H0]; · iexact H0
  isplitl [H1]; · iexact H1
  isplitl [H2]; · iexact H2
  iexact H3

/-- The last key block on the diagonal: one step, and the output block is the quotient of the new numerator and denominator. -/
theorem body1_D (c : Dev nD) (t : Fin cfg1.N) (h0 : ¬t.val % 8 = 0) (h1 : t.val % 8 ≤ t.val / 8) (h2 : t.val % 8 = 7) (s : Vec F S32x256x1 .f32 × Vec F S32x256x1 .f32 × Vec F S32x256x64 .f32) (O : sProp 𝕄) (xi3 : Vec F S2x256x16x64 .f32) (K : PUnit → sProp 𝕄) :
    iprop(PhiWith c (owns (c : Thread nD τ) scM1_0 fullShare (s).1) (owns (c : Thread nD τ) scM1_1 fullShare (s).2.1) (owns (c : Thread nD τ) scM1_2 fullShare (s).2.2) ∗ O ∗ owns (c : Thread nD τ) (ms1_0 t) fullShare (iblk1 V c 0 t) ∗ owns (c : Thread nD τ) (ms1_1 t) fullShare (iblk1 V c 1 t) ∗ owns (c : Thread nD τ) (ms1_2 t) fullShare (iblk1 V c 2 t) ∗ owns (c : Thread nD τ) (ms1_3 t) fullShare xi3
        ∗ (iprop(PhiWith c (owns (c : Thread nD τ) scM1_0 fullShare (nextAt V c t s).1) (owns (c : Thread nD τ) scM1_1 fullShare (nextAt V c t s).2.1) (owns (c : Thread nD τ) scM1_2 fullShare (nextAt V c t s).2.2) ∗ O ∗ owns (c : Thread nD τ) (ms1_0 t) fullShare (iblk1 V c 0 t) ∗ owns (c : Thread nD τ) (ms1_1 t) fullShare (iblk1 V c 1 t) ∗ owns (c : Thread nD τ) (ms1_2 t) fullShare (iblk1 V c 2 t) ∗ owns (c : Thread nD τ) (ms1_3 t) fullShare (finO (nextAt V c t s).2.1 (nextAt V c t s).2.2)) -∗ K ⟨⟩))
      ⊢ wp frame (wpE (defs₀ (F := F)) Variants.none c none) Set.univ (bodyAt1 (F := F) t) K := by
  unfold PhiWith bodyAt1
  iintro ⟨⟨⟨Ha, Hb, Hc, Hd, He, Hf, HS0, HS1, HS2, Hr⟩, Hg⟩, HO, H0, H1, H2, H3, Hk⟩
  iapply (run1_D c (grid1.coords t) _ _ _ _ _ _ _ _ _ _ _ _ _ _ (fun h => h0 ((hcond1_0 t).mp h)) ((hcond1_1 t).mpr h1) ((hcond1_2 t).mpr h2) (iblk1 V c 0 t) (iblk1 V c 1 t) (iblk1 V c 2 t) xi3 s.1 s.2.1 s.2.2 Set.univ K)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  iapply Hk
  isplitr [HO H0 H1 H2 H3]
  · isplitr [Hg]
    · isplitl [Ha]; · iexact Ha
      isplitl [Hb]; · iexact Hb
      isplitl [Hc]; · iexact Hc
      isplitl [Hd]; · iexact Hd
      isplitl [He]; · iexact He
      isplitl [Hf]; · iexact Hf
      isplitl [HS0]; · iexact HS0
      isplitl [HS1]; · iexact HS1
      isplitl [HS2]; · iexact HS2
      iexact Hr
    iexact Hg
  isplitl [HO]; · iexact HO
  isplitl [H0]; · iexact H0
  isplitl [H1]; · iexact H1
  isplitl [H2]; · iexact H2
  iexact H3

/-- The last key block above the diagonal: the output block is the quotient of the numerator and denominator as they stand. -/
theorem body1_E (c : Dev nD) (t : Fin cfg1.N) (h0 : ¬t.val % 8 = 0) (h1 : ¬t.val % 8 ≤ t.val / 8) (h2 : t.val % 8 = 7) (s : Vec F S32x256x1 .f32 × Vec F S32x256x1 .f32 × Vec F S32x256x64 .f32) (O : sProp 𝕄) (xi3 : Vec F S2x256x16x64 .f32) (K : PUnit → sProp 𝕄) :
    iprop(PhiWith c (owns (c : Thread nD τ) scM1_0 fullShare (s).1) (owns (c : Thread nD τ) scM1_1 fullShare (s).2.1) (owns (c : Thread nD τ) scM1_2 fullShare (s).2.2) ∗ O ∗ owns (c : Thread nD τ) (ms1_0 t) fullShare (iblk1 V c 0 t) ∗ owns (c : Thread nD τ) (ms1_1 t) fullShare (iblk1 V c 1 t) ∗ owns (c : Thread nD τ) (ms1_2 t) fullShare (iblk1 V c 2 t) ∗ owns (c : Thread nD τ) (ms1_3 t) fullShare xi3
        ∗ (iprop(PhiWith c (owns (c : Thread nD τ) scM1_0 fullShare (s).1) (owns (c : Thread nD τ) scM1_1 fullShare (s).2.1) (owns (c : Thread nD τ) scM1_2 fullShare (s).2.2) ∗ O ∗ owns (c : Thread nD τ) (ms1_0 t) fullShare (iblk1 V c 0 t) ∗ owns (c : Thread nD τ) (ms1_1 t) fullShare (iblk1 V c 1 t) ∗ owns (c : Thread nD τ) (ms1_2 t) fullShare (iblk1 V c 2 t) ∗ owns (c : Thread nD τ) (ms1_3 t) fullShare (finO s.2.1 s.2.2)) -∗ K ⟨⟩))
      ⊢ wp frame (wpE (defs₀ (F := F)) Variants.none c none) Set.univ (bodyAt1 (F := F) t) K := by
  unfold PhiWith bodyAt1
  iintro ⟨⟨⟨Ha, Hb, Hc, Hd, He, Hf, HS0, HS1, HS2, Hr⟩, Hg⟩, HO, H0, H1, H2, H3, Hk⟩
  iapply (run1_E c (grid1.coords t) _ _ _ _ _ _ _ _ _ _ _ _ _ _ (fun h => h0 ((hcond1_0 t).mp h)) (fun h => h1 ((hcond1_1 t).mp h)) ((hcond1_2 t).mpr h2) (iblk1 V c 0 t) (iblk1 V c 1 t) (iblk1 V c 2 t) xi3 s.1 s.2.1 s.2.2 Set.univ K)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  iapply Hk
  isplitr [HO H0 H1 H2 H3]
  · isplitr [Hg]
    · isplitl [Ha]; · iexact Ha
      isplitl [Hb]; · iexact Hb
      isplitl [Hc]; · iexact Hc
      isplitl [Hd]; · iexact Hd
      isplitl [He]; · iexact He
      isplitl [Hf]; · iexact Hf
      isplitl [HS0]; · iexact HS0
      isplitl [HS1]; · iexact HS1
      isplitl [HS2]; · iexact HS2
      iexact Hr
    iexact Hg
  isplitl [HO]; · iexact HO
  isplitl [H0]; · iexact H0
  isplitl [H1]; · iexact H1
  isplitl [H2]; · iexact H2
  iexact H3

/-! ## The obligation at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- The body at any point: the inputs' buffers hold their blocks; the point's number says which case it is in; the
    invariant hands over the carried buffers at what the point before left (at anything before a first key block) and
    takes them back at this point's contents; the output's buffer is handed back untouched where the window is idle
    and at the quotient where the key block is the last; the core owes nothing throughout. -/
theorem sound_body1 (c : Dev nD) (t : Fin cfg1.N) :
    bodyPre1 V c t ⊢ wp frame (wpE (defs₀ (F := F)) Variants.none c none) Set.univ (bodyAt1 (F := F) t) (fun _ => bodyPost1 V c t) := by
  unfold bodyPre1 bodyPost1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 64 := lt_of_lt_of_eq t.isLt (show cfg1.N = 64 from N_1)
  by_cases h0 : t.val % 8 = 0
  · have h2 : ¬t.val % 8 = 7 := by omega
    rw [Dat.leavesExact_idle (dat1 V c) 3 t (idleAt1_3 t (fun h => h2 ((hcond1_2 t).mp h))) (noFlush1_3 t (fun h => h2 ((hcond1_2 t).mp h)))]
    rw [scAt_first V c t h0]
    rw [PhiS_castSucc]
    iintro ⟨HP, Ho, ⟨%d0, H0⟩, ⟨%d1, H1⟩, ⟨%d2, H2⟩, ⟨%d3, H3⟩⟩
    ihave HQ := (PhiS_any V c t.val (Nat.le_of_lt t.isLt)) $$ HP
    iapply (body1_A V c t h0 ((dat1 V c).owesAt () t.castSucc) ((dat1 V c).before 3 t d3) _)
    isplitl [HQ]; · iexact HQ
    isplitl [Ho]; · iexact Ho
    isplitl [H0]; · iexact H0
    isplitl [H1]; · iexact H1
    isplitl [H2]; · iexact H2
    isplitl [H3]; · iexact H3
    iintro ⟨HP, Ho, H0, H1, H2, H3⟩
    isplitl [HP]; · iexact HP
    isplitl [Ho]; · iexact Ho
    isplitl [H0]; · iexact H0
    isplitl [H1]; · iexact H1
    isplitl [H2]; · iexact H2
    iexists d3; iexact H3
  · have hz : t.val ≠ 0 := fun h => h0 (by rw [h])
    by_cases h1 : t.val % 8 ≤ t.val / 8
    · by_cases h2 : t.val % 8 = 7
      · rw [show (dat1 V c).leavesExact 3 t = owns (c : Thread nD τ) (ms1_3 t) fullShare ((dat1 V c).after 3 t) from by
          unfold Dat.leavesExact; rw [liveAt1_3 t ((hcond1_2 t).mpr h2)]]
        rw [after1_3]
        rw [scAt_step V c t h0 h1]
        rw [PhiS_castSucc, PhiS_pos V c _ _ hz]
        iintro ⟨HQ, Ho, ⟨%d0, H0⟩, ⟨%d1, H1⟩, ⟨%d2, H2⟩, ⟨%d3, H3⟩⟩
        iapply (body1_D V c t h0 h1 h2 (scAt V c (t.val - 1) (Nat.lt_of_le_of_lt (Nat.sub_le _ _) t.isLt)) ((dat1 V c).owesAt () t.castSucc) ((dat1 V c).before 3 t d3) _)
        isplitl [HQ]; · iexact HQ
        isplitl [Ho]; · iexact Ho
        isplitl [H0]; · iexact H0
        isplitl [H1]; · iexact H1
        isplitl [H2]; · iexact H2
        isplitl [H3]; · iexact H3
        iintro ⟨HP, Ho, H0, H1, H2, H3⟩
        isplitl [HP]; · iexact HP
        isplitl [Ho]; · iexact Ho
        isplitl [H0]; · iexact H0
        isplitl [H1]; · iexact H1
        isplitl [H2]; · iexact H2
        iexact H3
      · rw [Dat.leavesExact_idle (dat1 V c) 3 t (idleAt1_3 t (fun h => h2 ((hcond1_2 t).mp h))) (noFlush1_3 t (fun h => h2 ((hcond1_2 t).mp h)))]
        rw [scAt_step V c t h0 h1]
        rw [PhiS_castSucc, PhiS_pos V c _ _ hz]
        iintro ⟨HQ, Ho, ⟨%d0, H0⟩, ⟨%d1, H1⟩, ⟨%d2, H2⟩, ⟨%d3, H3⟩⟩
        iapply (body1_B V c t h0 h1 h2 (scAt V c (t.val - 1) (Nat.lt_of_le_of_lt (Nat.sub_le _ _) t.isLt)) ((dat1 V c).owesAt () t.castSucc) ((dat1 V c).before 3 t d3) _)
        isplitl [HQ]; · iexact HQ
        isplitl [Ho]; · iexact Ho
        isplitl [H0]; · iexact H0
        isplitl [H1]; · iexact H1
        isplitl [H2]; · iexact H2
        isplitl [H3]; · iexact H3
        iintro ⟨HP, Ho, H0, H1, H2, H3⟩
        isplitl [HP]; · iexact HP
        isplitl [Ho]; · iexact Ho
        isplitl [H0]; · iexact H0
        isplitl [H1]; · iexact H1
        isplitl [H2]; · iexact H2
        iexists d3; iexact H3
    · by_cases h2 : t.val % 8 = 7
      · rw [show (dat1 V c).leavesExact 3 t = owns (c : Thread nD τ) (ms1_3 t) fullShare ((dat1 V c).after 3 t) from by
          unfold Dat.leavesExact; rw [liveAt1_3 t ((hcond1_2 t).mpr h2)]]
        rw [after1_3]
        rw [scAt_skip V c t h0 h1]
        rw [PhiS_castSucc, PhiS_pos V c _ _ hz]
        iintro ⟨HQ, Ho, ⟨%d0, H0⟩, ⟨%d1, H1⟩, ⟨%d2, H2⟩, ⟨%d3, H3⟩⟩
        iapply (body1_E V c t h0 h1 h2 (scAt V c (t.val - 1) (Nat.lt_of_le_of_lt (Nat.sub_le _ _) t.isLt)) ((dat1 V c).owesAt () t.castSucc) ((dat1 V c).before 3 t d3) _)
        isplitl [HQ]; · iexact HQ
        isplitl [Ho]; · iexact Ho
        isplitl [H0]; · iexact H0
        isplitl [H1]; · iexact H1
        isplitl [H2]; · iexact H2
        isplitl [H3]; · iexact H3
        iintro ⟨HP, Ho, H0, H1, H2, H3⟩
        isplitl [HP]; · iexact HP
        isplitl [Ho]; · iexact Ho
        isplitl [H0]; · iexact H0
        isplitl [H1]; · iexact H1
        isplitl [H2]; · iexact H2
        iexact H3
      · rw [Dat.leavesExact_idle (dat1 V c) 3 t (idleAt1_3 t (fun h => h2 ((hcond1_2 t).mp h))) (noFlush1_3 t (fun h => h2 ((hcond1_2 t).mp h)))]
        rw [scAt_skip V c t h0 h1]
        rw [PhiS_castSucc, PhiS_pos V c _ _ hz]
        iintro ⟨HQ, Ho, ⟨%d0, H0⟩, ⟨%d1, H1⟩, ⟨%d2, H2⟩, ⟨%d3, H3⟩⟩
        iapply (body1_C V c t h0 h1 h2 (scAt V c (t.val - 1) (Nat.lt_of_le_of_lt (Nat.sub_le _ _) t.isLt)) ((dat1 V c).owesAt () t.castSucc) ((dat1 V c).before 3 t d3) _)
        isplitl [HQ]; · iexact HQ
        isplitl [Ho]; · iexact Ho
        isplitl [H0]; · iexact H0
        isplitl [H1]; · iexact H1
        isplitl [H2]; · iexact H2
        isplitl [H3]; · iexact H3
        iintro ⟨HP, Ho, H0, H1, H2, H3⟩
        isplitl [HP]; · iexact HP
        isplitl [Ho]; · iexact Ho
        isplitl [H0]; · iexact H0
        isplitl [H1]; · iexact H1
        isplitl [H2]; · iexact H2
        iexists d3; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives the class's back: the carried buffers' contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl, PhiA1_eq]
  exact PhiS_any V c _ _

end Cert.KernelIdeal.Frame

end
-- ==== Proof.FrameRun.lean ====
import proofs.«156199_j3478923510049_2_alg».proof.Proof.Gen.KernelIdeal.Launch
import proofs.«156199_j3478923510049_2_alg».proof.Proof.Gen.KernelIdeal.Skeleton
import proofs.«156199_j3478923510049_2_alg».proof.Proof.Gen.KernelIdeal.Points
import proofs.«156199_j3478923510049_2_alg».proof.Proof.FrameMatmul
import proofs.«156199_j3478923510049_2_alg».proof.Proof.AttnBody
import Idealize.ShloMosaic.Lib.Pipeline.FrameBody
import Idealize.ShloMosaic.Lib.Pipeline.Regions
import Idealize.ShloMosaic.Lib.Pipeline.RegionsLoop
import Idealize.ShloMosaic.Lib.Pipeline.FrameSuffix
import Idealize.ShloMosaic.Lib.Ring
import Idealize.ShloMosaic.Lib.Tactic

/-! THE RUN of @main from the launch to the return: three kernel regions among four stretches of host operations.
    The buffer contents at every boundary between two of them, as a fold from the launch memory (a stretch's
    `StableHlo.after`; a region's arrays at what its write-backs leave, every other buffer as entered); every
    pipeline's proof data at its region's entry contents; each stretch and each region as a segment over the thread
    state "every unscoped buffer at the boundary's contents, the generator register at some state, nothing owed";
    and the launch over the segments: every final memory holds the last boundary's contents, in particular the
    argument arrays as launched. -/

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # The buffer contents at each boundary: a fold through @main -/

/-- Core `c`'s buffers at launch. -/
abbrev W0 : Dev nD → Valuation τ sig (Elt F) := fun c b => (s₀ m ρ).mem ((c : Dev nD), b)
/-- After `hostOps0` (region 0's entry). -/
abbrev W1 : Dev nD → Valuation τ sig (Elt F) := fun c => StableHlo.after hostOps0 (W0 m ρ c)

/-- The same read at the TensorCore's references (what region 0's proof data take). -/
abbrev U1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev U2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)

/-- The same read at the TensorCore's references (what region 1's proof data take). -/
abbrev U3 : (c : Dev nD) → (b : Ref sig .tc) → Buf (Elt F) ((c : Thread nD τ).loc b) := fun c b => W3 m ρ c b
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev U4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)

/-- The same read at the TensorCore's references (what region 2's proof data take). -/
abbrev U5 : (c : Dev nD) → (b : Ref sig .tc) → Buf (Elt F) ((c : Thread nD τ).loc b) := fun c b => W5 m ρ c b
/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev U6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)

/-- After `hostOps3` (the return). -/
abbrev W7 : Dev nD → Valuation τ sig (Elt F) := fun c => StableHlo.after hostOps3 (W6 m ρ c)

/-! # The proof data family and the thread state -/

/-- The prefetched tables' admissible contents: no pipeline has a table. -/
abbrev adm3 : (p : Fin 3) → (pcfgs (F := F) p).Adm := fun p => (cfgs p).toPCfg_adm
/-- Every pipeline's proof data, each at its region's entry contents: a literal `match`, so that the pinned
    configuration at a numeral reduces to the printed one. -/
def pdats3 : (p : Fin 3) → (c : Dev nD) → Dat τ (Elt F) Unit ℕ (UR sig nD τ) ℕ (Pipeline.pin (pcfgs (F := F)) adm3 p) c
  | ⟨0, _⟩ => fun c => dat0 (U1 m ρ) c
  | ⟨1, _⟩ => fun c => dat1 (U3 m ρ) c
  | ⟨2, _⟩ => fun c => dat2 (U5 m ρ) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along (its `post`
    is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_fresh : (hostOps0 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor
/-- No operation of `hostOps3` allocates a buffer. -/
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

/-! # The regions as segments -/

-- `iapply` of a library lemma stated over the pinned configuration unifies with it only when unification may unfold
-- plain definitions in a metavariable's type
set_option backward.isDefEq.respectTransparency.types false in
/-- REGION 0 (custom_call 0) over the thread state: entered from every unscoped buffer at `W1`, left at `W2`
    (what the next segment is entered from). Its arrays split out of the unscoped buffers and put back at the exit
    contents; the generator register into the class invariant and out; nothing owed; no semaphore of the kernel's own. -/
def reg0 : Pipeline.RegionSeg (pcfgs (F := F)) adm3 (pdats3 m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm3 (pdats3 m ρ) launch0.win launch0.arr_whole c
      ((pdats3 m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats3 m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats3 m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm3 (Ix := Unit) (Name := ℕ) (U := UR sig nD τ) (Lvl := ℕ)
      launch0.win launch0.arr_whole c (pdats3 m ρ) ((pdats3 m ρ 0 c).share_full fun _ => rfl)
      (U1 m ρ c) (U2 m ρ c) ((pdats3 m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies with it only when unification may unfold
-- plain definitions in a metavariable's type
set_option backward.isDefEq.respectTransparency.types false in
/-- REGION 1 (custom_call 1) over the thread state: entered from every unscoped buffer at `W3`, left at `W4`
    (what the next segment is entered from). Its arrays split out of the unscoped buffers and put back at the exit
    contents; the generator register into the class invariant and out; nothing owed; no semaphore of the kernel's own. -/
def reg1 : Pipeline.RegionSeg (pcfgs (F := F)) adm3 (pdats3 m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm3 (pdats3 m ρ) launch1.win launch1.arr_whole c
      ((pdats3 m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (hin1 (U3 m ρ) c)
    unfold Pipeline.ΦA
    iintro ⟨Hp, -, Hr⟩
    isplitl [Hr]; · iexact Hr
    iexact Hp
  hout c := by
    refine (hout1 (U3 m ρ) c).trans (?_ : Pipeline.ΦA spec1 c ⊢ _)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm3 (Ix := Unit) (Name := ℕ) (U := UR sig nD τ) (Lvl := ℕ)
      launch1.win launch1.arr_whole c (pdats3 m ρ) ((pdats3 m ρ 1 c).share_full fun _ => rfl)
      (U3 m ρ c) (U4 m ρ c) ((pdats3 m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies with it only when unification may unfold
-- plain definitions in a metavariable's type
set_option backward.isDefEq.respectTransparency.types false in
/-- REGION 2 (custom_call 2) over the thread state: entered from every unscoped buffer at `W5`, left at `W6`
    (what the next segment is entered from). Its arrays split out of the unscoped buffers and put back at the exit
    contents; the generator register into the class invariant and out; nothing owed; no semaphore of the kernel's own. -/
def reg2 : Pipeline.RegionSeg (pcfgs (F := F)) adm3 (pdats3 m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm3 (pdats3 m ρ) launch2.win launch2.arr_whole c
      ((pdats3 m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats3 m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats3 m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm3 (Ix := Unit) (Name := ℕ) (U := UR sig nD τ) (Lvl := ℕ)
      launch2.win launch2.arr_whole c (pdats3 m ρ) ((pdats3 m ρ 2 c).share_full fun _ => rfl)
      (U5 m ρ c) (U6 m ρ c) ((pdats3 m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # @main as segments, and the launch -/

/-- @main's 7 segments in order: a host segment per stretch from its boundary's contents, a region per pallas_call. -/
abbrev segs3 : List (Pipeline.Seg (pcfgs (F := F)) adm3 (pdats3 m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main IS the run of the segments: @main as the chain of its items, then the segments' run against that chain by
    definitional unfolding. -/
theorem main_run (c : Dev nD) : main (F := F) c = Pipeline.Seg.run (segs3 m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final memory holds, at every unscoped buffer of every core,
    the last boundary's contents `W7`: the launch over the segments, the last thread state read against the final
    state. -/
theorem run_all : θ_run defs (onTc (τ := τ) (main (F := F))) ⟨m, fun _ => 0, ρ⟩ (fun r => ∀ c : Dev nD, ∀ b ∈ Pipeline.ucRefs τ sig, r.2.mem (((c : Thread nD τ)).1, b) = W7 m ρ c b) :=
  Pipeline.θ_run_regions_kit (pcfgs (F := F)) adm3 (pdats3 m ρ) () cellOf_inj emb₁ defs₀ 𝒱₀ L lv m ρ main (segs3 m ρ)
    (fun c Q => by rw [main_run m ρ c])
    (by simp only [segs3, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h => h)

/-! # The arguments end as launched: no host operation writes one and no region has one among its arrays, so the
    fold at an argument's buffer walks back to the launch memory -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! # The claims read off the run -/

/-- A run's postcondition weakens: the run is monotone in it. -/
theorem run_mono {Q Q' : PUnit × MemSt nD τ sig (Elt F) → Prop}
    (hr : θ_run defs (onTc (τ := τ) (main (F := F))) ⟨m, fun _ => 0, ρ⟩ Q) (h : ∀ r, Q r → Q' r) :
    θ_run defs (onTc (τ := τ) (main (F := F))) ⟨m, fun _ => 0, ρ⟩ Q' :=
  OrdCont.mono (L := Prop) (θ_run defs (onTc (τ := τ) (main (F := F))) ⟨m, fun _ => 0, ρ⟩) h hr

/-- THE FRAME: every weakly fair execution of @main terminates, nothing faulting, and every final state has the three
    argument arrays as launched: `run_all` read at the arguments' buffers, each through its fold back to the launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_mono m ρ (run_all m ρ) fun r h c =>
    ⟨(h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c)⟩

/-- The same with the result array: every final state holds in `main_v16` the last boundary's contents there, and
    the three argument arrays as launched. -/
theorem run_result : θ_run defs (onTc (τ := τ) (main (F := F))) ⟨m, fun _ => 0, ρ⟩ (fun r => ∀ c : Dev nD,
      r.2.mem ((c.tc : Thread nD τ).loc main_v16) = W7 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_mono m ρ (run_all m ρ) fun r h c =>
    ⟨h c _ (mem_uc main_v16 (by decide)),
    (h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c)⟩

end Cert.KernelIdeal.Frame

end
-- ==== Proof.WFrameMatmul.lean ====
import proofs.«156199_j3478923510049_2_alg».proof.Proof.Gen.Kernel.Launch
import proofs.«156199_j3478923510049_2_alg».proof.Proof.Gen.Kernel.Skeleton
import proofs.«156199_j3478923510049_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-! The two matmul regions of @main (custom_calls 0 and 2), each at a PARAMETER `V`: the TensorCore's buffer
    contents when the region is entered. Per region: each window's block at a point, what the body leaves in the
    output window's staging buffer as a function of the two input blocks, the body's triple, the pipeline's proof
    data and its body obligation. -/

-- membership in a rectangle of production extents: the elaborator's structural look recurses once per coordinate
-- of the long axes
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-! # REGION 0 of @main: custom_call 0, `cc0__matmul_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the block
    index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The one rectangle of the body's loads and of its store: the whole 1024×1024 buffer. -/
abbrev r0_0 : Rect S1024x1024 := Rect.unit (s := S1024x1024) ![0, 0] S1024x1024.size inb_S1024x1024_S1024x1024_0_0

/-! ## What the body leaves in the output window's buffer -/

/-- Window 2's staging buffer after the body, from the two input windows' blocks: its 1 store as pieces (the
    payload is the skeleton's, over what the two loads read). -/
def out0_2 (x0 : Vec F S1024x1024 .f32) (x1 : Vec F S1024x1024 .bf16) : Vec F S1024x1024 .f32 :=
  View.canon [⟨r0_0, k0_pay1 (View.ld x0 r0_0) (View.ld x1 r0_0)⟩]

/-- Its store tiles the buffer (checked by evaluation), so it covers it. -/
theorem cover0_2 (p0 : Vec F S1024x1024 .f32) (y : S1024x1024.Idx) :
    ∃ pc ∈ ([⟨r0_0, p0⟩] : List (View.Piece (Elt F) S1024x1024 .f32)), y ∈ pc.1.set :=
  View.cover_of_tiled [⟨r0_0, p0⟩] S1024x1024.size (by rfl) y

/-! ## The body's triple -/

set_option maxHeartbeats 1000000 in
/-- The kernel body on whole staging memrefs, the inputs' at read contents `x0`, `x1` and the output's at anything,
    runs to the continuation holding the inputs' as they were and the output's at `out0_2` of the inputs': the
    printed function is its skeleton, run operation by operation; the load of the output's prior contents is dead. -/
theorem sound_kernel0 (c : Dev nD) (E : Set ℕ) (i : grid0.Coords) (arg0 : Memref sig .tc .vmem S1024x1024 .f32) (harg0 : arg0.IsWhole) (arg1 : Memref sig .tc .vmem S1024x1024 .bf16) (harg1 : arg1.IsWhole) (arg2 : Memref sig .tc .vmem S1024x1024 .f32) (harg2 : arg2.IsWhole)
    (x0 : Vec F S1024x1024 .f32) (x1 : Vec F S1024x1024 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so `sound_kernel0`
    applies; the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # REGION 2 of @main: custom_call 2, `cc2__matmul_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): unfetched, the block
    index has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The one rectangle of the body's loads and of its store: the whole 1024×1024 buffer. -/
abbrev r2_0 : Rect S1024x1024 := Rect.unit (s := S1024x1024) ![0, 0] S1024x1024.size inb_S1024x1024_S1024x1024_0_0

/-! ## What the body leaves in the output window's buffer -/

/-- Window 2's staging buffer after the body, from the two input windows' blocks: its 1 store as pieces (the
    payload is the skeleton's, over what the two loads read). -/
def out2_2 (x0 : Vec F S1024x1024 .f32) (x1 : Vec F S1024x1024 .bf16) : Vec F S1024x1024 .f32 :=
  View.canon [⟨r2_0, k2_pay1 (View.ld x0 r2_0) (View.ld x1 r2_0)⟩]

/-- Its store tiles the buffer (checked by evaluation), so it covers it. -/
theorem cover2_2 (p0 : Vec F S1024x1024 .f32) (y : S1024x1024.Idx) :
    ∃ pc ∈ ([⟨r2_0, p0⟩] : List (View.Piece (Elt F) S1024x1024 .f32)), y ∈ pc.1.set :=
  View.cover_of_tiled [⟨r2_0, p0⟩] S1024x1024.size (by rfl) y

/-! ## The body's triple -/

set_option maxHeartbeats 1000000 in
/-- The kernel body on whole staging memrefs, the inputs' at read contents `x0`, `x1` and the output's at anything,
    runs to the continuation holding the inputs' as they were and the output's at `out2_2` of the inputs': the
    printed function is its skeleton, run operation by operation; the load of the output's prior contents is dead. -/
theorem sound_kernel2 (c : Dev nD) (E : Set ℕ) (i : grid2.Coords) (arg0 : Memref sig .tc .vmem S1024x1024 .f32) (harg0 : arg0.IsWhole) (arg1 : Memref sig .tc .vmem S1024x1024 .bf16) (harg1 : arg1.IsWhole) (arg2 : Memref sig .tc .vmem S1024x1024 .f32) (harg2 : arg2.IsWhole)
    (x0 : Vec F S1024x1024 .f32) (x1 : Vec F S1024x1024 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__matmul_kernel i arg0 harg0 arg1 harg1 arg2 harg2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at
    point `t` each input's buffer at its block and the output's at `out2_2` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_0`, `before2_1`), so `sound_kernel2`
    applies; the invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! # The values: one whole-buffer store over whole-buffer loads -/

/-- The zero offsets of the whole-buffer rectangle, as the constant function the whole-view lemmas take. -/
theorem zero_offsets : (![0, 0] : Fin S1024x1024.rank → ℕ) = fun _ => 0 := by
  funext a; fin_cases a <;> rfl

/-- Region 0's output block is the payload of the two input blocks: the one store covers the whole buffer and leaves
    its payload, and each load through the whole buffer reads the contents. -/
theorem out0_2_eq (x0 : Vec F S1024x1024 .f32) (x1 : Vec F S1024x1024 .bf16) : out0_2 x0 x1 = k0_pay1 x0 x1 := by
  unfold out0_2
  rw [View.canon_unit_zero (S := S1024x1024) zero_offsets inb_S1024x1024_S1024x1024_0_0,
    View.ld_unit_zero (S := S1024x1024) zero_offsets inb_S1024x1024_S1024x1024_0_0,
    View.ld_unit_zero (S := S1024x1024) zero_offsets inb_S1024x1024_S1024x1024_0_0]

/-- Region 2's likewise. -/
theorem out2_2_eq (x0 : Vec F S1024x1024 .f32) (x1 : Vec F S1024x1024 .bf16) : out2_2 x0 x1 = k2_pay1 x0 x1 := by
  unfold out2_2
  rw [View.canon_unit_zero (S := S1024x1024) zero_offsets inb_S1024x1024_S1024x1024_0_0,
    View.ld_unit_zero (S := S1024x1024) zero_offsets inb_S1024x1024_S1024x1024_0_0,
    View.ld_unit_zero (S := S1024x1024) zero_offsets inb_S1024x1024_S1024x1024_0_0]

end Cert.Kernel.Frame

end
-- ==== Proof.WAttnDefs.lean ====
import proofs.«156199_j3478923510049_2_alg».proof.Proof.Gen.Kernel.Launch
import proofs.«156199_j3478923510049_2_alg».proof.Proof.Gen.Kernel.Skeleton
import proofs.«156199_j3478923510049_2_alg».proof.Proof.Gen.Kernel.Points

import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
/-! # The attention call's body: its three conditionals and one block step of the online softmax

The body runs at a grid point (query block, key block). It resets the three carried buffers (running row maximum,
running denominator, running numerator) when the key block is the first; takes one step of the online recurrence when
the key block is at or below the diagonal; and, when the key block is the last, divides the numerator by the
denominator (clamped below) and stores the result into the output block. -/

/-- The first conditional of the attention body: the key-block coordinate is 0. -/
abbrev cond1_0 (i : grid1.Coords) : Prop := (Scalar.cmpi .ne (Scalar.extui (Scalar.cmpi .eq (BitVec.ofNat 32 (i 1).val) 0#32)) 0#32) = 1#1
/-- The second: the key block is at or below the diagonal (key-block coordinate ≤ query-block coordinate). -/
abbrev cond1_1 (i : grid1.Coords) : Prop := (Scalar.cmpi .ne (Scalar.extui (Scalar.cmpi .sle (BitVec.ofNat 32 (i 1).val) (BitVec.ofNat 32 (i 0).val))) 0#32) = 1#1
/-- The third: the key-block coordinate is the last one. -/
abbrev cond1_2 (i : grid1.Coords) : Prop := k1_cond3 i = 1#1

/-- The two grid coordinates as the body's 32-bit words: the query block and the key block. -/
abbrev qw (i : grid1.Coords) : BitVec 32 := BitVec.ofNat 32 (i 0).val
abbrev kw (i : grid1.Coords) : BitVec 32 := BitVec.ofNat 32 (i 1).val

/-- What the reset stores: −∞ in the running maximum, 0 in the running denominator and numerator. -/
abbrev initM : Vec F S32x256x1 .f32 := k1_pay1
abbrev initL : Vec F S32x256x1 .f32 := k1_pay2
abbrev initA : Vec F S32x256x64 .f32 := k1_pay3

/-- One block step of the running row maximum: the old maximum against this block's masked, scaled scores. -/
abbrev stepM (i : grid1.Coords) (q k : Vec F S2x256x16x64 .f32) (mx : Vec F S32x256x1 .f32) : Vec F S32x256x1 .f32 :=
  k1_pay6 (k1_pay10 (qw i) (kw i) q k mx)
/-- One block step of the running denominator: the old one rescaled, plus this block's exponentials summed. -/
abbrev stepL (i : grid1.Coords) (q k : Vec F S2x256x16x64 .f32) (mx l : Vec F S32x256x1 .f32) : Vec F S32x256x1 .f32 :=
  k1_pay4 (k1_pay11 (qw i) (kw i) q k mx) (k1_pay12 (qw i) (kw i) q k mx) l
/-- One block step of the running numerator: the old one rescaled, plus this block's exponentials against the values. -/
abbrev stepA (i : grid1.Coords) (q k v : Vec F S2x256x16x64 .f32) (mx : Vec F S32x256x1 .f32) (acc : Vec F S32x256x64 .f32) : Vec F S32x256x64 .f32 :=
  k1_pay5 (k1_pay8 v) (k1_pay11 (qw i) (kw i) q k mx) (k1_pay12 (qw i) (kw i) q k mx) acc
/-- What the last key block stores into the output block: numerator over clamped denominator, heads moved back beside
    the positions. -/
abbrev finO (l : Vec F S32x256x1 .f32) (acc : Vec F S32x256x64 .f32) : Vec F S2x256x16x64 .f32 := k1_pay7 l acc

theorem hz3 : (![0, 0, 0] : Fin 3 → Nat) = fun _ => 0 := by funext a; fin_cases a <;> rfl
theorem hz4 : (![0, 0, 0, 0] : Fin 4 → Nat) = fun _ => 0 := by funext a; fin_cases a <;> rfl

/-- A store through the whole buffer, last, leaves its payload, whatever the buffer held and whatever was stored before. -/
theorem read_writes_whole {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

end Cert.Kernel.Frame

end
-- ==== Proof.WAttnPoints.lean ====
import proofs.«156199_j3478923510049_2_alg».proof.Proof.Gen.Kernel.Launch
import proofs.«156199_j3478923510049_2_alg».proof.Proof.Gen.Kernel.Skeleton
import proofs.«156199_j3478923510049_2_alg».proof.Proof.Gen.Kernel.Points
import proofs.«156199_j3478923510049_2_alg».proof.Proof.WAttnDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
/-! # The attention call over its 64 grid points: the conditions in closed form, where the output window is idle,
the memrefs the body is called with, and the region's invariant with the three carried buffers named -/

/-- A grid point's number is 8 · (query block) + (key block): the first conditional holds where the key block is 0, -/
theorem hcond1_0 : ∀ t : Fin cfg1.N, cond1_0 (grid1.coords t) ↔ t.val % 8 = 0 :=
  (by decide +kernel : ∀ t : Fin grid1.N, cond1_0 (grid1.coords t) ↔ t.val % 8 = 0)
/-- the second where the key block is at or below the query block, -/
theorem hcond1_1 : ∀ t : Fin cfg1.N, cond1_1 (grid1.coords t) ↔ t.val % 8 ≤ t.val / 8 :=
  (by decide +kernel : ∀ t : Fin grid1.N, cond1_1 (grid1.coords t) ↔ t.val % 8 ≤ t.val / 8)
/-- the third where the key block is 7. -/
theorem hcond1_2 : ∀ t : Fin cfg1.N, cond1_2 (grid1.coords t) ↔ t.val % 8 = 7 :=
  (by decide +kernel : ∀ t : Fin grid1.N, cond1_2 (grid1.coords t) ↔ t.val % 8 = 7)

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- The output window is idle, and not written back, exactly where the key block is not the last. -/
theorem idleAt1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel
theorem liveAt1_3 : ∀ t : Fin cfg1.N, cond1_2 (grid1.coords t) → cfg1.idle 3 (grid1.coords t) = false := by decide +kernel

/-- Each window's current staging memref at point `t`, as the pipeline passes it to the body, and its wholeness. -/
abbrev ms1_0 (t : Fin cfg1.N) : Memref sig .tc .vmem S2x256x16x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2x256x16x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x256x16x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2x256x16x64 .f32 := win1_3.stage (cfg1.slots t 3)
abbrev hs1_3 (t : Fin cfg1.N) : (ms1_3 t).IsWhole := hstage1_3 ((cfg1.slots t 3).cast nbuf1_3)
/-- The three carried buffers: whole scoped buffers of the call's own, passed beside the windows. -/
abbrev scM1_0 : Memref sig .tc .vmem S32x256x1 .f32 := Memref.whole cc1_scratch0
abbrev scM1_1 : Memref sig .tc .vmem S32x256x1 .f32 := Memref.whole cc1_scratch1
abbrev scM1_2 : Memref sig .tc .vmem S32x256x64 .f32 := Memref.whole cc1_scratch2

/-- The region's invariant with what is known of the three carried buffers as parameters: every other scoped buffer
    that is no staging buffer of this call at some contents, and the generator register at some state. -/
def PhiWith (c : Dev nD) (P0 P1 P2 : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ P0 ∗ P1 ∗ P2 ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f)) ∗ ∃ r, prngReg c r)

/-- The class's invariant is that form with each carried buffer at some contents. -/
theorem PhiA1_eq (c : Dev nD) :
    (Pipeline.ΦA spec1 c : sProp 𝕄)
      = PhiWith c iprop(∃ d, owns (c : Thread nD τ) scM1_0 fullShare d) iprop(∃ d, owns (c : Thread nD τ) scM1_1 fullShare d) iprop(∃ d, owns (c : Thread nD τ) scM1_2 fullShare d) := by
  unfold Pipeline.ΦA PhiWith; rw [scopedRest1_eq]; simp only [scM1_0, scM1_1, scM1_2, owns_whole]; rfl

/-- The form is monotone in the three parameters. -/
theorem PhiWith_mono (c : Dev nD) {P0 P1 P2 Q0 Q1 Q2 : sProp 𝕄} (h0 : P0 ⊢ Q0) (h1 : P1 ⊢ Q1) (h2 : P2 ⊢ Q2) :
    PhiWith c P0 P1 P2 ⊢ PhiWith c Q0 Q1 Q2 := by
  unfold PhiWith
  iintro ⟨⟨Ha, Hb, Hc, Hd, He, Hf, H0, H1, H2, Hr⟩, Hg⟩
  isplitr [Hg]
  · isplitl [Ha]; · iexact Ha
    isplitl [Hb]; · iexact Hb
    isplitl [Hc]; · iexact Hc
    isplitl [Hd]; · iexact Hd
    isplitl [He]; · iexact He
    isplitl [Hf]; · iexact Hf
    isplitl [H0]; · iapply h0; iexact H0
    isplitl [H1]; · iapply h1; iexact H1
    isplitl [H2]; · iapply h2; iexact H2
    iexact Hr
  iexact Hg

end Cert.Kernel.Frame

end
-- ==== Proof.WAttnDat.lean ====
import proofs.«156199_j3478923510049_2_alg».proof.Proof.Gen.Kernel.Launch
import proofs.«156199_j3478923510049_2_alg».proof.Proof.Gen.Kernel.Skeleton
import proofs.«156199_j3478923510049_2_alg».proof.Proof.Gen.Kernel.Points
import proofs.«156199_j3478923510049_2_alg».proof.Proof.WAttnPoints
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
/-! # The attention call's proof data: what the carried buffers hold after each grid point, and the region's invariant -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched the block index has not moved), for any proof data whose array is the entry contents and whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The carried buffers (running maximum, denominator, numerator) after one block step at point `t` from `s`. -/
def nextAt (c : Dev nD) (t : Fin cfg1.N) (s : Vec F S32x256x1 .f32 × Vec F S32x256x1 .f32 × Vec F S32x256x64 .f32) :
    Vec F S32x256x1 .f32 × Vec F S32x256x1 .f32 × Vec F S32x256x64 .f32 :=
  (stepM (grid1.coords t) (iblk1 V c 0 t) (iblk1 V c 1 t) s.1,
   stepL (grid1.coords t) (iblk1 V c 0 t) (iblk1 V c 1 t) s.1 s.2.1,
   stepA (grid1.coords t) (iblk1 V c 0 t) (iblk1 V c 1 t) (iblk1 V c 2 t) s.1 s.2.2)

/-- THE ACCUMULATION. What the carried buffers hold after the body at point `n` = 8 · (query block) + (key block):
    at a first key block one step from the reset values; at a key block at or below the diagonal one step from what
    the point before left; above the diagonal what the point before left. -/
def scAt (c : Dev nD) : (n : ℕ) → n < cfg1.N → Vec F S32x256x1 .f32 × Vec F S32x256x1 .f32 × Vec F S32x256x64 .f32
  | 0, hn => nextAt V c ⟨0, hn⟩ (initM, initL, initA)
  | n + 1, hn =>
    if (n + 1) % 8 = 0 then nextAt V c ⟨n + 1, hn⟩ (initM, initL, initA)
    else if (n + 1) % 8 ≤ (n + 1) / 8 then nextAt V c ⟨n + 1, hn⟩ (scAt c n (Nat.lt_of_succ_lt hn))
    else scAt c n (Nat.lt_of_succ_lt hn)

theorem scAt_first (c : Dev nD) (t : Fin cfg1.N) (h0 : t.val % 8 = 0) :
    scAt V c t.val t.isLt = nextAt V c t (initM, initL, initA) := by
  obtain ⟨n, hn⟩ := t
  cases n with
  | zero => rfl
  | succ n => exact if_pos h0

theorem scAt_step (c : Dev nD) (t : Fin cfg1.N) (h0 : ¬t.val % 8 = 0) (h1 : t.val % 8 ≤ t.val / 8) :
    scAt V c t.val t.isLt = nextAt V c t (scAt V c (t.val - 1) (Nat.lt_of_le_of_lt (Nat.sub_le _ _) t.isLt)) := by
  obtain ⟨n, hn⟩ := t
  cases n with
  | zero => exact absurd (Nat.zero_mod _) h0
  | succ n => exact (if_neg h0).trans ((if_pos h1).trans rfl)

theorem scAt_skip (c : Dev nD) (t : Fin cfg1.N) (h0 : ¬t.val % 8 = 0) (h1 : ¬t.val % 8 ≤ t.val / 8) :
    scAt V c t.val t.isLt = scAt V c (t.val - 1) (Nat.lt_of_le_of_lt (Nat.sub_le _ _) t.isLt) := by
  obtain ⟨n, hn⟩ := t
  cases n with
  | zero => exact absurd (Nat.zero_mod _) h0
  | succ n => exact (if_neg h0).trans ((if_neg h1).trans rfl)

/-- The region's invariant before point `n`: before the first point the class's (every carried buffer at anything);
    afterwards each carried buffer at what the point before left in it. -/
def PhiS (c : Dev nD) : (n : ℕ) → n ≤ cfg1.N → sProp 𝕄
  | 0, _ => Pipeline.ΦA spec1 c
  | n + 1, hn => PhiWith c (owns (c : Thread nD τ) scM1_0 fullShare (scAt V c n hn).1)
      (owns (c : Thread nD τ) scM1_1 fullShare (scAt V c n hn).2.1) (owns (c : Thread nD τ) scM1_2 fullShare (scAt V c n hn).2.2)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = PhiWith c (owns (c : Thread nD τ) scM1_0 fullShare (scAt V c n hn).1)
      (owns (c : Thread nD τ) scM1_1 fullShare (scAt V c n hn).2.1) (owns (c : Thread nD τ) scM1_2 fullShare (scAt V c n hn).2.2) := rfl

theorem PhiS_pos (c : Dev nD) (n : ℕ) (h : n ≤ cfg1.N) (hz : n ≠ 0) :
    PhiS V c n h = PhiWith c (owns (c : Thread nD τ) scM1_0 fullShare (scAt V c (n - 1) (by omega)).1)
      (owns (c : Thread nD τ) scM1_1 fullShare (scAt V c (n - 1) (by omega)).2.1) (owns (c : Thread nD τ) scM1_2 fullShare (scAt V c (n - 1) (by omega)).2.2) := by
  cases n with
  | zero => exact absurd rfl hz
  | succ n => rfl

/-- At every point the invariant gives each carried buffer at SOME contents. -/
theorem PhiS_any (c : Dev nD) (n : ℕ) (h : n ≤ cfg1.N) :
    PhiS V c n h ⊢ PhiWith c iprop(∃ d, owns (c : Thread nD τ) scM1_0 fullShare d) iprop(∃ d, owns (c : Thread nD τ) scM1_1 fullShare d) iprop(∃ d, owns (c : Thread nD τ) scM1_2 fullShare d) := by
  cases n with
  | zero => rw [PhiS_zero V c 0 h rfl, PhiA1_eq]
  | succ n =>
    rw [PhiS_succ]
    refine PhiWith_mono c ?_ ?_ ?_
    · iintro H; iexists _; iexact H
    · iintro H; iexists _; iexact H
    · iintro H; iexists _; iexact H

/-! ## The proof data -/

/-- The proof data of the attention pipeline on core `c`: the arrays as the region finds them; after the body at point
    `t` each input's buffer at its block and the output's at the quotient of what the carried numerator and denominator
    then hold (consulted only where the key block is the last: elsewhere the window is idle); the invariant above;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => finO (scAt V c t.val t.isLt).2.1 (scAt V c t.val t.isLt).2.2
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = finO (scAt V c t.val t.isLt).2.1 (scAt V c t.val t.isLt).2.2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.Kernel.Frame

end
-- ==== Proof.WAttnRunA.lean ====
import proofs.«156199_j3478923510049_2_alg».proof.Proof.Gen.Kernel.Launch
import proofs.«156199_j3478923510049_2_alg».proof.Proof.Gen.Kernel.Skeleton
import proofs.«156199_j3478923510049_2_alg».proof.Proof.Gen.Kernel.Points
import proofs.«156199_j3478923510049_2_alg».proof.Proof.WAttnDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a first key block: the carried buffers are reset, then take one step; the output's buffer is not touched.
    Whatever the carried buffers held before is overwritten. -/
theorem run1_A (c : Dev nD) (i : grid1.Coords) (arg2 : Memref sig .tc .vmem S2x256x16x64 .f32) (harg2 : arg2.IsWhole) (arg3 : Memref sig .tc .vmem S2x256x16x64 .f32) (harg3 : arg3.IsWhole) (arg4 : Memref sig .tc .vmem S2x256x16x64 .f32) (harg4 : arg4.IsWhole) (arg5 : Memref sig .tc .vmem S2x256x16x64 .f32) (harg5 : arg5.IsWhole) (arg6 : Memref sig .tc .vmem S32x256x1 .f32) (harg6 : arg6.IsWhole) (arg7 : Memref sig .tc .vmem S32x256x1 .f32) (harg7 : arg7.IsWhole) (arg8 : Memref sig .tc .vmem S32x256x64 .f32) (harg8 : arg8.IsWhole) (hc0 : cond1_0 i) (hc1 : cond1_1 i) (hc2 : ¬cond1_2 i)
    (x0 x1 x2 xi3 : Vec F S2x256x16x64 .f32) (xs0 xs1 : Vec F S32x256x1 .f32) (xs2 : Vec F S32x256x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (stepM i x0 x1 initM) ∗ owns (c : Thread nD τ) arg7 fullShare (stepL i x0 x1 initM initL) ∗ owns (c : Thread nD τ) arg8 fullShare (stepA i x0 x1 x2 initM initA)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3
  obtain rfl := harg6.eq_unread hfs0; obtain rfl := harg7.eq_unread hfs1; obtain rfl := harg8.eq_unread hfs2
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr; swap; · iexact HS0
    ipureintro
    refine (read_writes_whole _ _ hz3 _ _ _).trans ?_
    sl_unfold_run_names
    simp only [View.readAt_eq_ld, harg2.read_unread, harg3.read_unread, harg4.read_unread, harg5.read_unread, harg6.read_unread, harg7.read_unread, harg8.read_unread, View.ld_unit_zero (S := S2x256x16x64) hz4, View.ld_unit_zero (S := S32x256x1) hz3, View.ld_unit_zero (S := S32x256x64) hz3, View.readCov_unit_zero (S := S32x256x1) _ hz3, View.readCov_unit_zero (S := S32x256x64) _ hz3]
    try rfl
  isplitl [HS1]
  · iexists _; isplitr; swap; · iexact HS1
    ipureintro
    refine (read_writes_whole _ _ hz3 _ _ _).trans ?_
    sl_unfold_run_names
    simp only [View.readAt_eq_ld, harg2.read_unread, harg3.read_unread, harg4.read_unread, harg5.read_unread, harg6.read_unread, harg7.read_unread, harg8.read_unread, View.ld_unit_zero (S := S2x256x16x64) hz4, View.ld_unit_zero (S := S32x256x1) hz3, View.ld_unit_zero (S := S32x256x64) hz3, View.readCov_unit_zero (S := S32x256x1) _ hz3, View.readCov_unit_zero (S := S32x256x64) _ hz3]
    try rfl
  · iexists _; isplitr; swap; · iexact HS2
    ipureintro
    refine (read_writes_whole _ _ hz3 _ _ _).trans ?_
    sl_unfold_run_names
    simp only [View.readAt_eq_ld, harg2.read_unread, harg3.read_unread, harg4.read_unread, harg5.read_unread, harg6.read_unread, harg7.read_unread, harg8.read_unread, View.ld_unit_zero (S := S2x256x16x64) hz4, View.ld_unit_zero (S := S32x256x1) hz3, View.ld_unit_zero (S := S32x256x64) hz3, View.readCov_unit_zero (S := S32x256x1) _ hz3, View.readCov_unit_zero (S := S32x256x64) _ hz3]
    try rfl

end Cert.Kernel.Frame

end
-- ==== Proof.WAttnRunB.lean ====
import proofs.«156199_j3478923510049_2_alg».proof.Proof.Gen.Kernel.Launch
import proofs.«156199_j3478923510049_2_alg».proof.Proof.Gen.Kernel.Skeleton
import proofs.«156199_j3478923510049_2_alg».proof.Proof.Gen.Kernel.Points
import proofs.«156199_j3478923510049_2_alg».proof.Proof.WAttnDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body strictly inside the lower triangle (the key block is neither first nor last, and at or below the
    diagonal): each carried buffer takes one step of the online recurrence; the output's buffer is not touched. -/
theorem run1_B (c : Dev nD) (i : grid1.Coords) (arg2 : Memref sig .tc .vmem S2x256x16x64 .f32) (harg2 : arg2.IsWhole) (arg3 : Memref sig .tc .vmem S2x256x16x64 .f32) (harg3 : arg3.IsWhole) (arg4 : Memref sig .tc .vmem S2x256x16x64 .f32) (harg4 : arg4.IsWhole) (arg5 : Memref sig .tc .vmem S2x256x16x64 .f32) (harg5 : arg5.IsWhole) (arg6 : Memref sig .tc .vmem S32x256x1 .f32) (harg6 : arg6.IsWhole) (arg7 : Memref sig .tc .vmem S32x256x1 .f32) (harg7 : arg7.IsWhole) (arg8 : Memref sig .tc .vmem S32x256x64 .f32) (harg8 : arg8.IsWhole) (hc0 : ¬cond1_0 i) (hc1 : cond1_1 i) (hc2 : ¬cond1_2 i)
    (x0 x1 x2 xi3 : Vec F S2x256x16x64 .f32) (xs0 xs1 : Vec F S32x256x1 .f32) (xs2 : Vec F S32x256x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (stepM i x0 x1 xs0) ∗ owns (c : Thread nD τ) arg7 fullShare (stepL i x0 x1 xs0 xs1) ∗ owns (c : Thread nD τ) arg8 fullShare (stepA i x0 x1 x2 xs0 xs2)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3
  obtain rfl := harg6.eq_unread hfs0; obtain rfl := harg7.eq_unread hfs1; obtain rfl := harg8.eq_unread hfs2
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr; swap; · iexact HS0
    ipureintro
    refine (read_writes_whole _ _ hz3 _ _ _).trans ?_
    sl_unfold_run_names
    simp only [View.readAt_eq_ld, harg2.read_unread, harg3.read_unread, harg4.read_unread, harg5.read_unread, harg6.read_unread, harg7.read_unread, harg8.read_unread, View.ld_unit_zero (S := S2x256x16x64) hz4, View.ld_unit_zero (S := S32x256x1) hz3, View.ld_unit_zero (S := S32x256x64) hz3, View.readCov_unit_zero (S := S32x256x1) _ hz3, View.readCov_unit_zero (S := S32x256x64) _ hz3]
    try rfl
  isplitl [HS1]
  · iexists _; isplitr; swap; · iexact HS1
    ipureintro
    refine (read_writes_whole _ _ hz3 _ _ _).trans ?_
    sl_unfold_run_names
    simp only [View.readAt_eq_ld, harg2.read_unread, harg3.read_unread, harg4.read_unread, harg5.read_unread, harg6.read_unread, harg7.read_unread, harg8.read_unread, View.ld_unit_zero (S := S2x256x16x64) hz4, View.ld_unit_zero (S := S32x256x1) hz3, View.ld_unit_zero (S := S32x256x64) hz3, View.readCov_unit_zero (S := S32x256x1) _ hz3, View.readCov_unit_zero (S := S32x256x64) _ hz3]
    try rfl
  · iexists _; isplitr; swap; · iexact HS2
    ipureintro
    refine (read_writes_whole _ _ hz3 _ _ _).trans ?_
    sl_unfold_run_names
    simp only [View.readAt_eq_ld, harg2.read_unread, harg3.read_unread, harg4.read_unread, harg5.read_unread, harg6.read_unread, harg7.read_unread, harg8.read_unread, View.ld_unit_zero (S := S2x256x16x64) hz4, View.ld_unit_zero (S := S32x256x1) hz3, View.ld_unit_zero (S := S32x256x64) hz3, View.readCov_unit_zero (S := S32x256x1) _ hz3, View.readCov_unit_zero (S := S32x256x64) _ hz3]
    try rfl

end Cert.Kernel.Frame

end
-- ==== Proof.WAttnRunC.lean ====
import proofs.«156199_j3478923510049_2_alg».proof.Proof.Gen.Kernel.Launch
import proofs.«156199_j3478923510049_2_alg».proof.Proof.Gen.Kernel.Skeleton
import proofs.«156199_j3478923510049_2_alg».proof.Proof.Gen.Kernel.Points
import proofs.«156199_j3478923510049_2_alg».proof.Proof.WAttnDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body above the diagonal, not at the last key block: nothing is read or written. -/
theorem run1_C (c : Dev nD) (i : grid1.Coords) (arg2 : Memref sig .tc .vmem S2x256x16x64 .f32) (harg2 : arg2.IsWhole) (arg3 : Memref sig .tc .vmem S2x256x16x64 .f32) (harg3 : arg3.IsWhole) (arg4 : Memref sig .tc .vmem S2x256x16x64 .f32) (harg4 : arg4.IsWhole) (arg5 : Memref sig .tc .vmem S2x256x16x64 .f32) (harg5 : arg5.IsWhole) (arg6 : Memref sig .tc .vmem S32x256x1 .f32) (harg6 : arg6.IsWhole) (arg7 : Memref sig .tc .vmem S32x256x1 .f32) (harg7 : arg7.IsWhole) (arg8 : Memref sig .tc .vmem S32x256x64 .f32) (harg8 : arg8.IsWhole) (hc0 : ¬cond1_0 i) (hc1 : ¬cond1_1 i) (hc2 : ¬cond1_2 i)
    (x0 x1 x2 xi3 : Vec F S2x256x16x64 .f32) (xs0 xs1 : Vec F S32x256x1 .f32) (xs2 : Vec F S32x256x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3
  obtain rfl := harg6.eq_unread hfs0; obtain rfl := harg7.eq_unread hfs1; obtain rfl := harg8.eq_unread hfs2
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr; · ipureintro; exact harg6.read_unread _
    iexact HS0
  isplitl [HS1]
  · iexists _; isplitr; · ipureintro; exact harg7.read_unread _
    iexact HS1
  · iexists _; isplitr; · ipureintro; exact harg8.read_unread _
    iexact HS2

end Cert.Kernel.Frame

end
-- ==== Proof.WAttnRunD.lean ====
import proofs.«156199_j3478923510049_2_alg».proof.Proof.Gen.Kernel.Launch
import proofs.«156199_j3478923510049_2_alg».proof.Proof.Gen.Kernel.Skeleton
import proofs.«156199_j3478923510049_2_alg».proof.Proof.Gen.Kernel.Points
import proofs.«156199_j3478923510049_2_alg».proof.Proof.WAttnDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at the last key block when it is on the diagonal: the carried buffers take one step, and the output block
    is stored from the new denominator and numerator. -/
theorem run1_D (c : Dev nD) (i : grid1.Coords) (arg2 : Memref sig .tc .vmem S2x256x16x64 .f32) (harg2 : arg2.IsWhole) (arg3 : Memref sig .tc .vmem S2x256x16x64 .f32) (harg3 : arg3.IsWhole) (arg4 : Memref sig .tc .vmem S2x256x16x64 .f32) (harg4 : arg4.IsWhole) (arg5 : Memref sig .tc .vmem S2x256x16x64 .f32) (harg5 : arg5.IsWhole) (arg6 : Memref sig .tc .vmem S32x256x1 .f32) (harg6 : arg6.IsWhole) (arg7 : Memref sig .tc .vmem S32x256x1 .f32) (harg7 : arg7.IsWhole) (arg8 : Memref sig .tc .vmem S32x256x64 .f32) (harg8 : arg8.IsWhole) (hc0 : ¬cond1_0 i) (hc1 : cond1_1 i) (hc2 : cond1_2 i)
    (x0 x1 x2 xi3 : Vec F S2x256x16x64 .f32) (xs0 xs1 : Vec F S32x256x1 .f32) (xs2 : Vec F S32x256x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
        ∗ (iprop(owns (c : Thread nD τ) arg2 fullShare x0 ∗ owns (c : Thread nD τ) arg3 fullShare x1 ∗ owns (c : Thread nD τ) arg4 fullShare x2 ∗ owns (c : Thread nD τ) arg5 fullShare (finO (stepL i x0 x1 xs0 xs1) (stepA i x0 x1 x2 xs0 xs2)) ∗ owns (c : Thread nD τ) arg6 fullShare (stepM i x0 x1 xs0) ∗ owns (c : Thread nD τ) arg7 fullShare (stepL i x0 x1 xs0 xs1) ∗ owns (c : Thread nD τ) arg8 fullShare (stepA i x0 x1 x2 xs0 xs2)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3
  obtain rfl := harg6.eq_unread hfs0; obtain rfl := harg7.eq_unread hfs1; obtain rfl := harg8.eq_unread hfs2
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (read_writes_whole _ _ hz4 _ _ _).trans ?_
    sl_unfold_run_names
    simp only [View.readAt_eq_ld, harg2.read_unread, harg3.read_unread, harg4.read_unread, harg5.read_unread, harg6.read_unread, harg7.read_unread, harg8.read_unread, View.ld_unit_zero (S := S2x256x16x64) hz4, View.ld_unit_zero (S := S32x256x1) hz3, View.ld_unit_zero (S := S32x256x64) hz3, View.readCov_unit_zero (S := S32x256x1) _ hz3, View.readCov_unit_zero (S := S32x256x64) _ hz3]
    try rfl
  isplitl [HS0]
  · iexists _; isplitr; swap; · iexact HS0
    ipureintro
    refine (read_writes_whole _ _ hz3 _ _ _).trans ?_
    sl_unfold_run_names
    simp only [View.readAt_eq_ld, harg2.read_unread, harg3.read_unread, harg4.read_unread, harg5.read_unread, harg6.read_unread, harg7.read_unread, harg8.read_unread, View.ld_unit_zero (S := S2x256x16x64) hz4, View.ld_unit_zero (S := S32x256x1) hz3, View.ld_unit_zero (S := S32x256x64) hz3, View.readCov_unit_zero (S := S32x256x1) _ hz3, View.readCov_unit_zero (S := S32x256x64) _ hz3]
    try rfl
  isplitl [HS1]
  · iexists _; isplitr; swap; · iexact HS1
    ipureintro
    refine (read_writes_whole _ _ hz3 _ _ _).trans ?_
    sl_unfold_run_names
    simp only [View.readAt_eq_ld, harg2.read_unread, harg3.read_unread, harg4.read_unread, harg5.read_unread, harg6.read_unread, harg7.read_unread, harg8.read_unread, View.ld_unit_zero (S := S2x256x16x64) hz4, View.ld_unit_zero (S := S32x256x1) hz3, View.ld_unit_zero (S := S32x256x64) hz3, View.readCov_unit_zero (S := S32x256x1) _ hz3, View.readCov_unit_zero (S := S32x256x64) _ hz3]
    try rfl
  · iexists _; isplitr; swap; · iexact HS2
    ipureintro
    refine (read_writes_whole _ _ hz3 _ _ _).trans ?_
    sl_unfold_run_names
    simp only [View.readAt_eq_ld, harg2.read_unread, harg3.read_unread, harg4.read_unread, harg5.read_unread, harg6.read_unread, harg7.read_unread, harg8.read_unread, View.ld_unit_zero (S := S2x256x16x64) hz4, View.ld_unit_zero (S := S32x256x1) hz3, View.ld_unit_zero (S := S32x256x64) hz3, View.readCov_unit_zero (S := S32x256x1) _ hz3, View.readCov_unit_zero (S := S32x256x64) _ hz3]
    try rfl

end Cert.Kernel.Frame

end
-- ==== Proof.WAttnRunE.lean ====
import proofs.«156199_j3478923510049_2_alg».proof.Proof.Gen.Kernel.Launch
import proofs.«156199_j3478923510049_2_alg».proof.Proof.Gen.Kernel.Skeleton
import proofs.«156199_j3478923510049_2_alg».proof.Proof.Gen.Kernel.Points
import proofs.«156199_j3478923510049_2_alg».proof.Proof.WAttnDefs
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at the last key block when it is above the diagonal: the carried buffers are only read, and the output
    block is stored from the denominator and numerator as they stand. -/
theorem run1_E (c : Dev nD) (i : grid1.Coords) (arg2 : Memref sig .tc .vmem S2x256x16x64 .f32) (harg2 : arg2.IsWhole) (arg3 : Memref sig .tc .vmem S2x256x16x64 .f32) (harg3 : arg3.IsWhole) (arg4 : Memref sig .tc .vmem S2x256x16x64 .f32) (harg4 : arg4.IsWhole) (arg5 : Memref sig .tc .vmem S2x256x16x64 .f32) (harg5 : arg5.IsWhole) (arg6 : Memref sig .tc .vmem S32x256x1 .f32) (harg6 : arg6.IsWhole) (arg7 : Memref sig .tc .vmem S32x256x1 .f32) (harg7 : arg7.IsWhole) (arg8 : Memref sig .tc .vmem S32x256x64 .f32) (harg8 : arg8.IsWhole) (hc0 : ¬cond1_0 i) (hc1 : ¬cond1_1 i) (hc2 : cond1_2 i)
    (x0 x1 x2 xi3 : Vec F S2x256x16x64 .f32) (xs0 xs1 : Vec F S32x256x1 .f32) (xs2 : Vec F S32x256x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
        ∗ (iprop(owns (c : Thread nD τ) arg2 fullShare x0 ∗ owns (c : Thread nD τ) arg3 fullShare x1 ∗ owns (c : Thread nD τ) arg4 fullShare x2 ∗ owns (c : Thread nD τ) arg5 fullShare (finO xs1 xs2) ∗ owns (c : Thread nD τ) arg6 fullShare xs0 ∗ owns (c : Thread nD τ) arg7 fullShare xs1 ∗ owns (c : Thread nD τ) arg8 fullShare xs2) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3
  obtain rfl := harg6.eq_unread hfs0; obtain rfl := harg7.eq_unread hfs1; obtain rfl := harg8.eq_unread hfs2
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (read_writes_whole _ _ hz4 _ _ _).trans ?_
    sl_unfold_run_names
    simp only [View.readAt_eq_ld, harg2.read_unread, harg3.read_unread, harg4.read_unread, harg5.read_unread, harg6.read_unread, harg7.read_unread, harg8.read_unread, View.ld_unit_zero (S := S2x256x16x64) hz4, View.ld_unit_zero (S := S32x256x1) hz3, View.ld_unit_zero (S := S32x256x64) hz3, View.readCov_unit_zero (S := S32x256x1) _ hz3, View.readCov_unit_zero (S := S32x256x64) _ hz3]
    try rfl
  isplitl [HS0]
  · iexists _; isplitr; · ipureintro; exact harg6.read_unread _
    iexact HS0
  isplitl [HS1]
  · iexists _; isplitr; · ipureintro; exact harg7.read_unread _
    iexact HS1
  · iexists _; isplitr; · ipureintro; exact harg8.read_unread _
    iexact HS2

end Cert.Kernel.Frame

end
-- ==== Proof.WAttnBody.lean ====
import proofs.«156199_j3478923510049_2_alg».proof.Proof.Gen.Kernel.Launch
import proofs.«156199_j3478923510049_2_alg».proof.Proof.Gen.Kernel.Skeleton
import proofs.«156199_j3478923510049_2_alg».proof.Proof.Gen.Kernel.Points
import proofs.«156199_j3478923510049_2_alg».proof.Proof.WAttnDat
import proofs.«156199_j3478923510049_2_alg».proof.Proof.WAttnRunA
import proofs.«156199_j3478923510049_2_alg».proof.Proof.WAttnRunB
import proofs.«156199_j3478923510049_2_alg».proof.Proof.WAttnRunC
import proofs.«156199_j3478923510049_2_alg».proof.Proof.WAttnRunD
import proofs.«156199_j3478923510049_2_alg».proof.Proof.WAttnRunE
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
/-! # The attention call's body obligation

Each control case of the body, run at a grid point under the region's invariant (the eleven scoped buffers of the other
calls and the generator register ride along untouched), then the choice of the case from the point's number. -/

variable (V : (c : Dev nD) → (b : Ref sig .tc) → Buf (Elt F) ((c : Thread nD τ).loc b))

/-- A first key block: whatever the carried buffers held, they end one step from the reset values. -/
theorem body1_A (c : Dev nD) (t : Fin cfg1.N) (h0 : t.val % 8 = 0) (O : sProp 𝕄) (xi3 : Vec F S2x256x16x64 .f32) (K : PUnit → sProp 𝕄) :
    iprop(PhiWith c iprop(∃ d, owns (c : Thread nD τ) scM1_0 fullShare d) iprop(∃ d, owns (c : Thread nD τ) scM1_1 fullShare d) iprop(∃ d, owns (c : Thread nD τ) scM1_2 fullShare d) ∗ O ∗ owns (c : Thread nD τ) (ms1_0 t) fullShare (iblk1 V c 0 t) ∗ owns (c : Thread nD τ) (ms1_1 t) fullShare (iblk1 V c 1 t) ∗ owns (c : Thread nD τ) (ms1_2 t) fullShare (iblk1 V c 2 t) ∗ owns (c : Thread nD τ) (ms1_3 t) fullShare xi3
        ∗ (iprop(PhiWith c (owns (c : Thread nD τ) scM1_0 fullShare (nextAt V c t (initM, initL, initA)).1) (owns (c : Thread nD τ) scM1_1 fullShare (nextAt V c t (initM, initL, initA)).2.1) (owns (c : Thread nD τ) scM1_2 fullShare (nextAt V c t (initM, initL, initA)).2.2) ∗ O ∗ owns (c : Thread nD τ) (ms1_0 t) fullShare (iblk1 V c 0 t) ∗ owns (c : Thread nD τ) (ms1_1 t) fullShare (iblk1 V c 1 t) ∗ owns (c : Thread nD τ) (ms1_2 t) fullShare (iblk1 V c 2 t) ∗ owns (c : Thread nD τ) (ms1_3 t) fullShare xi3) -∗ K ⟨⟩))
      ⊢ wp frame (wpE (defs₀ (F := F)) Variants.none c none) Set.univ (bodyAt1 (F := F) t) K := by
  have h1 : t.val % 8 ≤ t.val / 8 := by omega
  have h2 : ¬t.val % 8 = 7 := by omega
  unfold PhiWith bodyAt1
  iintro ⟨⟨⟨Ha, Hb, Hc, Hd, He, Hf, ⟨%e0, HS0⟩, ⟨%e1, HS1⟩, ⟨%e2, HS2⟩, Hr⟩, Hg⟩, HO, H0, H1, H2, H3, Hk⟩
  iapply (run1_A c (grid1.coords t) _ _ _ _ _ _ _ _ _ _ _ _ _ _ ((hcond1_0 t).mpr h0) ((hcond1_1 t).mpr h1) (fun h => h2 ((hcond1_2 t).mp h)) (iblk1 V c 0 t) (iblk1 V c 1 t) (iblk1 V c 2 t) xi3 e0 e1 e2 Set.univ K)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  iapply Hk
  isplitr [HO H0 H1 H2 H3]
  · isplitr [Hg]
    · isplitl [Ha]; · iexact Ha
      isplitl [Hb]; · iexact Hb
      isplitl [Hc]; · iexact Hc
      isplitl [Hd]; · iexact Hd
      isplitl [He]; · iexact He
      isplitl [Hf]; · iexact Hf
      isplitl [HS0]; · iexact HS0
      isplitl [HS1]; · iexact HS1
      isplitl [HS2]; · iexact HS2
      iexact Hr
    iexact Hg
  isplitl [HO]; · iexact HO
  isplitl [H0]; · iexact H0
  isplitl [H1]; · iexact H1
  isplitl [H2]; · iexact H2
  iexact H3

/-- Strictly inside the lower triangle: the carried buffers take one step. -/
theorem body1_B (c : Dev nD) (t : Fin cfg1.N) (h0 : ¬t.val % 8 = 0) (h1 : t.val % 8 ≤ t.val / 8) (h2 : ¬t.val % 8 = 7) (s : Vec F S32x256x1 .f32 × Vec F S32x256x1 .f32 × Vec F S32x256x64 .f32) (O : sProp 𝕄) (xi3 : Vec F S2x256x16x64 .f32) (K : PUnit → sProp 𝕄) :
    iprop(PhiWith c (owns (c : Thread nD τ) scM1_0 fullShare (s).1) (owns (c : Thread nD τ) scM1_1 fullShare (s).2.1) (owns (c : Thread nD τ) scM1_2 fullShare (s).2.2) ∗ O ∗ owns (c : Thread nD τ) (ms1_0 t) fullShare (iblk1 V c 0 t) ∗ owns (c : Thread nD τ) (ms1_1 t) fullShare (iblk1 V c 1 t) ∗ owns (c : Thread nD τ) (ms1_2 t) fullShare (iblk1 V c 2 t) ∗ owns (c : Thread nD τ) (ms1_3 t) fullShare xi3
        ∗ (iprop(PhiWith c (owns (c : Thread nD τ) scM1_0 fullShare (nextAt V c t s).1) (owns (c : Thread nD τ) scM1_1 fullShare (nextAt V c t s).2.1) (owns (c : Thread nD τ) scM1_2 fullShare (nextAt V c t s).2.2) ∗ O ∗ owns (c : Thread nD τ) (ms1_0 t) fullShare (iblk1 V c 0 t) ∗ owns (c : Thread nD τ) (ms1_1 t) fullShare (iblk1 V c 1 t) ∗ owns (c : Thread nD τ) (ms1_2 t) fullShare (iblk1 V c 2 t) ∗ owns (c : Thread nD τ) (ms1_3 t) fullShare xi3) -∗ K ⟨⟩))
      ⊢ wp frame (wpE (defs₀ (F := F)) Variants.none c none) Set.univ (bodyAt1 (F := F) t) K := by
  unfold PhiWith bodyAt1
  iintro ⟨⟨⟨Ha, Hb, Hc, Hd, He, Hf, HS0, HS1, HS2, Hr⟩, Hg⟩, HO, H0, H1, H2, H3, Hk⟩
  iapply (run1_B c (grid1.coords t) _ _ _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) xi3 s.1 s.2.1 s.2.2 Set.univ K)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  iapply Hk
  isplitr [HO H0 H1 H2 H3]
  · isplitr [Hg]
    · isplitl [Ha]; · iexact Ha
      isplitl [Hb]; · iexact Hb
      isplitl [Hc]; · iexact Hc
      isplitl [Hd]; · iexact Hd
      isplitl [He]; · iexact He
      isplitl [Hf]; · iexact Hf
      isplitl [HS0]; · iexact HS0
      isplitl [HS1]; · iexact HS1
      isplitl [HS2]; · iexact HS2
      iexact Hr
    iexact Hg
  isplitl [HO]; · iexact HO
  isplitl [H0]; · iexact H0
  isplitl [H1]; · iexact H1
  isplitl [H2]; · iexact H2
  iexact H3

/-- Above the diagonal, not at the last key block: nothing changes. -/
theorem body1_C (c : Dev nD) (t : Fin cfg1.N) (h0 : ¬t.val % 8 = 0) (h1 : ¬t.val % 8 ≤ t.val / 8) (h2 : ¬t.val % 8 = 7) (s : Vec F S32x256x1 .f32 × Vec F S32x256x1 .f32 × Vec F S32x256x64 .f32) (O : sProp 𝕄) (xi3 : Vec F S2x256x16x64 .f32) (K : PUnit → sProp 𝕄) :
    iprop(PhiWith c (owns (c : Thread nD τ) scM1_0 fullShare (s).1) (owns (c : Thread nD τ) scM1_1 fullShare (s).2.1) (owns (c : Thread nD τ) scM1_2 fullShare (s).2.2) ∗ O ∗ owns (c : Thread nD τ) (ms1_0 t) fullShare (iblk1 V c 0 t) ∗ owns (c : Thread nD τ) (ms1_1 t) fullShare (iblk1 V c 1 t) ∗ owns (c : Thread nD τ) (ms1_2 t) fullShare (iblk1 V c 2 t) ∗ owns (c : Thread nD τ) (ms1_3 t) fullShare xi3
        ∗ (iprop(PhiWith c (owns (c : Thread nD τ) scM1_0 fullShare (s).1) (owns (c : Thread nD τ) scM1_1 fullShare (s).2.1) (owns (c : Thread nD τ) scM1_2 fullShare (s).2.2) ∗ O ∗ owns (c : Thread nD τ) (ms1_0 t) fullShare (iblk1 V c 0 t) ∗ owns (c : Thread nD τ) (ms1_1 t) fullShare (iblk1 V c 1 t) ∗ owns (c : Thread nD τ) (ms1_2 t) fullShare (iblk1 V c 2 t) ∗ owns (c : Thread nD τ) (ms1_3 t) fullShare xi3) -∗ K ⟨⟩))
      ⊢ wp frame (wpE (defs₀ (F := F)) Variants.none c none) Set.univ (bodyAt1 (F := F) t) K := by
  unfold PhiWith bodyAt1
  iintro ⟨⟨⟨Ha, Hb, Hc, Hd, He, Hf, HS0, HS1, HS2, Hr⟩, Hg⟩, HO, H0, H1, H2, H3, Hk⟩
  iapply (run1_C c (grid1.coords t) _ _ _ _ _ _ _ _ _ _ _ _ _ _ (fun h => h0 ((hcond1_0 t).mp h)) (fun h => h1 ((hcond1_1 t).mp h)) (fun h => h2 ((hcond1_2 t).mp h)) (iblk1 V c 0 t) (iblk1 V c 1 t) (iblk1 V c 2 t) xi3 s.1 s.2.1 s.2.2 Set.univ K)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  iapply Hk
  isplitr [HO H0 H1 H2 H3]
  · isplitr [Hg]
    · isplitl [Ha]; · iexact Ha
      isplitl [Hb]; · iexact Hb
      isplitl [Hc]; · iexact Hc
      isplitl [Hd]; · iexact Hd
      isplitl [He]; · iexact He
      isplitl [Hf]; · iexact Hf
      isplitl [HS0]; · iexact HS0
      isplitl [HS1]; · iexact HS1
      isplitl [HS2]; · iexact HS2
      iexact Hr
    iexact Hg
  isplitl [HO]; · iexact HO
  isplitl [H0]; · iexact H0
  isplitl [H1]; · iexact H1
  isplitl [H2]; · iexact H2
  iexact H3

/-- The last key block on the diagonal: one step, and the output block is the quotient of the new numerator and denominator. -/
theorem body1_D (c : Dev nD) (t : Fin cfg1.N) (h0 : ¬t.val % 8 = 0) (h1 : t.val % 8 ≤ t.val / 8) (h2 : t.val % 8 = 7) (s : Vec F S32x256x1 .f32 × Vec F S32x256x1 .f32 × Vec F S32x256x64 .f32) (O : sProp 𝕄) (xi3 : Vec F S2x256x16x64 .f32) (K : PUnit → sProp 𝕄) :
    iprop(PhiWith c (owns (c : Thread nD τ) scM1_0 fullShare (s).1) (owns (c : Thread nD τ) scM1_1 fullShare (s).2.1) (owns (c : Thread nD τ) scM1_2 fullShare (s).2.2) ∗ O ∗ owns (c : Thread nD τ) (ms1_0 t) fullShare (iblk1 V c 0 t) ∗ owns (c : Thread nD τ) (ms1_1 t) fullShare (iblk1 V c 1 t) ∗ owns (c : Thread nD τ) (ms1_2 t) fullShare (iblk1 V c 2 t) ∗ owns (c : Thread nD τ) (ms1_3 t) fullShare xi3
        ∗ (iprop(PhiWith c (owns (c : Thread nD τ) scM1_0 fullShare (nextAt V c t s).1) (owns (c : Thread nD τ) scM1_1 fullShare (nextAt V c t s).2.1) (owns (c : Thread nD τ) scM1_2 fullShare (nextAt V c t s).2.2) ∗ O ∗ owns (c : Thread nD τ) (ms1_0 t) fullShare (iblk1 V c 0 t) ∗ owns (c : Thread nD τ) (ms1_1 t) fullShare (iblk1 V c 1 t) ∗ owns (c : Thread nD τ) (ms1_2 t) fullShare (iblk1 V c 2 t) ∗ owns (c : Thread nD τ) (ms1_3 t) fullShare (finO (nextAt V c t s).2.1 (nextAt V c t s).2.2)) -∗ K ⟨⟩))
      ⊢ wp frame (wpE (defs₀ (F := F)) Variants.none c none) Set.univ (bodyAt1 (F := F) t) K := by
  unfold PhiWith bodyAt1
  iintro ⟨⟨⟨Ha, Hb, Hc, Hd, He, Hf, HS0, HS1, HS2, Hr⟩, Hg⟩, HO, H0, H1, H2, H3, Hk⟩
  iapply (run1_D c (grid1.coords t) _ _ _ _ _ _ _ _ _ _ _ _ _ _ (fun h => h0 ((hcond1_0 t).mp h)) ((hcond1_1 t).mpr h1) ((hcond1_2 t).mpr h2) (iblk1 V c 0 t) (iblk1 V c 1 t) (iblk1 V c 2 t) xi3 s.1 s.2.1 s.2.2 Set.univ K)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  iapply Hk
  isplitr [HO H0 H1 H2 H3]
  · isplitr [Hg]
    · isplitl [Ha]; · iexact Ha
      isplitl [Hb]; · iexact Hb
      isplitl [Hc]; · iexact Hc
      isplitl [Hd]; · iexact Hd
      isplitl [He]; · iexact He
      isplitl [Hf]; · iexact Hf
      isplitl [HS0]; · iexact HS0
      isplitl [HS1]; · iexact HS1
      isplitl [HS2]; · iexact HS2
      iexact Hr
    iexact Hg
  isplitl [HO]; · iexact HO
  isplitl [H0]; · iexact H0
  isplitl [H1]; · iexact H1
  isplitl [H2]; · iexact H2
  iexact H3

/-- The last key block above the diagonal: the output block is the quotient of the numerator and denominator as they stand. -/
theorem body1_E (c : Dev nD) (t : Fin cfg1.N) (h0 : ¬t.val % 8 = 0) (h1 : ¬t.val % 8 ≤ t.val / 8) (h2 : t.val % 8 = 7) (s : Vec F S32x256x1 .f32 × Vec F S32x256x1 .f32 × Vec F S32x256x64 .f32) (O : sProp 𝕄) (xi3 : Vec F S2x256x16x64 .f32) (K : PUnit → sProp 𝕄) :
    iprop(PhiWith c (owns (c : Thread nD τ) scM1_0 fullShare (s).1) (owns (c : Thread nD τ) scM1_1 fullShare (s).2.1) (owns (c : Thread nD τ) scM1_2 fullShare (s).2.2) ∗ O ∗ owns (c : Thread nD τ) (ms1_0 t) fullShare (iblk1 V c 0 t) ∗ owns (c : Thread nD τ) (ms1_1 t) fullShare (iblk1 V c 1 t) ∗ owns (c : Thread nD τ) (ms1_2 t) fullShare (iblk1 V c 2 t) ∗ owns (c : Thread nD τ) (ms1_3 t) fullShare xi3
        ∗ (iprop(PhiWith c (owns (c : Thread nD τ) scM1_0 fullShare (s).1) (owns (c : Thread nD τ) scM1_1 fullShare (s).2.1) (owns (c : Thread nD τ) scM1_2 fullShare (s).2.2) ∗ O ∗ owns (c : Thread nD τ) (ms1_0 t) fullShare (iblk1 V c 0 t) ∗ owns (c : Thread nD τ) (ms1_1 t) fullShare (iblk1 V c 1 t) ∗ owns (c : Thread nD τ) (ms1_2 t) fullShare (iblk1 V c 2 t) ∗ owns (c : Thread nD τ) (ms1_3 t) fullShare (finO s.2.1 s.2.2)) -∗ K ⟨⟩))
      ⊢ wp frame (wpE (defs₀ (F := F)) Variants.none c none) Set.univ (bodyAt1 (F := F) t) K := by
  unfold PhiWith bodyAt1
  iintro ⟨⟨⟨Ha, Hb, Hc, Hd, He, Hf, HS0, HS1, HS2, Hr⟩, Hg⟩, HO, H0, H1, H2, H3, Hk⟩
  iapply (run1_E c (grid1.coords t) _ _ _ _ _ _ _ _ _ _ _ _ _ _ (fun h => h0 ((hcond1_0 t).mp h)) (fun h => h1 ((hcond1_1 t).mp h)) ((hcond1_2 t).mpr h2) (iblk1 V c 0 t) (iblk1 V c 1 t) (iblk1 V c 2 t) xi3 s.1 s.2.1 s.2.2 Set.univ K)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  iapply Hk
  isplitr [HO H0 H1 H2 H3]
  · isplitr [Hg]
    · isplitl [Ha]; · iexact Ha
      isplitl [Hb]; · iexact Hb
      isplitl [Hc]; · iexact Hc
      isplitl [Hd]; · iexact Hd
      isplitl [He]; · iexact He
      isplitl [Hf]; · iexact Hf
      isplitl [HS0]; · iexact HS0
      isplitl [HS1]; · iexact HS1
      isplitl [HS2]; · iexact HS2
      iexact Hr
    iexact Hg
  isplitl [HO]; · iexact HO
  isplitl [H0]; · iexact H0
  isplitl [H1]; · iexact H1
  isplitl [H2]; · iexact H2
  iexact H3

/-! ## The obligation at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- The body at any point: the inputs' buffers hold their blocks; the point's number says which case it is in; the
    invariant hands over the carried buffers at what the point before left (at anything before a first key block) and
    takes them back at this point's contents; the output's buffer is handed back untouched where the window is idle
    and at the quotient where the key block is the last; the core owes nothing throughout. -/
theorem sound_body1 (c : Dev nD) (t : Fin cfg1.N) :
    bodyPre1 V c t ⊢ wp frame (wpE (defs₀ (F := F)) Variants.none c none) Set.univ (bodyAt1 (F := F) t) (fun _ => bodyPost1 V c t) := by
  unfold bodyPre1 bodyPost1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 64 := lt_of_lt_of_eq t.isLt (show cfg1.N = 64 from N_1)
  by_cases h0 : t.val % 8 = 0
  · have h2 : ¬t.val % 8 = 7 := by omega
    rw [Dat.leavesExact_idle (dat1 V c) 3 t (idleAt1_3 t (fun h => h2 ((hcond1_2 t).mp h))) (noFlush1_3 t (fun h => h2 ((hcond1_2 t).mp h)))]
    rw [scAt_first V c t h0]
    rw [PhiS_castSucc]
    iintro ⟨HP, Ho, ⟨%d0, H0⟩, ⟨%d1, H1⟩, ⟨%d2, H2⟩, ⟨%d3, H3⟩⟩
    ihave HQ := (PhiS_any V c t.val (Nat.le_of_lt t.isLt)) $$ HP
    iapply (body1_A V c t h0 ((dat1 V c).owesAt () t.castSucc) ((dat1 V c).before 3 t d3) _)
    isplitl [HQ]; · iexact HQ
    isplitl [Ho]; · iexact Ho
    isplitl [H0]; · iexact H0
    isplitl [H1]; · iexact H1
    isplitl [H2]; · iexact H2
    isplitl [H3]; · iexact H3
    iintro ⟨HP, Ho, H0, H1, H2, H3⟩
    isplitl [HP]; · iexact HP
    isplitl [Ho]; · iexact Ho
    isplitl [H0]; · iexact H0
    isplitl [H1]; · iexact H1
    isplitl [H2]; · iexact H2
    iexists d3; iexact H3
  · have hz : t.val ≠ 0 := fun h => h0 (by rw [h])
    by_cases h1 : t.val % 8 ≤ t.val / 8
    · by_cases h2 : t.val % 8 = 7
      · rw [show (dat1 V c).leavesExact 3 t = owns (c : Thread nD τ) (ms1_3 t) fullShare ((dat1 V c).after 3 t) from by
          unfold Dat.leavesExact; rw [liveAt1_3 t ((hcond1_2 t).mpr h2)]]
        rw [after1_3]
        rw [scAt_step V c t h0 h1]
        rw [PhiS_castSucc, PhiS_pos V c _ _ hz]
        iintro ⟨HQ, Ho, ⟨%d0, H0⟩, ⟨%d1, H1⟩, ⟨%d2, H2⟩, ⟨%d3, H3⟩⟩
        iapply (body1_D V c t h0 h1 h2 (scAt V c (t.val - 1) (Nat.lt_of_le_of_lt (Nat.sub_le _ _) t.isLt)) ((dat1 V c).owesAt () t.castSucc) ((dat1 V c).before 3 t d3) _)
        isplitl [HQ]; · iexact HQ
        isplitl [Ho]; · iexact Ho
        isplitl [H0]; · iexact H0
        isplitl [H1]; · iexact H1
        isplitl [H2]; · iexact H2
        isplitl [H3]; · iexact H3
        iintro ⟨HP, Ho, H0, H1, H2, H3⟩
        isplitl [HP]; · iexact HP
        isplitl [Ho]; · iexact Ho
        isplitl [H0]; · iexact H0
        isplitl [H1]; · iexact H1
        isplitl [H2]; · iexact H2
        iexact H3
      · rw [Dat.leavesExact_idle (dat1 V c) 3 t (idleAt1_3 t (fun h => h2 ((hcond1_2 t).mp h))) (noFlush1_3 t (fun h => h2 ((hcond1_2 t).mp h)))]
        rw [scAt_step V c t h0 h1]
        rw [PhiS_castSucc, PhiS_pos V c _ _ hz]
        iintro ⟨HQ, Ho, ⟨%d0, H0⟩, ⟨%d1, H1⟩, ⟨%d2, H2⟩, ⟨%d3, H3⟩⟩
        iapply (body1_B V c t h0 h1 h2 (scAt V c (t.val - 1) (Nat.lt_of_le_of_lt (Nat.sub_le _ _) t.isLt)) ((dat1 V c).owesAt () t.castSucc) ((dat1 V c).before 3 t d3) _)
        isplitl [HQ]; · iexact HQ
        isplitl [Ho]; · iexact Ho
        isplitl [H0]; · iexact H0
        isplitl [H1]; · iexact H1
        isplitl [H2]; · iexact H2
        isplitl [H3]; · iexact H3
        iintro ⟨HP, Ho, H0, H1, H2, H3⟩
        isplitl [HP]; · iexact HP
        isplitl [Ho]; · iexact Ho
        isplitl [H0]; · iexact H0
        isplitl [H1]; · iexact H1
        isplitl [H2]; · iexact H2
        iexists d3; iexact H3
    · by_cases h2 : t.val % 8 = 7
      · rw [show (dat1 V c).leavesExact 3 t = owns (c : Thread nD τ) (ms1_3 t) fullShare ((dat1 V c).after 3 t) from by
          unfold Dat.leavesExact; rw [liveAt1_3 t ((hcond1_2 t).mpr h2)]]
        rw [after1_3]
        rw [scAt_skip V c t h0 h1]
        rw [PhiS_castSucc, PhiS_pos V c _ _ hz]
        iintro ⟨HQ, Ho, ⟨%d0, H0⟩, ⟨%d1, H1⟩, ⟨%d2, H2⟩, ⟨%d3, H3⟩⟩
        iapply (body1_E V c t h0 h1 h2 (scAt V c (t.val - 1) (Nat.lt_of_le_of_lt (Nat.sub_le _ _) t.isLt)) ((dat1 V c).owesAt () t.castSucc) ((dat1 V c).before 3 t d3) _)
        isplitl [HQ]; · iexact HQ
        isplitl [Ho]; · iexact Ho
        isplitl [H0]; · iexact H0
        isplitl [H1]; · iexact H1
        isplitl [H2]; · iexact H2
        isplitl [H3]; · iexact H3
        iintro ⟨HP, Ho, H0, H1, H2, H3⟩
        isplitl [HP]; · iexact HP
        isplitl [Ho]; · iexact Ho
        isplitl [H0]; · iexact H0
        isplitl [H1]; · iexact H1
        isplitl [H2]; · iexact H2
        iexact H3
      · rw [Dat.leavesExact_idle (dat1 V c) 3 t (idleAt1_3 t (fun h => h2 ((hcond1_2 t).mp h))) (noFlush1_3 t (fun h => h2 ((hcond1_2 t).mp h)))]
        rw [scAt_skip V c t h0 h1]
        rw [PhiS_castSucc, PhiS_pos V c _ _ hz]
        iintro ⟨HQ, Ho, ⟨%d0, H0⟩, ⟨%d1, H1⟩, ⟨%d2, H2⟩, ⟨%d3, H3⟩⟩
        iapply (body1_C V c t h0 h1 h2 (scAt V c (t.val - 1) (Nat.lt_of_le_of_lt (Nat.sub_le _ _) t.isLt)) ((dat1 V c).owesAt () t.castSucc) ((dat1 V c).before 3 t d3) _)
        isplitl [HQ]; · iexact HQ
        isplitl [Ho]; · iexact Ho
        isplitl [H0]; · iexact H0
        isplitl [H1]; · iexact H1
        isplitl [H2]; · iexact H2
        isplitl [H3]; · iexact H3
        iintro ⟨HP, Ho, H0, H1, H2, H3⟩
        isplitl [HP]; · iexact HP
        isplitl [Ho]; · iexact Ho
        isplitl [H0]; · iexact H0
        isplitl [H1]; · iexact H1
        isplitl [H2]; · iexact H2
        iexists d3; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives the class's back: the carried buffers' contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl, PhiA1_eq]
  exact PhiS_any V c _ _

end Cert.Kernel.Frame

end
-- ==== Proof.WFrameRun.lean ====
import proofs.«156199_j3478923510049_2_alg».proof.Proof.Gen.Kernel.Launch
import proofs.«156199_j3478923510049_2_alg».proof.Proof.Gen.Kernel.Skeleton
import proofs.«156199_j3478923510049_2_alg».proof.Proof.Gen.Kernel.Points
import proofs.«156199_j3478923510049_2_alg».proof.Proof.WFrameMatmul
import proofs.«156199_j3478923510049_2_alg».proof.Proof.WAttnBody
import Idealize.ShloMosaic.Lib.Pipeline.FrameBody
import Idealize.ShloMosaic.Lib.Pipeline.Regions
import Idealize.ShloMosaic.Lib.Pipeline.RegionsLoop
import Idealize.ShloMosaic.Lib.Pipeline.FrameSuffix
import Idealize.ShloMosaic.Lib.Ring
import Idealize.ShloMosaic.Lib.Tactic

/-! THE RUN of @main from the launch to the return: three kernel regions among four stretches of host operations.
    The buffer contents at every boundary between two of them, as a fold from the launch memory (a stretch's
    `StableHlo.after`; a region's arrays at what its write-backs leave, every other buffer as entered); every
    pipeline's proof data at its region's entry contents; each stretch and each region as a segment over the thread
    state "every unscoped buffer at the boundary's contents, the generator register at some state, nothing owed";
    and the launch over the segments: every final memory holds the last boundary's contents, in particular the
    argument arrays as launched. -/

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary: a fold through @main -/

/-- Core `c`'s buffers at launch. -/
abbrev W0 : Dev nD → Valuation τ sig (Elt F) := fun c b => (s₀ m ρ).mem ((c : Dev nD), b)
/-- After `hostOps0` (region 0's entry). -/
abbrev W1 : Dev nD → Valuation τ sig (Elt F) := fun c => StableHlo.after hostOps0 (W0 m ρ c)

/-- The same read at the TensorCore's references (what region 0's proof data take). -/
abbrev U1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev U2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)

/-- The same read at the TensorCore's references (what region 1's proof data take). -/
abbrev U3 : (c : Dev nD) → (b : Ref sig .tc) → Buf (Elt F) ((c : Thread nD τ).loc b) := fun c b => W3 m ρ c b
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev U4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)

/-- The same read at the TensorCore's references (what region 2's proof data take). -/
abbrev U5 : (c : Dev nD) → (b : Ref sig .tc) → Buf (Elt F) ((c : Thread nD τ).loc b) := fun c b => W5 m ρ c b
/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev U6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)

/-- After `hostOps3` (the return). -/
abbrev W7 : Dev nD → Valuation τ sig (Elt F) := fun c => StableHlo.after hostOps3 (W6 m ρ c)

/-! # The proof data family and the thread state -/

/-- The prefetched tables' admissible contents: no pipeline has a table. -/
abbrev adm3 : (p : Fin 3) → (pcfgs (F := F) p).Adm := fun p => (cfgs p).toPCfg_adm
/-- Every pipeline's proof data, each at its region's entry contents: a literal `match`, so that the pinned
    configuration at a numeral reduces to the printed one. -/
def pdats3 : (p : Fin 3) → (c : Dev nD) → Dat τ (Elt F) Unit ℕ (UR sig nD τ) ℕ (Pipeline.pin (pcfgs (F := F)) adm3 p) c
  | ⟨0, _⟩ => fun c => dat0 (U1 m ρ) c
  | ⟨1, _⟩ => fun c => dat1 (U3 m ρ) c
  | ⟨2, _⟩ => fun c => dat2 (U5 m ρ) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along (its `post`
    is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_fresh : (hostOps0 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor
/-- No operation of `hostOps3` allocates a buffer. -/
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

/-! # The regions as segments -/

-- `iapply` of a library lemma stated over the pinned configuration unifies with it only when unification may unfold
-- plain definitions in a metavariable's type
set_option backward.isDefEq.respectTransparency.types false in
/-- REGION 0 (custom_call 0) over the thread state: entered from every unscoped buffer at `W1`, left at `W2`
    (what the next segment is entered from). Its arrays split out of the unscoped buffers and put back at the exit
    contents; the generator register into the class invariant and out; nothing owed; no semaphore of the kernel's own. -/
def reg0 : Pipeline.RegionSeg (pcfgs (F := F)) adm3 (pdats3 m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm3 (pdats3 m ρ) launch0.win launch0.arr_whole c
      ((pdats3 m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats3 m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats3 m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm3 (Ix := Unit) (Name := ℕ) (U := UR sig nD τ) (Lvl := ℕ)
      launch0.win launch0.arr_whole c (pdats3 m ρ) ((pdats3 m ρ 0 c).share_full fun _ => rfl)
      (U1 m ρ c) (U2 m ρ c) ((pdats3 m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies with it only when unification may unfold
-- plain definitions in a metavariable's type
set_option backward.isDefEq.respectTransparency.types false in
/-- REGION 1 (custom_call 1) over the thread state: entered from every unscoped buffer at `W3`, left at `W4`
    (what the next segment is entered from). Its arrays split out of the unscoped buffers and put back at the exit
    contents; the generator register into the class invariant and out; nothing owed; no semaphore of the kernel's own. -/
def reg1 : Pipeline.RegionSeg (pcfgs (F := F)) adm3 (pdats3 m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm3 (pdats3 m ρ) launch1.win launch1.arr_whole c
      ((pdats3 m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (hin1 (U3 m ρ) c)
    unfold Pipeline.ΦA
    iintro ⟨Hp, -, Hr⟩
    isplitl [Hr]; · iexact Hr
    iexact Hp
  hout c := by
    refine (hout1 (U3 m ρ) c).trans (?_ : Pipeline.ΦA spec1 c ⊢ _)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm3 (Ix := Unit) (Name := ℕ) (U := UR sig nD τ) (Lvl := ℕ)
      launch1.win launch1.arr_whole c (pdats3 m ρ) ((pdats3 m ρ 1 c).share_full fun _ => rfl)
      (U3 m ρ c) (U4 m ρ c) ((pdats3 m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies with it only when unification may unfold
-- plain definitions in a metavariable's type
set_option backward.isDefEq.respectTransparency.types false in
/-- REGION 2 (custom_call 2) over the thread state: entered from every unscoped buffer at `W5`, left at `W6`
    (what the next segment is entered from). Its arrays split out of the unscoped buffers and put back at the exit
    contents; the generator register into the class invariant and out; nothing owed; no semaphore of the kernel's own. -/
def reg2 : Pipeline.RegionSeg (pcfgs (F := F)) adm3 (pdats3 m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm3 (pdats3 m ρ) launch2.win launch2.arr_whole c
      ((pdats3 m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats3 m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats3 m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm3 (Ix := Unit) (Name := ℕ) (U := UR sig nD τ) (Lvl := ℕ)
      launch2.win launch2.arr_whole c (pdats3 m ρ) ((pdats3 m ρ 2 c).share_full fun _ => rfl)
      (U5 m ρ c) (U6 m ρ c) ((pdats3 m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # @main as segments, and the launch -/

/-- @main's 7 segments in order: a host segment per stretch from its boundary's contents, a region per pallas_call. -/
abbrev segs3 : List (Pipeline.Seg (pcfgs (F := F)) adm3 (pdats3 m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main IS the run of the segments: @main as the chain of its items, then the segments' run against that chain by
    definitional unfolding. -/
theorem main_run (c : Dev nD) : main (F := F) c = Pipeline.Seg.run (segs3 m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final memory holds, at every unscoped buffer of every core,
    the last boundary's contents `W7`: the launch over the segments, the last thread state read against the final
    state. -/
theorem run_all : θ_run defs (onTc (τ := τ) (main (F := F))) ⟨m, fun _ => 0, ρ⟩ (fun r => ∀ c : Dev nD, ∀ b ∈ Pipeline.ucRefs τ sig, r.2.mem (((c : Thread nD τ)).1, b) = W7 m ρ c b) :=
  Pipeline.θ_run_regions_kit (pcfgs (F := F)) adm3 (pdats3 m ρ) () cellOf_inj emb₁ defs₀ 𝒱₀ L lv m ρ main (segs3 m ρ)
    (fun c Q => by rw [main_run m ρ c])
    (by simp only [segs3, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h => h)

/-! # The arguments end as launched: no host operation writes one and no region has one among its arrays, so the
    fold at an argument's buffer walks back to the launch memory -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! # The claims read off the run -/

/-- A run's postcondition weakens: the run is monotone in it. -/
theorem run_mono {Q Q' : PUnit × MemSt nD τ sig (Elt F) → Prop}
    (hr : θ_run defs (onTc (τ := τ) (main (F := F))) ⟨m, fun _ => 0, ρ⟩ Q) (h : ∀ r, Q r → Q' r) :
    θ_run defs (onTc (τ := τ) (main (F := F))) ⟨m, fun _ => 0, ρ⟩ Q' :=
  OrdCont.mono (L := Prop) (θ_run defs (onTc (τ := τ) (main (F := F))) ⟨m, fun _ => 0, ρ⟩) h hr

/-- THE FRAME: every weakly fair execution of @main terminates, nothing faulting, and every final state has the three
    argument arrays as launched: `run_all` read at the arguments' buffers, each through its fold back to the launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_mono m ρ (run_all m ρ) fun r h c =>
    ⟨(h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c)⟩

/-- The same with the result array: every final state holds in `main_v16` the last boundary's contents there, and
    the three argument arrays as launched. -/
theorem run_result : θ_run defs (onTc (τ := τ) (main (F := F))) ⟨m, fun _ => 0, ρ⟩ (fun r => ∀ c : Dev nD,
      r.2.mem ((c.tc : Thread nD τ).loc main_v16) = W7 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_mono m ρ (run_all m ρ) fun r h c =>
    ⟨h c _ (mem_uc main_v16 (by decide)),
    (h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c)⟩

end Cert.Kernel.Frame

end
-- ==== Proof.LibEReal.lean ====
/-
  General lemmas on finite sums and on the extended reals, with no program in sight.

  * `sum_blocks`: a sum over `T · B` indices is the sum over `T` blocks of the sums over the `B` indices of each
    block (index `t · B + r`).
  * `IsReal`: an extended real that is a real number; sums, products, differences, the rectifier `max · 0`, finite
    sums, a quotient by a nonzero real (the ideal float division) and the ideal inverse square root of a positive
    real keep it.  `coe_sum`: the coercion of a finite sum of reals is the sum of the coercions.
  * `var_real`: for finitely many reals and `N` their number, the mean of the squares minus the square of the mean
    is the mean of the squared deviations from the mean — the identity between the two ways a batch normalization
    takes a variance.
-/
import Idealize.ShloMosaic.PureOps.Ideal

noncomputable section

namespace Cert.Spec

open Idealize.ShloMosaic

/-! ## Blocks of rows -/

/-- Row `r` of block `t` among `T` blocks of `B` rows: row `t · B + r`. -/
def blockIdx {T B n : ℕ} (h : T * B = n) (t : Fin T) (r : Fin B) : Fin n :=
  ⟨t.val * B + r.val, by
    have ht := t.isLt
    have hr := r.isLt
    calc t.val * B + r.val < t.val * B + B := by omega
      _ = (t.val + 1) * B := by ring
      _ ≤ T * B := Nat.mul_le_mul_right B ht
      _ = n := h⟩

@[simp] theorem blockIdx_val {T B n : ℕ} (h : T * B = n) (t : Fin T) (r : Fin B) :
    (blockIdx h t r).val = t.val * B + r.val := rfl

/-- A sum over all rows, block by block. -/
theorem sum_blocks {M : Type*} [AddCommMonoid M] {T B n : ℕ} (h : T * B = n) (f : Fin n → M) :
    ∑ i : Fin n, f i = ∑ t : Fin T, ∑ r : Fin B, f (blockIdx h t r) := by
  subst h
  rw [← Fintype.sum_prod_type' (f := fun t r => f (blockIdx rfl t r))]
  refine (Fintype.sum_equiv finProdFinEquiv _ _ fun x => ?_).symm
  congr 1
  apply Fin.ext
  rw [finProdFinEquiv_apply_val, blockIdx_val]
  ring

/-! ## Finite extended reals -/

/-- An extended real that is a real number. -/
def IsReal (x : EReal) : Prop := ∃ a : ℝ, x = (a : EReal)

theorem IsReal.coe (a : ℝ) : IsReal (a : EReal) := ⟨a, rfl⟩
theorem IsReal.zero : IsReal 0 := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max_zero {x : EReal} (hx : IsReal x) : IsReal (max x 0) := by
  obtain ⟨a, rfl⟩ := hx
  refine ⟨max a 0, ?_⟩
  rcases le_total a 0 with h | h
  · rw [max_eq_right h, max_eq_right (EReal.coe_nonpos.mpr h), EReal.coe_zero]
  · rw [max_eq_left h, max_eq_left (EReal.coe_nonneg.mpr h)]

/-- The coercion of a finite sum of reals is the sum of the coercions. -/
theorem coe_sum {ι : Type*} (s : Finset ι) (g : ι → ℝ) :
    ((∑ i ∈ s, g i : ℝ) : EReal) = ∑ i ∈ s, (g i : EReal) := by
  classical
  refine Finset.induction_on s (by simp) ?_
  intro a s ha ih
  rw [Finset.sum_insert ha, Finset.sum_insert ha, EReal.coe_add, ih]

theorem IsReal.sum {ι : Type*} (s : Finset ι) (f : ι → EReal) (h : ∀ i, IsReal (f i)) : IsReal (∑ i ∈ s, f i) := by
  choose g hg using h
  refine ⟨∑ i ∈ s, g i, ?_⟩
  rw [coe_sum]
  exact Finset.sum_congr rfl fun i _ => hg i

/-- A quotient by a nonzero real is the product with its reciprocal. -/
theorem div_real (x : EReal) {N : ℝ} (hN : N ≠ 0) : Ideal.div x (N : EReal) = x * ((1 / N : ℝ) : EReal) :=
  Ideal.div_coe hN x

theorem IsReal.div_real {x : EReal} (hx : IsReal x) {N : ℝ} (hN : N ≠ 0) : IsReal (Ideal.div x (N : EReal)) := by
  rw [Cert.Spec.div_real x hN]; exact hx.mul (IsReal.coe _)

/-- The inverse square root of a positive real is a real. -/
theorem rsqrt_pos {a : ℝ} (h : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.mpr h.le), if_neg h.ne']

/-! ## The two variances -/

/-- Over the reals: the mean of the squares minus the square of the mean is the mean of the squared deviations. -/
theorem var_real {ι : Type*} [Fintype ι] (g : ι → ℝ) (N : ℝ) (hN : N ≠ 0) (hcard : (Fintype.card ι : ℝ) = N) :
    (∑ r, g r * g r) * (1 / N) - ((∑ r, g r) * (1 / N)) * ((∑ r, g r) * (1 / N))
      = (∑ r, (g r - (∑ r, g r) * (1 / N)) * (g r - (∑ r, g r) * (1 / N))) * (1 / N) := by
  have key : ∀ μ : ℝ, ∑ r, (g r - μ) * (g r - μ) = (∑ r, g r * g r) - 2 * μ * (∑ r, g r) + N * (μ * μ) := by
    intro μ
    have e : ∀ r, (g r - μ) * (g r - μ) = g r * g r - 2 * μ * g r + μ * μ := fun r => by ring
    simp only [e, Finset.sum_add_distrib, Finset.sum_sub_distrib, ← Finset.mul_sum, Finset.sum_const, Finset.card_univ,
      nsmul_eq_mul, hcard]
    ring
  rw [key]
  field_simp
  ring

end Cert.Spec

end
-- ==== Proof.Finite.lean ====
/-
  From the stated precondition — every entry of each of the three argument arrays has absolute value below +∞ — to:
  every entry is a real number.
-/
import proofs.«156199_j3478923510049_2_alg».proof.Pre_finite_inputs
import proofs.«156199_j3478923510049_2_alg».proof.Proof.LibEReal
import Idealize.ShloMosaic.Lib.ReduceAll
import Idealize.ShloMosaic.Lib.ValueIdx
import Idealize.ShloMosaic.PureOps.Ideal

noncomputable section

namespace Cert.Finite

open Idealize.ShloMosaic Cert.Pre_finite_inputs Cert.Spec

instance : Subsingleton S_.Idx := ⟨fun a b => funext fun d => d.elim0⟩

/-- An extended real whose absolute value is below the float word of +∞ is a real. -/
theorem real_of_abs_lt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => simp [Ideal.cmp] at h
  | coe a => exact ⟨a, rfl⟩
  | top => simp [Ideal.cmp] at h

theorem finite_of_pre [Cert.Pre_finite_inputs.Facts] (X : FVec Ideal S2x2048x1024 .f32) (Wq : FVec Ideal S3072x1024 .f32) (Wo : FVec Ideal S1024x1024 .f32)
    (h : fn (F := Ideal) X Wq Wo = fun _ => 1#1) :
    (∀ i, IsReal (X i)) ∧ (∀ i, IsReal (Wq i)) ∧ (∀ i, IsReal (Wo i)) := by
  have h0 := congrFun h ValueIdx.ix0
  dsimp only [fn] at h0
  obtain ⟨h01, h2⟩ := IntOp.andi_eq_one.mp h0
  obtain ⟨h00, h1⟩ := IntOp.andi_eq_one.mp h01
  refine ⟨fun i => ?_, fun i => ?_, fun i => ?_⟩
  · exact real_of_abs_lt _ (Host.reduce_andi_all _ _ _ _ _ h00 i)
  · exact real_of_abs_lt _ (Host.reduce_andi_all _ _ _ _ _ h1 i)
  · exact real_of_abs_lt _ (Host.reduce_andi_all _ _ _ _ _ h2 i)

end Cert.Finite

end
-- ==== Proof.Spec.lean ====
/-
  Causal multi-head attention as ONE function of its three argument arrays, on the extended reals:
  X : [2, 2048, 1024] (batch, position, model feature), Wq : [3072, 1024] (the stacked query / key / value projection,
  rows = projected features), Wo : [1024, 1024] (the output projection, rows = output features).

    proj b s e      = Σ_d X[b,s,d] · Wq[e,d]                              (e = which·1024 + head·64 + coordinate)
    score b h q k   = (Σ_j proj b q (query,h,j) · proj b k (key,h,j)) · (1/8)   if k ≤ q,   −∞ otherwise
    attn b q h j    = Σ_k  exp(score k − M) / L · proj b k (value,h,j),    M = max_k score k,  L = Σ_k exp(score k − M)
    out b s o       = Σ_e attn b s (e / 64) (e % 64) · Wo[o,e]

  No program is imported: both programs' results are compared with `out`.
-/
import Idealize.ShloMosaic.PureOps.Ideal
import Idealize.ShloMosaic.Lib.ValueIdx

noncomputable section

namespace Cert.Spec

open Idealize.ShloMosaic Idealize.ShloMosaic.ValueIdx

abbrev SX : Shape := ⟨3, ![2, 2048, 1024]⟩
abbrev SWq : Shape := ⟨2, ![3072, 1024]⟩
abbrev SWo : Shape := ⟨2, ![1024, 1024]⟩

/-- The row of the stacked projection for (query / key / value, head, coordinate). -/
def feat (w : Fin 3) (h : Fin 16) (j : Fin 64) : Fin 3072 := ⟨w.val * 1024 + h.val * 64 + j.val, by omega⟩

/-- The head of a model feature and its coordinate inside the head. -/
def headOf (e : Fin 1024) : Fin 16 := ⟨e.val / 64, by omega⟩
def coordOf (e : Fin 1024) : Fin 64 := ⟨e.val % 64, by omega⟩

variable (X : SX.Idx → EReal) (Wq : SWq.Idx → EReal) (Wo : SWo.Idx → EReal)

/-- One projected feature of one position. -/
def proj (b : Fin 2) (s : Fin 2048) (e : Fin 3072) : EReal :=
  ∑ d : Fin 1024, X (ix3 b s d) * Wq (ix2 e d)

/-- The scaled score of query position `q` against key position `k` in head `h`, −∞ where the key is after the query.
    The scale is the float word of 1/8. -/
def score (b : Fin 2) (h : Fin 16) (q k : Fin 2048) : EReal :=
  if k.val ≤ q.val then
    (∑ j : Fin 64, proj X Wq b q (feat 0 h j) * proj X Wq b k (feat 1 h j)) * Ideal.ofBits .f32 0x3E000000#32
  else ⊥

/-- A row's maximal score and the sum of its shifted exponentials. -/
def rowMax (b : Fin 2) (h : Fin 16) (q : Fin 2048) : EReal := (Finset.univ : Finset (Fin 2048)).sup (score X Wq b h q)
def rowSum (b : Fin 2) (h : Fin 16) (q : Fin 2048) : EReal :=
  ∑ k : Fin 2048, Ideal.exp (score X Wq b h q k - rowMax X Wq b h q)

/-- The softmax-weighted value of query position `q`, head `h`, coordinate `j`. -/
def attn (b : Fin 2) (q : Fin 2048) (h : Fin 16) (j : Fin 64) : EReal :=
  ∑ k : Fin 2048, Ideal.div (Ideal.exp (score X Wq b h q k - rowMax X Wq b h q)) (rowSum X Wq b h q) * proj X Wq b k (feat 2 h j)

/-- The output feature `o` of position `s`. -/
def outAt (b : Fin 2) (s : Fin 2048) (o : Fin 1024) : EReal :=
  ∑ e : Fin 1024, attn X Wq b s (headOf e) (coordOf e) * Wo (ix2 o e)

/-- The whole result array. -/
def out : SX.Idx → EReal := fun i => outAt X Wq Wo (i 0) (i 1) (i 2)

theorem out_apply (b : Fin 2) (s : Fin 2048) (o : Fin 1024) : out X Wq Wo (ix3 b s o) = outAt X Wq Wo b s o := rfl

end Cert.Spec

end
-- ==== Proof.RefSpec.lean ====
/-
  The jnp reference of causal multi-head attention, read operation by operation, IS the specification function
  `Cert.Spec.out` of its three arguments, on the extended reals.

  The reference computes: the stacked projection X·Wqᵀ; its three slices (query / key / value) reshaped to heads and
  transposed; the scores Q·Kᵀ divided by √64; the causal mask (−∞ where the key is after the query); the row maximum,
  the shifted exponentials, their row sum and the quotient; the weighted values; heads merged back; the output
  projection. Each stage is read at an index built from literal coordinates and identified with the matching function of
  `Cert.Spec`: `proj`, `score`, `rowMax`, `rowSum`, `attn`, `outAt`.
-/
import proofs.«156199_j3478923510049_2_alg».proof.Proof.Gen.ReferenceIdeal.Read
import proofs.«156199_j3478923510049_2_alg».proof.Proof.Spec
import Idealize.ShloMosaic.Lib.ValueIdx
import Idealize.ShloMosaic.PureOps.Ideal.Laws
import Idealize.ShloMosaic.PureOps.Reduce

noncomputable section

namespace Cert.ReferenceIdeal.RefSpec

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

/-! ## The projection and its three head-split operands -/

/-- The stacked projection at (batch, position, projected feature) is `proj`: the sum over the model features. -/
theorem v0_eq (X : (⟨S2x2048x1024, .f32⟩ : BufTy).Contents (Elt Ideal)) (Wq : (⟨S3072x1024, .f32⟩ : BufTy).Contents (Elt Ideal)) (b : Fin 2) (s : Fin 2048) (e : Fin 3072) :
    val_main_v0 (F := Ideal) X Wq (ix3 b s e) = Cert.Spec.proj X Wq b s e := by
  rw [val_main_v0_apply]
  unfold Cert.Spec.proj
  refine Finset.sum_congr rfl fun d _ => ?_
  have el : lidx_main_v0 (ix3 b s e) d = ix3 b s d :=
    funext fun a => Fin.ext (by match a with | ⟨0, _⟩ => rfl | ⟨1, _⟩ => rfl | ⟨2, _⟩ => rfl)
  have er : ridx_main_v0 (ix3 b s e) d = ix2 e d :=
    funext fun a => Fin.ext (by match a with | ⟨0, _⟩ => rfl | ⟨1, _⟩ => rfl)
  rw [el, er]

/-- Feature arithmetic: the flat position of (batch, position, head, coordinate) in a [2, 2048, 16, 64] array, split
    back over [2, 2048, 1024], is (batch, position, head · 64 + coordinate). -/
theorem split_heads (b s h j : Nat) (hb : b < 2) (hs : s < 2048) (hh : h < 16) (hj : j < 64) :
    (((b * 2048 + s) * 16 + h) * 64 + j) / 2097152 = b ∧ (((b * 2048 + s) * 16 + h) * 64 + j) / 1024 % 2048 = s
      ∧ (((b * 2048 + s) * 16 + h) * 64 + j) % 1024 = h * 64 + j := by
  omega

/-- The query operand at (batch, head, position, coordinate): slice 0 of the projection. -/
theorem v5_eq (X : (⟨S2x2048x1024, .f32⟩ : BufTy).Contents (Elt Ideal)) (Wq : (⟨S3072x1024, .f32⟩ : BufTy).Contents (Elt Ideal)) (b : Fin 2) (h : Fin 16) (s : Fin 2048) (j : Fin 64) :
    val_main_v5 (F := Ideal) X Wq (ix4 b h s j) = Cert.Spec.proj X Wq b s (Cert.Spec.feat 0 h j) := by
  rw [val_main_v5_apply, val_main_v4_apply, val_main_v1_apply, ← v0_eq]
  refine congrArg (val_main_v0 (F := Ideal) X Wq) (funext fun a => Fin.ext ?_)
  obtain ⟨h0, h1, h2⟩ := split_heads b.val s.val h.val j.val b.isLt s.isLt h.isLt j.isLt
  match a with
  | ⟨0, _⟩ => exact h0
  | ⟨1, _⟩ => exact h1
  | ⟨2, _⟩ => exact h2.trans (by show h.val * 64 + j.val = (0 : Fin 3).val * 1024 + h.val * 64 + j.val; simp)

/-- The key operand: slice 1 (offset 1024). -/
theorem v7_eq (X : (⟨S2x2048x1024, .f32⟩ : BufTy).Contents (Elt Ideal)) (Wq : (⟨S3072x1024, .f32⟩ : BufTy).Contents (Elt Ideal)) (b : Fin 2) (h : Fin 16) (s : Fin 2048) (j : Fin 64) :
    val_main_v7 (F := Ideal) X Wq (ix4 b h s j) = Cert.Spec.proj X Wq b s (Cert.Spec.feat 1 h j) := by
  rw [val_main_v7_apply, val_main_v6_apply, val_main_v2_apply, ← v0_eq]
  refine congrArg (val_main_v0 (F := Ideal) X Wq) (funext fun a => Fin.ext ?_)
  obtain ⟨h0, h1, h2⟩ := split_heads b.val s.val h.val j.val b.isLt s.isLt h.isLt j.isLt
  match a with
  | ⟨0, _⟩ => exact h0
  | ⟨1, _⟩ => exact h1
  | ⟨2, _⟩ => exact (congrArg (1024 + ·) h2).trans (by show 1024 + (h.val * 64 + j.val) = (1 : Fin 3).val * 1024 + h.val * 64 + j.val; simp; omega)

/-- The value operand: slice 2 (offset 2048). -/
theorem v9_eq (X : (⟨S2x2048x1024, .f32⟩ : BufTy).Contents (Elt Ideal)) (Wq : (⟨S3072x1024, .f32⟩ : BufTy).Contents (Elt Ideal)) (b : Fin 2) (h : Fin 16) (s : Fin 2048) (j : Fin 64) :
    val_main_v9 (F := Ideal) X Wq (ix4 b h s j) = Cert.Spec.proj X Wq b s (Cert.Spec.feat 2 h j) := by
  rw [val_main_v9_apply, val_main_v8_apply, val_main_v3_apply, ← v0_eq]
  refine congrArg (val_main_v0 (F := Ideal) X Wq) (funext fun a => Fin.ext ?_)
  obtain ⟨h0, h1, h2⟩ := split_heads b.val s.val h.val j.val b.isLt s.isLt h.isLt j.isLt
  match a with
  | ⟨0, _⟩ => exact h0
  | ⟨1, _⟩ => exact h1
  | ⟨2, _⟩ => exact (congrArg (2048 + ·) h2).trans (by show 2048 + (h.val * 64 + j.val) = (2 : Fin 3).val * 1024 + h.val * 64 + j.val; simp; omega)

/-! ## The float words the reference spells -/

/-- The word of `64.0` denotes the real 64. -/
theorem ofBits_64 : Ideal.ofBits .f32 0x42800000#32 = ((64 : ℝ) : EReal) := by
  simp [Ideal.ofBits, Ideal.ieee, -EReal.coe_mul]; norm_num

/-- The word of `0.125` denotes the real 1/8. -/
theorem ofBits_eighth : Ideal.ofBits .f32 0x3E000000#32 = ((1 / 8 : ℝ) : EReal) := by
  simp [Ideal.ofBits, Ideal.ieee, -EReal.coe_mul]; norm_num

/-- The word of `-inf` denotes the bottom of the extended reals. -/
theorem ofBits_neg_inf : Ideal.ofBits .f32 0xFF800000#32 = (⊥ : EReal) := by
  simp [Ideal.ofBits, Ideal.ieee]

/-- The square root of the word of 64 is 8. -/
theorem sqrt_64 : Ideal.sqrt (Ideal.ofBits .f32 0x42800000#32) = ((8 : ℝ) : EReal) := by
  rw [ofBits_64, Ideal.sqrt_coe, if_neg (by norm_num)]
  congr 1
  rw [show (64 : ℝ) = 8 * 8 by norm_num]
  exact Real.sqrt_mul_self (by norm_num)

/-- The scale: dividing by √64 is multiplying by the word of 1/8, for every extended real. -/
theorem div_sqrt_64 (x : EReal) :
    Ideal.div x (Ideal.sqrt (Ideal.ofBits .f32 0x42800000#32)) = x * Ideal.ofBits .f32 0x3E000000#32 := by
  rw [sqrt_64, ofBits_eighth]
  exact Ideal.div_coe (by norm_num) x

/-! ## The scores: Q·Kᵀ, the scale, the causal mask -/

/-- The unscaled score at (batch, head, query, key): the sum over the head's coordinates. -/
theorem v10_eq (X : (⟨S2x2048x1024, .f32⟩ : BufTy).Contents (Elt Ideal)) (Wq : (⟨S3072x1024, .f32⟩ : BufTy).Contents (Elt Ideal)) (b : Fin 2) (h : Fin 16) (q k : Fin 2048) :
    val_main_v10 (F := Ideal) X Wq (ix4 b h q k)
      = ∑ j : Fin 64, Cert.Spec.proj X Wq b q (Cert.Spec.feat 0 h j) * Cert.Spec.proj X Wq b k (Cert.Spec.feat 1 h j) := by
  rw [val_main_v10_apply]
  refine Finset.sum_congr rfl fun j _ => ?_
  have el : lidx_main_v10 (ix4 b h q k) j = ix4 b h q j :=
    funext fun a => Fin.ext (by match a with | ⟨0, _⟩ => rfl | ⟨1, _⟩ => rfl | ⟨2, _⟩ => rfl | ⟨3, _⟩ => rfl)
  have er : ridx_main_v10 (ix4 b h q k) j = ix4 b h k j :=
    funext fun a => Fin.ext (by match a with | ⟨0, _⟩ => rfl | ⟨1, _⟩ => rfl | ⟨2, _⟩ => rfl | ⟨3, _⟩ => rfl)
  rw [el, er, v5_eq, v7_eq]

/-- The divisor, broadcast everywhere, is √64. -/
theorem v12_eq (i : S2x16x2048x2048.Idx) :
    val_main_v12 (F := Ideal) i = Ideal.sqrt (Ideal.ofBits .f32 0x42800000#32) := by
  rw [val_main_v12_apply, val_main_v11_apply, val_main_cst_apply]
  rfl

/-- The scaled score: the unscaled one times the word of 1/8. -/
theorem v13_eq (X : (⟨S2x2048x1024, .f32⟩ : BufTy).Contents (Elt Ideal)) (Wq : (⟨S3072x1024, .f32⟩ : BufTy).Contents (Elt Ideal)) (b : Fin 2) (h : Fin 16) (q k : Fin 2048) :
    val_main_v13 (F := Ideal) X Wq (ix4 b h q k)
      = (∑ j : Fin 64, Cert.Spec.proj X Wq b q (Cert.Spec.feat 0 h j) * Cert.Spec.proj X Wq b k (Cert.Spec.feat 1 h j))
          * Ideal.ofBits .f32 0x3E000000#32 := by
  rw [val_main_v13_apply, v10_eq, v12_eq]
  exact div_sqrt_64 _

/-- A 32-bit word of a natural below 2048 reads, signed, as that natural. -/
theorem toInt_ofNat_lt (n : Nat) (hn : n < 2048) : (BitVec.ofNat 32 n).toInt = (n : Int) := by
  rw [BitVec.toInt_eq_toNat_cond, BitVec.toNat_ofNat, Nat.mod_eq_of_lt (by omega), if_pos (by omega)]

/-- The mask's comparison, row + 0 ≥ column on signed 32-bit words, says the key is not after the query. -/
theorem causal_bit (q k : Nat) (hq : q < 2048) (hk : k < 2048) :
    IntOp.cmpi .sge (IntOp.addi (BitVec.ofNat 32 q) 0#32) (BitVec.ofNat 32 k) = 1#1 ↔ k ≤ q := by
  rw [IntOp.cmpi_sge, show IntOp.addi (BitVec.ofNat 32 q) 0#32 = BitVec.ofNat 32 q from BitVec.add_zero _,
    toInt_ofNat_lt q hq, toInt_ofNat_lt k hk]
  exact Int.ofNat_le

/-- Selecting on the lower-triangular bit (itself a select of true / false on the comparison) is the `if` on
    "key not after query". -/
theorem mask_select {α : Type} (q k : Nat) (hq : q < 2048) (hk : k < 2048) (A B : α) :
    Scalar.select (Scalar.select (IntOp.cmpi .sge (IntOp.addi (BitVec.ofNat 32 q) 0#32) (BitVec.ofNat 32 k)) (1#1 : BitVec 1) 0#1) A B
      = if k ≤ q then A else B := by
  by_cases hkq : k ≤ q
  · rw [(causal_bit q k hq hk).mpr hkq, select_one, select_one, if_pos hkq]
  · rw [eq_zero_of_ne_one (fun hh => hkq ((causal_bit q k hq hk).mp hh)), select_zero, select_zero, if_neg hkq]

/-- The mask bit at (batch, head, query, key) is the lower-triangular bit at (query, key). -/
theorem mask_eq (b : Fin 2) (h : Fin 16) (q k : Fin 2048) :
    val_main_call1_v1 (F := Ideal) (ix4 b h q k)
      = Scalar.select (IntOp.cmpi .sge (IntOp.addi (BitVec.ofNat 32 q.val) 0#32) (BitVec.ofNat 32 k.val)) (1#1 : BitVec 1) 0#1 := by
  rw [val_main_call1_v1_apply, val_main_v15_apply, val_main_call0_v4_apply, val_main_call0_v2_apply, val_main_call0_v0_apply,
    val_main_call0_v1_apply, val_main_call0_c_apply, val_main_call0_v3_apply, val_main_v14_apply, val_main_c_apply,
    val_main_call0_v5_apply, val_main_call0_c_0_apply]

/-- The masked-out value, broadcast everywhere, is −∞. -/
theorem fill_eq (i : S2x16x2048x2048.Idx) : val_main_call1_v2 (F := Ideal) i = (⊥ : EReal) := by
  rw [val_main_call1_v2_apply, val_main_call1_v0_apply, val_main_cst_0_apply]
  exact ofBits_neg_inf

/-- The masked scaled score is `score`. -/
theorem v16_eq (X : (⟨S2x2048x1024, .f32⟩ : BufTy).Contents (Elt Ideal)) (Wq : (⟨S3072x1024, .f32⟩ : BufTy).Contents (Elt Ideal)) (b : Fin 2) (h : Fin 16) (q k : Fin 2048) :
    val_main_v16 (F := Ideal) X Wq (ix4 b h q k) = Cert.Spec.score X Wq b h q k := by
  rw [val_main_v16_apply, mask_eq, v13_eq, fill_eq, mask_select q.val k.val q.isLt k.isLt]
  rfl

/-! ## The row maximum -/

/-- Dropping the last axis of [2, 16, 2048, 2048] gives [2, 16, 2048]. -/
theorem reduces_last : S2x16x2048x2048.Reduces [3] S2x16x2048 := by decide

/-- The source index over (batch, head, query) with the key inserted on the dropped axis. -/
theorem lift_last (b : Fin 2) (h : Fin 16) (q : Fin 2048) (k : Fin 2048) :
    reduces_last.lift (ix3 b h q) k = ix4 b h q k :=
  funext fun a => Fin.ext (by match a with | ⟨0, _⟩ => rfl | ⟨1, _⟩ => rfl | ⟨2, _⟩ => rfl | ⟨3, _⟩ => rfl)

/-- The reduce by maximum from −∞ over the keys is the fold of `max` from ⊥ over the row's scores. -/
theorem v17_eq (X : (⟨S2x2048x1024, .f32⟩ : BufTy).Contents (Elt Ideal)) (Wq : (⟨S3072x1024, .f32⟩ : BufTy).Contents (Elt Ideal)) (b : Fin 2) (h : Fin 16) (q : Fin 2048) :
    val_main_v17 (F := Ideal) X Wq (ix3 b h q)
      = (Finset.univ : Finset (Fin 2048)).fold max (⊥ : EReal) (Cert.Spec.score X Wq b h q) := by
  unfold val_main_v17
  rw [Host.reduce_eq_fold_single FloatOps.maximumf _ _ reducesTo_S2x16x2048x2048_S2x16x2048_d3 reduces_last h_S_]
  have hinit : val_main_cst_1 (F := Ideal) (Shape.Idx.first h_S_) = (⊥ : EReal) := by
    rw [val_main_cst_1_apply]; exact ofBits_neg_inf
  have hfun : (val_main_v16 (F := Ideal) X Wq ∘ reduces_last.lift (ix3 b h q)) = Cert.Spec.score X Wq b h q :=
    funext fun k => (congrArg (val_main_v16 (F := Ideal) X Wq) (lift_last b h q k)).trans (v16_eq X Wq b h q k)
  rw [hinit, hfun]
  rfl

/-- The maximum with a broadcast −∞ changes nothing: the row maximum is `rowMax`, the supremum of the row's scores. -/
theorem v19_eq (X : (⟨S2x2048x1024, .f32⟩ : BufTy).Contents (Elt Ideal)) (Wq : (⟨S3072x1024, .f32⟩ : BufTy).Contents (Elt Ideal)) (b : Fin 2) (h : Fin 16) (q : Fin 2048) :
    val_main_v19 (F := Ideal) X Wq (ix3 b h q) = Cert.Spec.rowMax X Wq b h q := by
  rw [val_main_v19_apply, val_main_v18_apply, val_main_cst_2_apply, v17_eq]
  show max (Ideal.ofBits .f32 0xFF800000#32) _ = _
  rw [ofBits_neg_inf, max_eq_right bot_le]
  rfl

/-- The row maximum broadcast back over the keys. -/
theorem v21_eq (X : (⟨S2x2048x1024, .f32⟩ : BufTy).Contents (Elt Ideal)) (Wq : (⟨S3072x1024, .f32⟩ : BufTy).Contents (Elt Ideal)) (b : Fin 2) (h : Fin 16) (q k : Fin 2048) :
    val_main_v21 (F := Ideal) X Wq (ix4 b h q k) = Cert.Spec.rowMax X Wq b h q := by
  rw [val_main_v21_apply, val_main_v20_apply, ← v19_eq]
  exact congrArg (val_main_v19 (F := Ideal) X Wq)
    (funext fun a => Fin.ext (by match a with | ⟨0, _⟩ => rfl | ⟨1, _⟩ => rfl | ⟨2, _⟩ => rfl))

/-! ## The shifted exponentials, their row sum, the quotient -/

/-- The exponential of the score shifted by its row's maximum. -/
theorem v23_eq (X : (⟨S2x2048x1024, .f32⟩ : BufTy).Contents (Elt Ideal)) (Wq : (⟨S3072x1024, .f32⟩ : BufTy).Contents (Elt Ideal)) (b : Fin 2) (h : Fin 16) (q k : Fin 2048) :
    val_main_v23 (F := Ideal) X Wq (ix4 b h q k)
      = Ideal.exp (Cert.Spec.score X Wq b h q k - Cert.Spec.rowMax X Wq b h q) := by
  rw [val_main_v23_apply, val_main_v22_apply, v16_eq, v21_eq]
  rfl

/-- The sum from the zero word over the keys is `rowSum`. -/
theorem v24_eq (X : (⟨S2x2048x1024, .f32⟩ : BufTy).Contents (Elt Ideal)) (Wq : (⟨S3072x1024, .f32⟩ : BufTy).Contents (Elt Ideal)) (b : Fin 2) (h : Fin 16) (q : Fin 2048) :
    val_main_v24 (F := Ideal) X Wq (ix3 b h q) = Cert.Spec.rowSum X Wq b h q := by
  rw [val_main_v24_apply, val_main_cst_3_apply]
  show Ideal.ofBits .f32 0x00000000#32 + _ = _
  rw [Ideal.ofBits_zero_f32, zero_add]
  unfold Cert.Spec.rowSum
  refine Finset.sum_congr rfl fun k _ => ?_
  have e : idx_main_v24 (ix3 b h q) k = ix4 b h q k :=
    funext fun a => Fin.ext (by match a with | ⟨0, _⟩ => rfl | ⟨1, _⟩ => rfl | ⟨2, _⟩ => rfl | ⟨3, _⟩ => rfl)
  rw [e, v23_eq]

/-- The row sum broadcast back over the keys. -/
theorem v26_eq (X : (⟨S2x2048x1024, .f32⟩ : BufTy).Contents (Elt Ideal)) (Wq : (⟨S3072x1024, .f32⟩ : BufTy).Contents (Elt Ideal)) (b : Fin 2) (h : Fin 16) (q k : Fin 2048) :
    val_main_v26 (F := Ideal) X Wq (ix4 b h q k) = Cert.Spec.rowSum X Wq b h q := by
  rw [val_main_v26_apply, val_main_v25_apply, ← v24_eq]
  exact congrArg (val_main_v24 (F := Ideal) X Wq)
    (funext fun a => Fin.ext (by match a with | ⟨0, _⟩ => rfl | ⟨1, _⟩ => rfl | ⟨2, _⟩ => rfl))

/-- The softmax weight of key `k` for query `q`. -/
theorem v27_eq (X : (⟨S2x2048x1024, .f32⟩ : BufTy).Contents (Elt Ideal)) (Wq : (⟨S3072x1024, .f32⟩ : BufTy).Contents (Elt Ideal)) (b : Fin 2) (h : Fin 16) (q k : Fin 2048) :
    val_main_v27 (F := Ideal) X Wq (ix4 b h q k)
      = Ideal.div (Ideal.exp (Cert.Spec.score X Wq b h q k - Cert.Spec.rowMax X Wq b h q)) (Cert.Spec.rowSum X Wq b h q) := by
  rw [val_main_v27_apply, v23_eq, v26_eq]
  rfl

/-! ## The weighted values, the heads merged, the output projection -/

/-- The weighted value at (batch, head, query, coordinate) is `attn`. -/
theorem v28_eq (X : (⟨S2x2048x1024, .f32⟩ : BufTy).Contents (Elt Ideal)) (Wq : (⟨S3072x1024, .f32⟩ : BufTy).Contents (Elt Ideal)) (b : Fin 2) (h : Fin 16) (q : Fin 2048) (j : Fin 64) :
    val_main_v28 (F := Ideal) X Wq (ix4 b h q j) = Cert.Spec.attn X Wq b q h j := by
  rw [val_main_v28_apply]
  unfold Cert.Spec.attn
  refine Finset.sum_congr rfl fun k _ => ?_
  have el : lidx_main_v28 (ix4 b h q j) k = ix4 b h q k :=
    funext fun a => Fin.ext (by match a with | ⟨0, _⟩ => rfl | ⟨1, _⟩ => rfl | ⟨2, _⟩ => rfl | ⟨3, _⟩ => rfl)
  have er : ridx_main_v28 (ix4 b h q j) k = ix4 b h k j :=
    funext fun a => Fin.ext (by match a with | ⟨0, _⟩ => rfl | ⟨1, _⟩ => rfl | ⟨2, _⟩ => rfl | ⟨3, _⟩ => rfl)
  rw [el, er, v27_eq, v9_eq]

/-- Feature arithmetic: the flat position of (batch, position, model feature) in a [2, 2048, 1024] array, split over
    [2, 2048, 16, 64], is (batch, position, feature / 64, feature % 64). -/
theorem merge_heads (b s e : Nat) (hb : b < 2) (hs : s < 2048) (he : e < 1024) :
    ((b * 2048 + s) * 1024 + e) / 2097152 = b ∧ ((b * 2048 + s) * 1024 + e) / 1024 % 2048 = s
      ∧ ((b * 2048 + s) * 1024 + e) / 64 % 16 = e / 64 ∧ ((b * 2048 + s) * 1024 + e) % 64 = e % 64 := by
  omega

/-- The merged-heads array at (batch, position, model feature): `attn` at the feature's head and coordinate. -/
theorem v30_eq (X : (⟨S2x2048x1024, .f32⟩ : BufTy).Contents (Elt Ideal)) (Wq : (⟨S3072x1024, .f32⟩ : BufTy).Contents (Elt Ideal)) (b : Fin 2) (s : Fin 2048) (e : Fin 1024) :
    val_main_v30 (F := Ideal) X Wq (ix3 b s e) = Cert.Spec.attn X Wq b s (Cert.Spec.headOf e) (Cert.Spec.coordOf e) := by
  rw [val_main_v30_apply, val_main_v29_apply, ← v28_eq]
  refine congrArg (val_main_v28 (F := Ideal) X Wq) (funext fun a => Fin.ext ?_)
  obtain ⟨h0, h1, h2, h3⟩ := merge_heads b.val s.val e.val b.isLt s.isLt e.isLt
  match a with
  | ⟨0, _⟩ => exact h0
  | ⟨1, _⟩ => exact h2
  | ⟨2, _⟩ => exact h1
  | ⟨3, _⟩ => exact h3

/-- The output projection at (batch, position, output feature) is `outAt`. -/
theorem v31_eq (X : (⟨S2x2048x1024, .f32⟩ : BufTy).Contents (Elt Ideal)) (Wq : (⟨S3072x1024, .f32⟩ : BufTy).Contents (Elt Ideal)) (Wo : (⟨S1024x1024, .f32⟩ : BufTy).Contents (Elt Ideal)) (b : Fin 2) (s : Fin 2048) (o : Fin 1024) :
    val_main_v31 (F := Ideal) X Wq Wo (ix3 b s o) = Cert.Spec.outAt X Wq Wo b s o := by
  rw [val_main_v31_apply]
  unfold Cert.Spec.outAt
  refine Finset.sum_congr rfl fun e _ => ?_
  have el : lidx_main_v31 (ix3 b s o) e = ix3 b s e :=
    funext fun a => Fin.ext (by match a with | ⟨0, _⟩ => rfl | ⟨1, _⟩ => rfl | ⟨2, _⟩ => rfl)
  have er : ridx_main_v31 (ix3 b s o) e = ix2 o e :=
    funext fun a => Fin.ext (by match a with | ⟨0, _⟩ => rfl | ⟨1, _⟩ => rfl)
  rw [el, er, v30_eq]

/-! ## The reference's result is the specification -/

/-- The reference's last stage, as a function of the three arguments, is `Cert.Spec.out`. -/
theorem ref_eq (X : (⟨S2x2048x1024, .f32⟩ : BufTy).Contents (Elt Ideal)) (Wq : (⟨S3072x1024, .f32⟩ : BufTy).Contents (Elt Ideal)) (Wo : (⟨S1024x1024, .f32⟩ : BufTy).Contents (Elt Ideal)) :
    Cert.ReferenceIdeal.Read.val_main_v31 (F := Ideal) X Wq Wo = Cert.Spec.out X Wq Wo := by
  funext i
  obtain ⟨b, s, o, rfl⟩ : ∃ (b : Fin 2) (s : Fin 2048) (o : Fin 1024), i = ix3 b s o := ⟨i 0, i 1, i 2, eq_ix3 i⟩
  rw [v31_eq]
  rfl

/-- The run's result term is `Cert.Spec.out` of the arguments' launch contents. -/
theorem res_eq (m : (ℓ : Loc nD τ sig) → Buf (Elt Ideal) ℓ) (c : Dev nD) :
    Cert.ReferenceIdeal.Value.res_main_v31 (F := Ideal) m c = Cert.Spec.out (m ((c.tc : Thread nD τ).loc main_arg0)) (m ((c.tc : Thread nD τ).loc main_arg1)) (m ((c.tc : Thread nD τ).loc main_arg2)) := by
  rw [val_main_v31_eq]
  exact ref_eq _ _ _

end Cert.ReferenceIdeal.RefSpec

end
-- ==== Proof.LibMatmulPlain.lean ====
/-
  A matrix product into a zero accumulator, read at an entry, on the extended reals.

  For the plain dimension numbers (contract the left operand's axis 1 with the right operand's axis 0, no batch
  axes: an M x K matrix times a K x N matrix), the entry (p, q) of the product accumulated into the zero matrix is
  the sum over k of left (p, k) times right (k, q).  No program is imported: the dimension record is a variable,
  constrained only by its six lists.
-/
import Idealize.ShloMosaic.PureOps.Ideal.Laws
import Idealize.ShloMosaic.Lib.ValueIdx

noncomputable section

namespace Cert.LibMatmulPlain

open Idealize.ShloMosaic Idealize.ShloMosaic.ValueIdx

/-- Entry (p, q) of an M x K by K x N product into the zero accumulator is the sum over the contracted axis. -/
theorem matmul_zero_apply {M K N : ℕ} {φ₁ φ₂ : FTy}
    (D : DotDims ⟨2, ![M, K]⟩ ⟨2, ![K, N]⟩ ⟨2, ![M, N]⟩)
    (h1 : D.lhsContracting = [1]) (h2 : D.rhsContracting = [0])
    (h3 : D.lhsNonContracting = [0]) (h4 : D.rhsNonContracting = [1])
    (h5 : D.lhsBatch = []) (h6 : D.rhsBatch = [])
    (l : FVec Ideal ⟨2, ![M, K]⟩ φ₁) (r : FVec Ideal ⟨2, ![K, N]⟩ φ₂) (p : Fin M) (q : Fin N) :
    matmul D none l r (constant (F := Ideal) ⟨2, ![M, N]⟩ .f32 0x00000000#32) (ix2 p q)
      = ∑ k : Fin K, l (ix2 p k) * r (ix2 k q) := by
  obtain ⟨lc, rc, ln, rn, lb, rb, wf⟩ := D
  dsimp only at h1 h2 h3 h4 h5 h6
  subst h1 h2 h3 h4 h5 h6
  refine (Ideal.matmul_constant_zero_apply _ none l r (ix2 p q)).trans ?_
  rw [← Equiv.sum_comp (contrEquiv1 _ K rfl rfl).symm]
  refine Finset.sum_congr rfl fun k _ => ?_
  have hk := contrEquiv1_symm_val (DotDims.mk (sl := ⟨2, ![M, K]⟩) (sr := ⟨2, ![K, N]⟩) (so := ⟨2, ![M, N]⟩) [1] [0] [0] [1] [] [] wf) K rfl rfl k
  have el : (DotDims.mk (sl := ⟨2, ![M, K]⟩) (sr := ⟨2, ![K, N]⟩) (so := ⟨2, ![M, N]⟩) [1] [0] [0] [1] [] [] wf).lhsIdx (ix2 p q)
      ((contrEquiv1 _ K rfl rfl).symm k) = ix2 p k := funext fun a => Fin.ext (by
    match a with
    | ⟨0, _⟩ =>
      unfold DotDims.lhsIdx
      rw [dif_neg (show ¬ (⟨0, by decide⟩ : Fin 2) ∈ ([] : List (Fin 2)) from List.not_mem_nil),
        dif_pos (show (⟨0, by decide⟩ : Fin 2) ∈ ([0] : List (Fin 2)) from List.mem_singleton.2 rfl)]
      rfl
    | ⟨1, _⟩ => exact (DotDims.lhsIdx_val_of_single _ rfl _ _).trans hk)
  have er : (DotDims.mk (sl := ⟨2, ![M, K]⟩) (sr := ⟨2, ![K, N]⟩) (so := ⟨2, ![M, N]⟩) [1] [0] [0] [1] [] [] wf).rhsIdx (ix2 p q)
      ((contrEquiv1 _ K rfl rfl).symm k) = ix2 k q := funext fun a => Fin.ext (by
    match a with
    | ⟨0, _⟩ => exact (DotDims.rhsIdx_val_of_single _ rfl _ _).trans hk
    | ⟨1, _⟩ =>
      unfold DotDims.rhsIdx
      rw [dif_neg (show ¬ (⟨1, by decide⟩ : Fin 2) ∈ ([] : List (Fin 2)) from List.not_mem_nil),
        dif_pos (show (⟨1, by decide⟩ : Fin 2) ∈ ([1] : List (Fin 2)) from List.mem_singleton.2 rfl)]
      rfl)
  rw [el, er]

end Cert.LibMatmulPlain

end
-- ==== Proof.ArrMatmul.lean ====
import proofs.«156199_j3478923510049_2_alg».proof.Proof.FrameMatmul
import proofs.«156199_j3478923510049_2_alg».proof.Proof.LibMatmulPlain
import Idealize.ShloMosaic.Lib.Pipeline.Value
import Idealize.ShloMosaic.Lib.ValueIdx
import Idealize.ShloMosaic.PureOps.Ideal.Laws

/-! The two matrix-product regions, from blocks to arrays: after all of a region's grid points, its output array
    is the matrix product of the two arrays the region reads, entry by entry a sum over the contracted axis. -/

set_option maxRecDepth 16384

noncomputable section

namespace Cert.KernelIdeal.Arr

open Cert.KernelIdeal Cert.KernelIdeal.Gen Cert.KernelIdeal.Frame
open Idealize.ShloMosaic Idealize.ShloMosaic.TcCoe Idealize.ShloMosaic.ValueIdx

variable (V : (c : Dev nD) → (b : Ref sig .tc) → Buf (Elt Ideal) ((c : Thread nD τ).loc b))

/-! # The matrix product of two arrays -/

/-- The product of an M×K and a K×N array of extended reals: entry (p, q) is the sum over k of a (p, k) · b (k, q). -/
abbrev mm {M K N : ℕ} (a : (⟨2, ![M, K]⟩ : Shape).Idx → EReal) (b : (⟨2, ![K, N]⟩ : Shape).Idx → EReal) :
    (⟨2, ![M, N]⟩ : Shape).Idx → EReal :=
  fun i => ∑ k : Fin K, a (ix2 (i 0) k) * b (ix2 k (i 1))

/-! # What one grid point computes: the product of its two blocks -/

/-- Region 2's payload at an entry: the shape casts are to the same shape and the change of format is the identity on
    the extended reals, so it is the product of the two blocks into the zero accumulator. -/
theorem pay2_apply (x0 x1 : S1024x1024.Idx → EReal) (p q : Fin 1024) :
    k2_pay1 (F := Ideal) x0 x1 (ix2 p q) = ∑ k : Fin 1024, x0 (ix2 p k) * x1 (ix2 k q) := by
  unfold k2_pay1
  rw [Idealize.ShloMosaic.shapeCast_self, Idealize.ShloMosaic.shapeCast_self]
  exact Cert.LibMatmulPlain.matmul_zero_apply (M := 1024) (K := 1024) (N := 1024)
    dot_S1024x1024_S1024x1024_S1024x1024_1_0_0_1_n_n rfl rfl rfl rfl rfl rfl _ _ p q

/-- Region 0's payload likewise. -/
theorem pay0_apply (x0 x1 : S1024x1024.Idx → EReal) (p q : Fin 1024) :
    k0_pay1 (F := Ideal) x0 x1 (ix2 p q) = ∑ k : Fin 1024, x0 (ix2 p k) * x1 (ix2 k q) := by
  unfold k0_pay1
  rw [Idealize.ShloMosaic.shapeCast_self, Idealize.ShloMosaic.shapeCast_self]
  exact Cert.LibMatmulPlain.matmul_zero_apply (M := 1024) (K := 1024) (N := 1024)
    dot_S1024x1024_S1024x1024_S1024x1024_1_0_0_1_n_n rfl rfl rfl rfl rfl rfl _ _ p q

/-- One point of region 2, over variables: when row p of the left block is row r of the left array and column q of the
    right block is column s of the right array, entry (p, q) of the payload is entry (r, s) of the arrays' product. -/
theorem point2 {M N : ℕ} (A : (⟨2, ![M, 1024]⟩ : Shape).Idx → EReal) (B : (⟨2, ![1024, N]⟩ : Shape).Idx → EReal)
    (x0 x1 : S1024x1024.Idx → EReal) (p q : Fin 1024) (r : Fin M) (s : Fin N)
    (h0 : ∀ k : Fin 1024, x0 (ix2 p k) = A (ix2 r k))
    (h1 : ∀ k : Fin 1024, x1 (ix2 k q) = B (ix2 k s)) :
    k2_pay1 (F := Ideal) x0 x1 (ix2 p q) = ∑ k : Fin 1024, A (ix2 r k) * B (ix2 k s) := by
  rw [pay2_apply]
  exact Finset.sum_congr rfl fun k _ => by rw [h0, h1]

/-- One point of region 0 likewise. -/
theorem point0 {M N : ℕ} (A : (⟨2, ![M, 1024]⟩ : Shape).Idx → EReal) (B : (⟨2, ![1024, N]⟩ : Shape).Idx → EReal)
    (x0 x1 : S1024x1024.Idx → EReal) (p q : Fin 1024) (r : Fin M) (s : Fin N)
    (h0 : ∀ k : Fin 1024, x0 (ix2 p k) = A (ix2 r k))
    (h1 : ∀ k : Fin 1024, x1 (ix2 k q) = B (ix2 k s)) :
    k0_pay1 (F := Ideal) x0 x1 (ix2 p q) = ∑ k : Fin 1024, A (ix2 r k) * B (ix2 k s) := by
  rw [pay0_apply]
  exact Finset.sum_congr rfl fun k _ => by rw [h0, h1]

/-! # Region 2: rows block t of the left array times the whole right array, into rows block t of the output -/

/-- The printed index maps of region 2, decided over its four points: the left window and the output window are at rows
    block t, columns block 0; the right window is at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 4 :=
  (by decide +kernel : ∀ t : Fin grid2.N, _)

/-- What point t of region 2 writes back is block t of the product of the two arrays as the region finds them: the
    left block's rows are the output block's rows, the right block is the whole right array. -/
theorem flushed2_eq (c : Dev nD) (t : Fin cfg2.N) :
    (dat2 (F := Ideal) V c).flushed 2 t
      = ((cfg2.win 2).blk t).view.read (Elt Ideal) (mm (M := 4096) (K := 1024) (N := 1024) (V c main_v14) (V c main_v3)) := by
  show (cfg2.win 2).cut (grid2.coords t) ((dat2 (F := Ideal) V c).after 2 t) = _
  rw [after2_2, out2_2_eq]
  obtain ⟨e0, e1, e2, e3, e4, e5, e6⟩ := idx_facts2 t
  refine funext fun (j : S1024x1024.Idx) => ?_
  obtain ⟨p, q, rfl⟩ : ∃ (p q : Fin 1024), j = ix2 p q := ⟨j 0, j 1, eq_ix2 j⟩
  show k2_pay1 (F := Ideal) (iblk2 V c 0 t) (iblk2 V c 1 t) (ix2 p q)
    = mm (M := 4096) (K := 1024) (N := 1024) (V c main_v14) (V c main_v3) (((cfg2.win 2).blk t).view.emb (ix2 p q))
  refine point2 (M := 4096) (N := 1024) (V c main_v14) (V c main_v3) (iblk2 V c 0 t) (iblk2 V c 1 t) p q _ _ (fun k => ?_) (fun k => ?_)
  · show V c main_v14 (((cfg2.win 0).blk t).view.emb (ix2 p k)) = V c main_v14 (ix2 ((((cfg2.win 2).blk t).view.emb (ix2 p q)) 0) k)
    refine congrArg (V c main_v14) (funext fun a => Fin.ext ?_)
    match a with
    | ⟨0, _⟩ => show win2_0.index t (0 : Fin 2) * 1024 + 1 * p.val = win2_2.index t (0 : Fin 2) * 1024 + 1 * p.val; omega
    | ⟨1, _⟩ => show win2_0.index t (1 : Fin 2) * 1024 + 1 * k.val = k.val; omega
  · show V c main_v3 (((cfg2.win 1).blk t).view.emb (ix2 k q)) = V c main_v3 (ix2 k ((((cfg2.win 2).blk t).view.emb (ix2 p q)) 1))
    refine congrArg (V c main_v3) (funext fun a => Fin.ext ?_)
    match a with
    | ⟨0, _⟩ => show win2_1.index t (0 : Fin 2) * 1024 + 1 * k.val = k.val; omega
    | ⟨1, _⟩ => show win2_1.index t (1 : Fin 2) * 1024 + 1 * q.val = win2_2.index t (1 : Fin 2) * 1024 + 1 * q.val; omega

/-- An index of the output array is in point t's block iff each coordinate is in the block's range on its axis. -/
theorem mem_blk2 (t : Fin cfg2.N) (i : S4096x1024.Idx) :
    i ∈ ((cfg2.win 2).blk t).view.set ↔ ∀ a : Fin 2, win2_2.index t a * S1024x1024.size a ≤ (i a).val
      ∧ (i a).val < win2_2.index t a * S1024x1024.size a + S1024x1024.size a := by
  show i ∈ ((View.whole main_v15).slice (win2_2.rect t)).set ↔ _
  rw [View.set_slice_whole, Rect.mem_set_unit]
  exact Iff.rfl

/-- Region 2 has four points. -/
theorem N2 : cfg2.N = 4 := by decide +kernel

/-- Every index of the output array is in some point's block: row r is in rows block r / 1024. -/
theorem cover2 (i : S4096x1024.Idx) :
    ∃ t : Fin cfg2.N, (cfg2.win 2).flush t = true ∧ i ∈ ((cfg2.win 2).blk t).view.set := by
  have hi0 : (i 0).val < 4096 := (i 0).isLt
  have hi1 : (i 1).val < 1024 := (i 1).isLt
  obtain ⟨t, ht⟩ : ∃ t : Fin cfg2.N, t.val = (i 0).val / 1024 := ⟨⟨(i 0).val / 1024, by rw [N2]; omega⟩, rfl⟩
  obtain ⟨e0, e1, e2, e3, e4, e5, e6⟩ := idx_facts2 t
  refine ⟨t, flush2_2 t, ?_⟩
  rw [mem_blk2]
  intro a
  match a with
  | ⟨0, _⟩ =>
    show win2_2.index t (0 : Fin 2) * 1024 ≤ (i 0).val ∧ (i 0).val < win2_2.index t (0 : Fin 2) * 1024 + 1024
    omega
  | ⟨1, _⟩ =>
    show win2_2.index t (1 : Fin 2) * 1024 ≤ (i 1).val ∧ (i 1).val < win2_2.index t (1 : Fin 2) * 1024 + 1024
    omega

/-- REGION 2's OUTPUT ARRAY after all its points is the product of the two arrays the region reads. -/
theorem arr2 (c : Dev nD) : Eq (α := S4096x1024.Idx → EReal) ((dat2 (F := Ideal) V c).arrAt 2 cfg2.N)
    (fun i => ∑ k : Fin 1024, HMul.hMul (α := EReal) (β := EReal) (γ := EReal) (V c main_v14 (ix2 (i 0) k)) (V c main_v3 (ix2 k (i 1)))) :=
  (dat2 (F := Ideal) V c).arrAt_eq_of_cover 2 (mm (M := 4096) (K := 1024) (N := 1024) (V c main_v14) (V c main_v3))
    (fun t _ => flushed2_eq V c t) cover2

/-! # Region 0: rows block t / 3 of the left array times columns block t % 3 of the right array, into block (t / 3, t % 3) -/

/-- The printed index maps of region 0, decided over its twelve points: the left window is at rows block t / 3, the
    right window at columns block t % 3, the output window at block (t / 3, t % 3). -/
theorem idx_facts0 : ∀ t : Fin cfg0.N, win0_0.index t (0 : Fin 2) = t.val / 3 ∧ win0_0.index t (1 : Fin 2) = 0
    ∧ win0_1.index t (0 : Fin 2) = 0 ∧ win0_1.index t (1 : Fin 2) = t.val % 3
    ∧ win0_2.index t (0 : Fin 2) = t.val / 3 ∧ win0_2.index t (1 : Fin 2) = t.val % 3 ∧ t.val < 12 :=
  (by decide +kernel : ∀ t : Fin grid0.N, _)

/-- What point t of region 0 writes back is block t of the product of the two arrays as the region finds them: the
    left block's rows are the output block's rows, the right block's columns are the output block's columns. -/
theorem flushed0_eq (c : Dev nD) (t : Fin cfg0.N) :
    (dat0 (F := Ideal) V c).flushed 2 t
      = ((cfg0.win 2).blk t).view.read (Elt Ideal) (mm (M := 4096) (K := 1024) (N := 3072) (V c main_v4) (V c main_v1)) := by
  show (cfg0.win 2).cut (grid0.coords t) ((dat0 (F := Ideal) V c).after 2 t) = _
  rw [after0_2, out0_2_eq]
  obtain ⟨e0, e1, e2, e3, e4, e5, e6⟩ := idx_facts0 t
  refine funext fun (j : S1024x1024.Idx) => ?_
  obtain ⟨p, q, rfl⟩ : ∃ (p q : Fin 1024), j = ix2 p q := ⟨j 0, j 1, eq_ix2 j⟩
  show k0_pay1 (F := Ideal) (iblk0 V c 0 t) (iblk0 V c 1 t) (ix2 p q)
    = mm (M := 4096) (K := 1024) (N := 3072) (V c main_v4) (V c main_v1) (((cfg0.win 2).blk t).view.emb (ix2 p q))
  refine point0 (M := 4096) (N := 3072) (V c main_v4) (V c main_v1) (iblk0 V c 0 t) (iblk0 V c 1 t) p q _ _ (fun k => ?_) (fun k => ?_)
  · show V c main_v4 (((cfg0.win 0).blk t).view.emb (ix2 p k)) = V c main_v4 (ix2 ((((cfg0.win 2).blk t).view.emb (ix2 p q)) 0) k)
    refine congrArg (V c main_v4) (funext fun a => Fin.ext ?_)
    match a with
    | ⟨0, _⟩ => show win0_0.index t (0 : Fin 2) * 1024 + 1 * p.val = win0_2.index t (0 : Fin 2) * 1024 + 1 * p.val; omega
    | ⟨1, _⟩ => show win0_0.index t (1 : Fin 2) * 1024 + 1 * k.val = k.val; omega
  · show V c main_v1 (((cfg0.win 1).blk t).view.emb (ix2 k q)) = V c main_v1 (ix2 k ((((cfg0.win 2).blk t).view.emb (ix2 p q)) 1))
    refine congrArg (V c main_v1) (funext fun a => Fin.ext ?_)
    match a with
    | ⟨0, _⟩ => show win0_1.index t (0 : Fin 2) * 1024 + 1 * k.val = k.val; omega
    | ⟨1, _⟩ => show win0_1.index t (1 : Fin 2) * 1024 + 1 * q.val = win0_2.index t (1 : Fin 2) * 1024 + 1 * q.val; omega

/-- An index of the output array is in point t's block iff each coordinate is in the block's range on its axis. -/
theorem mem_blk0 (t : Fin cfg0.N) (i : S4096x3072.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v5).slice (win0_2.rect t)).set ↔ _
  rw [View.set_slice_whole, Rect.mem_set_unit]
  exact Iff.rfl

/-- Region 0 has twelve points. -/
theorem N0 : cfg0.N = 12 := by decide +kernel

/-- Every index of the output array is in some point's block: entry (r, c) is in block (r / 1024, c / 1024), the block
    of point (r / 1024) · 3 + c / 1024. -/
theorem cover0 (i : S4096x3072.Idx) :
    ∃ t : Fin cfg0.N, (cfg0.win 2).flush t = true ∧ i ∈ ((cfg0.win 2).blk t).view.set := by
  have hi0 : (i 0).val < 4096 := (i 0).isLt
  have hi1 : (i 1).val < 3072 := (i 1).isLt
  obtain ⟨t, ht⟩ : ∃ t : Fin cfg0.N, t.val = (i 0).val / 1024 * 3 + (i 1).val / 1024 :=
    ⟨⟨(i 0).val / 1024 * 3 + (i 1).val / 1024, by rw [N0]; omega⟩, rfl⟩
  obtain ⟨e0, e1, e2, e3, e4, e5, e6⟩ := idx_facts0 t
  refine ⟨t, flush0_2 t, ?_⟩
  rw [mem_blk0]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- REGION 0's OUTPUT ARRAY after all its points is the product of the two arrays the region reads. -/
theorem arr0 (c : Dev nD) : Eq (α := S4096x3072.Idx → EReal) ((dat0 (F := Ideal) V c).arrAt 2 cfg0.N)
    (fun i => ∑ k : Fin 1024, HMul.hMul (α := EReal) (β := EReal) (γ := EReal) (V c main_v4 (ix2 (i 0) k)) (V c main_v1 (ix2 k (i 1)))) :=
  (dat0 (F := Ideal) V c).arrAt_eq_of_cover 2 (mm (M := 4096) (K := 1024) (N := 3072) (V c main_v4) (V c main_v1))
    (fun t _ => flushed0_eq V c t) cover0

end Cert.KernelIdeal.Arr

end
-- ==== Proof.ArrAttnBlocks.lean ====
import proofs.«156199_j3478923510049_2_alg».proof.Proof.AttnBody

import Idealize.ShloMosaic.Lib.Pipeline.Value
import Idealize.ShloMosaic.Lib.ValueIdx
import Idealize.ShloMosaic.PureOps.Ideal.Laws

set_option maxRecDepth 16384

noncomputable section

namespace Cert.KernelIdeal.Arr

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frame

variable (V : (c : Dev nD) → (b : Ref sig .tc) → Buf (Elt Ideal) ((c : Thread nD τ).loc b))

/-! # The attention call's input blocks read at an element

A grid point's number is 8 · (query block) + (key block). The query window's block at a point is the query block's
256 positions; the key and value windows' block is the key block's 256 positions where the key block is at or below
the diagonal (above it the index is clamped to the diagonal, and the body does not read it). -/

theorem coords1 : ∀ t : Fin cfg1.N, (grid1.coords t 0).val = t.val / 8 ∧ (grid1.coords t 1).val = t.val % 8 :=
  (by decide +kernel : ∀ t : Fin grid1.N, (grid1.coords t 0).val = t.val / 8 ∧ (grid1.coords t 1).val = t.val % 8)

theorem idx1_0 : ∀ t : Fin cfg1.N, win1_0.index t 0 = 0 ∧ win1_0.index t 1 = t.val / 8 ∧ win1_0.index t 2 = 0 ∧ win1_0.index t 3 = 0 :=
  (by decide +kernel : ∀ t : Fin grid1.N, win1_0.index t 0 = 0 ∧ win1_0.index t 1 = t.val / 8 ∧ win1_0.index t 2 = 0 ∧ win1_0.index t 3 = 0)
theorem idx1_1 : ∀ t : Fin cfg1.N, win1_1.index t 0 = 0 ∧ win1_1.index t 1 = min (t.val % 8) (t.val / 8) ∧ win1_1.index t 2 = 0 ∧ win1_1.index t 3 = 0 :=
  (by decide +kernel : ∀ t : Fin grid1.N, win1_1.index t 0 = 0 ∧ win1_1.index t 1 = min (t.val % 8) (t.val / 8) ∧ win1_1.index t 2 = 0 ∧ win1_1.index t 3 = 0)
theorem idx1_2 : ∀ t : Fin cfg1.N, win1_2.index t 0 = 0 ∧ win1_2.index t 1 = min (t.val % 8) (t.val / 8) ∧ win1_2.index t 2 = 0 ∧ win1_2.index t 3 = 0 :=
  (by decide +kernel : ∀ t : Fin grid1.N, win1_2.index t 0 = 0 ∧ win1_2.index t 1 = min (t.val % 8) (t.val / 8) ∧ win1_2.index t 2 = 0 ∧ win1_2.index t 3 = 0)
theorem idx1_3 : ∀ t : Fin cfg1.N, win1_3.index t 0 = 0 ∧ win1_3.index t 1 = t.val / 8 ∧ win1_3.index t 2 = 0 ∧ win1_3.index t 3 = 0 :=
  (by decide +kernel : ∀ t : Fin grid1.N, win1_3.index t 0 = 0 ∧ win1_3.index t 1 = t.val / 8 ∧ win1_3.index t 2 = 0 ∧ win1_3.index t 3 = 0)

/-- The query window's block at point `t`: element (b, r, h, j) is the query array at position (t / 8) · 256 + r. -/
theorem iblk1_0_apply (c : Dev nD) (t : Fin cfg1.N) (b : Fin 2) (r : Fin 256) (h : Fin 16) (j : Fin 64) (p : Fin 2048)
    (hp : p.val = (t.val / 8) * 256 + r.val) :
    (iblk1 V c 0 t : Vec Ideal S2x256x16x64 .f32) (ix4 b r h j) = (V c main_v10 : S2x2048x16x64.Idx → EReal) (ix4 b p h j) := by
  obtain ⟨h0, h1, h2, h3⟩ := idx1_0 t
  unfold iblk1
  rw [View.read_apply]
  show V c main_v10 _ = V c main_v10 _
  congr 1
  funext a
  apply Fin.ext
  match a with
  | ⟨0, _⟩ => show win1_0.index t 0 * 2 + 1 * b.val = b.val; rw [h0]; omega
  | ⟨1, _⟩ => show win1_0.index t 1 * 256 + 1 * r.val = p.val; rw [h1, hp]; omega
  | ⟨2, _⟩ => show win1_0.index t 2 * 16 + 1 * h.val = h.val; rw [h2]; omega
  | ⟨3, _⟩ => show win1_0.index t 3 * 64 + 1 * j.val = j.val; rw [h3]; omega

/-- The key window's block at a point at or below the diagonal: element (b, kk, h, j) is the key array at position
    (t % 8) · 256 + kk. -/
theorem iblk1_1_apply (c : Dev nD) (t : Fin cfg1.N) (hle : t.val % 8 ≤ t.val / 8) (b : Fin 2) (kk : Fin 256) (h : Fin 16) (j : Fin 64) (p : Fin 2048)
    (hp : p.val = (t.val % 8) * 256 + kk.val) :
    (iblk1 V c 1 t : Vec Ideal S2x256x16x64 .f32) (ix4 b kk h j) = (V c main_v11 : S2x2048x16x64.Idx → EReal) (ix4 b p h j) := by
  obtain ⟨h0, h1, h2, h3⟩ := idx1_1 t
  rw [Nat.min_eq_left hle] at h1
  unfold iblk1
  rw [View.read_apply]
  show V c main_v11 _ = V c main_v11 _
  congr 1
  funext a
  apply Fin.ext
  match a with
  | ⟨0, _⟩ => show win1_1.index t 0 * 2 + 1 * b.val = b.val; rw [h0]; omega
  | ⟨1, _⟩ => show win1_1.index t 1 * 256 + 1 * kk.val = p.val; rw [h1, hp]; omega
  | ⟨2, _⟩ => show win1_1.index t 2 * 16 + 1 * h.val = h.val; rw [h2]; omega
  | ⟨3, _⟩ => show win1_1.index t 3 * 64 + 1 * j.val = j.val; rw [h3]; omega

/-- The value window's block likewise. -/
theorem iblk1_2_apply (c : Dev nD) (t : Fin cfg1.N) (hle : t.val % 8 ≤ t.val / 8) (b : Fin 2) (kk : Fin 256) (h : Fin 16) (j : Fin 64) (p : Fin 2048)
    (hp : p.val = (t.val % 8) * 256 + kk.val) :
    (iblk1 V c 2 t : Vec Ideal S2x256x16x64 .f32) (ix4 b kk h j) = (V c main_v12 : S2x2048x16x64.Idx → EReal) (ix4 b p h j) := by
  obtain ⟨h0, h1, h2, h3⟩ := idx1_2 t
  rw [Nat.min_eq_left hle] at h1
  unfold iblk1
  rw [View.read_apply]
  show V c main_v12 _ = V c main_v12 _
  congr 1
  funext a
  apply Fin.ext
  match a with
  | ⟨0, _⟩ => show win1_2.index t 0 * 2 + 1 * b.val = b.val; rw [h0]; omega
  | ⟨1, _⟩ => show win1_2.index t 1 * 256 + 1 * kk.val = p.val; rw [h1, hp]; omega
  | ⟨2, _⟩ => show win1_2.index t 2 * 16 + 1 * h.val = h.val; rw [h2]; omega
  | ⟨3, _⟩ => show win1_2.index t 3 * 64 + 1 * j.val = j.val; rw [h3]; omega

end Cert.KernelIdeal.Arr

end
-- ==== Proof.LibOnlineSoftmax.lean ====
/-
  Online (block-by-block) softmax equals the direct softmax, on the extended reals.

  One attention row is given as blocks of scores s j k (block j, position k in the block), each a
  real number or -∞ (a masked position), and of values v j k i (real numbers; i is the output coordinate).

  The DIRECT softmax-weighted sum over the first n blocks is, with
      M = sup over j < n and k of s j k                    (the row maximum),
      w j k = exp (s j k - M)                              (exp (-∞) = 0),
      L = Σ j < n, Σ k, w j k                              (the denominator),
  the number  Σ j < n, Σ k, (w j k / L) * v j k i.

  The ONLINE recurrence carries a state (m, l, acc), starting at (-∞, 0, 0); one step with a block of
  scores x and values y replaces it by
      m'   = max m (max over k of x k),
      l'   = exp (m - m') * l + Σ k, exp (x k - m'),
      acc' = exp (m - m') * acc + Σ k, exp (x k - m') * y k,
  and the result after the last block is acc / max l c, for a constant c ≤ 1.

  Proved here, for n ≥ 1 blocks, scores that are never +∞, at least one real score in block 0, real values:
   (1) after j ≤ n blocks the state is (M_j, L_j, Σ_{j' < j} Σ k, w j' k * v j' k) computed against the
       maximum M_j of the first j blocks, and M_j is a real number for j ≥ 1;
   (2) 1 ≤ L < +∞, so that max L c = L for every c ≤ 1 and L ≠ 0;
   (3) (Σ j k, w j k * v j k i) / L = Σ j k, (w j k / L) * v j k i, hence the online result is the direct one;
   (4) further blocks all of whose scores are -∞ change none of M, L, the direct result.

  All arithmetic is the extended reals' own (+, -, *, max), the exponential with exp (-∞) = 0, and the
  quotient x / y = x * y⁻¹ off zero, as a float program's operations read at exact extended-real values.
-/
import Idealize.ShloMosaic.PureOps.Ideal

noncomputable section

namespace Cert.Lib.OnlineSoftmax

open Idealize.ShloMosaic
open scoped BigOperators

variable {b : ℕ} {ι : Type*}

/-! ### The online recurrence -/

/-- The state of the online recurrence: running maximum, running denominator, running weighted sum. -/
@[ext] structure State (ι : Type*) where
  m : EReal
  l : EReal
  acc : ι → EReal

/-- The initial state: maximum -∞, denominator 0, weighted sum 0. -/
def init : State ι := ⟨⊥, 0, fun _ => 0⟩

/-- One step of the online recurrence with a block of scores and of values. The block's maximum is the fold of
    max from -∞ over the block. -/
def stepOnline (st : State ι) (sBlock : Fin b → EReal) (vBlock : Fin b → ι → EReal) : State ι where
  m := max st.m ((Finset.univ : Finset (Fin b)).fold max ⊥ sBlock)
  l := Ideal.exp (st.m - max st.m ((Finset.univ : Finset (Fin b)).fold max ⊥ sBlock)) * st.l
        + ∑ k, Ideal.exp (sBlock k - max st.m ((Finset.univ : Finset (Fin b)).fold max ⊥ sBlock))
  acc := fun i =>
    Ideal.exp (st.m - max st.m ((Finset.univ : Finset (Fin b)).fold max ⊥ sBlock)) * st.acc i
      + ∑ k, Ideal.exp (sBlock k - max st.m ((Finset.univ : Finset (Fin b)).fold max ⊥ sBlock)) * vBlock k i

/-- The state after the first j blocks. -/
def online (s : ℕ → Fin b → EReal) (v : ℕ → Fin b → ι → EReal) : ℕ → State ι
  | 0 => init
  | j + 1 => stepOnline (online s v j) (s j) (v j)

@[simp] theorem online_zero (s : ℕ → Fin b → EReal) (v : ℕ → Fin b → ι → EReal) : online s v 0 = init := rfl

theorem online_succ (s : ℕ → Fin b → EReal) (v : ℕ → Fin b → ι → EReal) (j : ℕ) :
    online s v (j + 1) = stepOnline (online s v j) (s j) (v j) := rfl

/-- The three components of one step, for rewriting. -/
theorem stepOnline_m (st : State ι) (x : Fin b → EReal) (y : Fin b → ι → EReal) :
    (stepOnline st x y).m = max st.m ((Finset.univ : Finset (Fin b)).fold max ⊥ x) := rfl

theorem stepOnline_l (st : State ι) (x : Fin b → EReal) (y : Fin b → ι → EReal) :
    (stepOnline st x y).l = Ideal.exp (st.m - (stepOnline st x y).m) * st.l
      + ∑ k, Ideal.exp (x k - (stepOnline st x y).m) := rfl

theorem stepOnline_acc (st : State ι) (x : Fin b → EReal) (y : Fin b → ι → EReal) (i : ι) :
    (stepOnline st x y).acc i = Ideal.exp (st.m - (stepOnline st x y).m) * st.acc i
      + ∑ k, Ideal.exp (x k - (stepOnline st x y).m) * y k i := rfl

/-! ### The direct form -/

/-- The maximum of the scores of the first n blocks (-∞ for no block). -/
def rowMax (s : ℕ → Fin b → EReal) (n : ℕ) : EReal :=
  (Finset.range n).sup fun j => (Finset.univ : Finset (Fin b)).sup (s j)

/-- The weight exp (s j k - M) of a position against the maximum M of the first n blocks. -/
def weight (s : ℕ → Fin b → EReal) (n j : ℕ) (k : Fin b) : EReal := Ideal.exp (s j k - rowMax s n)

/-- The softmax denominator over the first n blocks. -/
def denom (s : ℕ → Fin b → EReal) (n : ℕ) : EReal := ∑ j ∈ Finset.range n, ∑ k, weight s n j k

/-- The unnormalized weighted sum of the values over the first n blocks. -/
def numer (s : ℕ → Fin b → EReal) (v : ℕ → Fin b → ι → EReal) (n : ℕ) (i : ι) : EReal :=
  ∑ j ∈ Finset.range n, ∑ k, weight s n j k * v j k i

/-- The direct softmax-weighted sum of the values over the first n blocks. -/
def direct (s : ℕ → Fin b → EReal) (v : ℕ → Fin b → ι → EReal) (n : ℕ) (i : ι) : EReal :=
  ∑ j ∈ Finset.range n, ∑ k, Ideal.div (weight s n j k) (denom s n) * v j k i

/-! ### Real witnesses

Every weight exp (x - a), for x real or -∞ and a real, is (the coercion of) a nonnegative real number; the algebra of
the recurrence is done on these reals and coerced back. -/

/-- The real number exp (x - a) for x a real number or -∞ (where it is 0). -/
def wt (x : EReal) (a : ℝ) : ℝ := if x = ⊥ then 0 else Real.exp (x.toReal - a)

theorem exp_sub_coe {x : EReal} (hx : x ≠ ⊤) (a : ℝ) : Ideal.exp (x - (a : EReal)) = ((wt x a : ℝ) : EReal) := by
  induction x using EReal.rec with
  | bot => simp [wt, EReal.bot_sub]
  | top => exact absurd rfl hx
  | coe r => rw [← EReal.coe_sub, Ideal.exp_coe]; simp [wt]

theorem wt_nonneg (x : EReal) (a : ℝ) : 0 ≤ wt x a := by
  unfold wt; split_ifs
  · exact le_rfl
  · exact (Real.exp_pos _).le

/-- exp (a - a') * exp (x - a) = exp (x - a'), for x real or -∞. -/
theorem wt_rescale (x : EReal) (a a' : ℝ) : Real.exp (a - a') * wt x a = wt x a' := by
  unfold wt; split_ifs with h
  · simp
  · rw [← Real.exp_add]; congr 1; ring

theorem wt_coe_self (a : ℝ) : wt (a : EReal) a = 1 := by simp [wt]

/-- The law behind the correction factor: exp (a - a') * exp (x - a) = exp (x - a') for a, a' real and x real or -∞. -/
theorem exp_sub_mul_exp_sub {x : EReal} (hx : x ≠ ⊤) (a a' : ℝ) :
    Ideal.exp ((a : EReal) - (a' : EReal)) * Ideal.exp (x - (a : EReal)) = Ideal.exp (x - (a' : EReal)) := by
  rw [← EReal.coe_sub, Ideal.exp_coe, exp_sub_coe hx a, exp_sub_coe hx a', ← EReal.coe_mul, wt_rescale]

/-- The coercion of a finite sum of reals is the sum of the coercions. -/
theorem coe_sum {α : Type*} (S : Finset α) (f : α → ℝ) :
    ((∑ x ∈ S, f x : ℝ) : EReal) = ∑ x ∈ S, (f x : EReal) := by
  classical
  induction S using Finset.induction_on with
  | empty => simp
  | insert a S ha ih => rw [Finset.sum_insert ha, Finset.sum_insert ha, EReal.coe_add, ih]

variable {s : ℕ → Fin b → EReal} {v : ℕ → Fin b → ι → EReal} {n : ℕ}

theorem sum_exp_eq_coe (hs : ∀ j < n, ∀ k, s j k ≠ ⊤) {j : ℕ} (hjn : j ≤ n) (a : ℝ) :
    ∑ j' ∈ Finset.range j, ∑ k, Ideal.exp (s j' k - (a : EReal))
      = ((∑ j' ∈ Finset.range j, ∑ k, wt (s j' k) a : ℝ) : EReal) := by
  rw [coe_sum]
  refine Finset.sum_congr rfl fun j' hj' => ?_
  rw [coe_sum]
  refine Finset.sum_congr rfl fun k _ => ?_
  exact exp_sub_coe (hs j' (lt_of_lt_of_le (Finset.mem_range.mp hj') hjn) k) a

theorem sum_exp_mul_eq_coe (hs : ∀ j < n, ∀ k, s j k ≠ ⊤) (hv : ∀ j < n, ∀ k i, v j k i ≠ ⊤ ∧ v j k i ≠ ⊥)
    {j : ℕ} (hjn : j ≤ n) (a : ℝ) (i : ι) :
    ∑ j' ∈ Finset.range j, ∑ k, Ideal.exp (s j' k - (a : EReal)) * v j' k i
      = ((∑ j' ∈ Finset.range j, ∑ k, wt (s j' k) a * (v j' k i).toReal : ℝ) : EReal) := by
  rw [coe_sum]
  refine Finset.sum_congr rfl fun j' hj' => ?_
  have hj'n : j' < n := lt_of_lt_of_le (Finset.mem_range.mp hj') hjn
  rw [coe_sum]
  refine Finset.sum_congr rfl fun k _ => ?_
  rw [exp_sub_coe (hs j' hj'n k) a, EReal.coe_mul, EReal.coe_toReal (hv j' hj'n k i).1 (hv j' hj'n k i).2]

/-! ### The maximum -/

theorem fold_max_eq_sup (x : Fin b → EReal) :
    (Finset.univ : Finset (Fin b)).fold max ⊥ x = (Finset.univ : Finset (Fin b)).sup x := rfl

theorem rowMax_zero (s : ℕ → Fin b → EReal) : rowMax s 0 = ⊥ := by simp [rowMax]

theorem rowMax_succ (s : ℕ → Fin b → EReal) (j : ℕ) :
    rowMax s (j + 1) = max (rowMax s j) ((Finset.univ : Finset (Fin b)).fold max ⊥ (s j)) := by
  unfold rowMax
  rw [Finset.range_add_one, Finset.sup_insert, sup_comm]; rfl

theorem le_rowMax (s : ℕ → Fin b → EReal) {n j : ℕ} (hj : j < n) (k : Fin b) : s j k ≤ rowMax s n :=
  le_trans (Finset.le_sup (f := s j) (Finset.mem_univ k))
    (Finset.le_sup (f := fun j => (Finset.univ : Finset (Fin b)).sup (s j)) (Finset.mem_range.mpr hj))

/-- The maximum of the first j ≥ 1 blocks is a real number. -/
theorem rowMax_real (hs : ∀ j < n, ∀ k, s j k ≠ ⊤) (h0 : ∃ k, s 0 k ≠ ⊥) {j : ℕ} (hj1 : 1 ≤ j) (hjn : j ≤ n) :
    rowMax s j ≠ ⊤ ∧ rowMax s j ≠ ⊥ := by
  constructor
  · apply ne_of_lt
    unfold rowMax
    rw [Finset.sup_lt_iff bot_lt_top]
    intro j' hj'
    rw [Finset.sup_lt_iff bot_lt_top]
    intro k _
    exact lt_top_iff_ne_top.mpr (hs j' (lt_of_lt_of_le (Finset.mem_range.mp hj') hjn) k)
  · obtain ⟨k0, hk0⟩ := h0
    exact bot_lt_iff_ne_bot.mp (lt_of_lt_of_le (bot_lt_iff_ne_bot.mpr hk0) (le_rowMax s hj1 k0))

/-- The maximum of the first j ≥ 1 blocks, as a real number. -/
theorem exists_rowMax_eq_coe (hs : ∀ j < n, ∀ k, s j k ≠ ⊤) (h0 : ∃ k, s 0 k ≠ ⊥) {j : ℕ} (hj1 : 1 ≤ j)
    (hjn : j ≤ n) : ∃ a : ℝ, rowMax s j = (a : EReal) :=
  ⟨_, (EReal.coe_toReal (rowMax_real hs h0 hj1 hjn).1 (rowMax_real hs h0 hj1 hjn).2).symm⟩

/-- The denominator of the first j ≥ 1 blocks as a real number. -/
theorem denom_eq_coe (hs : ∀ j < n, ∀ k, s j k ≠ ⊤) {j : ℕ} (hjn : j ≤ n) {a : ℝ} (ha : rowMax s j = (a : EReal)) :
    denom s j = ((∑ j' ∈ Finset.range j, ∑ k, wt (s j' k) a : ℝ) : EReal) := by
  unfold denom weight; rw [ha]; exact sum_exp_eq_coe hs hjn a

/-- The unnormalized weighted sum of the first j ≥ 1 blocks as a real number. -/
theorem numer_eq_coe (hs : ∀ j < n, ∀ k, s j k ≠ ⊤) (hv : ∀ j < n, ∀ k i, v j k i ≠ ⊤ ∧ v j k i ≠ ⊥) {j : ℕ}
    (hjn : j ≤ n) {a : ℝ} (ha : rowMax s j = (a : EReal)) (i : ι) :
    numer s v j i = ((∑ j' ∈ Finset.range j, ∑ k, wt (s j' k) a * (v j' k i).toReal : ℝ) : EReal) := by
  unfold numer weight; rw [ha]; exact sum_exp_mul_eq_coe hs hv hjn a i

/-- Passing from the maximum of j blocks to that of j + 1 blocks multiplies the denominator of the first j blocks by
    the correction exp (M_j - M_{j+1}). For j = 0 both sides are 0 (the correction is exp (-∞) = 0 and the sums are
    empty); for j ≥ 1 both maxima are real and exp (a - a') * exp (x - a) = exp (x - a'). -/
theorem corr_mul_denom (hs : ∀ j < n, ∀ k, s j k ≠ ⊤) (h0 : ∃ k, s 0 k ≠ ⊥) {j : ℕ} (hjn : j + 1 ≤ n) :
    Ideal.exp (rowMax s j - rowMax s (j + 1)) * denom s j
      = ∑ j' ∈ Finset.range j, ∑ k, Ideal.exp (s j' k - rowMax s (j + 1)) := by
  rcases Nat.eq_zero_or_pos j with rfl | hj
  · simp [denom]
  · have hjn' : j ≤ n := Nat.le_of_succ_le hjn
    obtain ⟨a, ha⟩ := exists_rowMax_eq_coe hs h0 hj hjn'
    obtain ⟨a', ha'⟩ := exists_rowMax_eq_coe hs h0 (Nat.succ_le_succ (Nat.zero_le j)) hjn
    rw [denom_eq_coe hs hjn' ha, ha, ha', ← EReal.coe_sub, Ideal.exp_coe, ← EReal.coe_mul,
      sum_exp_eq_coe hs hjn' a', Finset.mul_sum]
    congr 1
    refine Finset.sum_congr rfl fun j' _ => ?_
    rw [Finset.mul_sum]
    exact Finset.sum_congr rfl fun k _ => wt_rescale _ _ _

/-- The same for the unnormalized weighted sum. -/
theorem corr_mul_numer (hs : ∀ j < n, ∀ k, s j k ≠ ⊤) (h0 : ∃ k, s 0 k ≠ ⊥)
    (hv : ∀ j < n, ∀ k i, v j k i ≠ ⊤ ∧ v j k i ≠ ⊥) {j : ℕ} (hjn : j + 1 ≤ n) (i : ι) :
    Ideal.exp (rowMax s j - rowMax s (j + 1)) * numer s v j i
      = ∑ j' ∈ Finset.range j, ∑ k, Ideal.exp (s j' k - rowMax s (j + 1)) * v j' k i := by
  rcases Nat.eq_zero_or_pos j with rfl | hj
  · simp [numer]
  · have hjn' : j ≤ n := Nat.le_of_succ_le hjn
    obtain ⟨a, ha⟩ := exists_rowMax_eq_coe hs h0 hj hjn'
    obtain ⟨a', ha'⟩ := exists_rowMax_eq_coe hs h0 (Nat.succ_le_succ (Nat.zero_le j)) hjn
    rw [numer_eq_coe hs hv hjn' ha, ha, ha', ← EReal.coe_sub, Ideal.exp_coe, ← EReal.coe_mul,
      sum_exp_mul_eq_coe hs hv hjn' a', Finset.mul_sum]
    congr 1
    refine Finset.sum_congr rfl fun j' _ => ?_
    rw [Finset.mul_sum]
    refine Finset.sum_congr rfl fun k _ => ?_
    rw [← mul_assoc, wt_rescale]

/-- (1) The invariant of the online recurrence: after j ≤ n blocks, the state is the maximum, the denominator and the
    unnormalized weighted sum of the first j blocks, the weights taken against the maximum of those j blocks. -/
theorem online_invariant (hs : ∀ j < n, ∀ k, s j k ≠ ⊤) (h0 : ∃ k, s 0 k ≠ ⊥)
    (hv : ∀ j < n, ∀ k i, v j k i ≠ ⊤ ∧ v j k i ≠ ⊥) {j : ℕ} (hjn : j ≤ n) :
    (online s v j).m = rowMax s j ∧ (online s v j).l = denom s j ∧ ∀ i, (online s v j).acc i = numer s v j i := by
  induction j with
  | zero =>
    refine ⟨?_, ?_, fun i => ?_⟩
    · simp [init, rowMax]
    · simp [init, denom]
    · simp [init, numer]
  | succ j ih =>
    obtain ⟨hm, hl, hacc⟩ := ih (Nat.le_of_succ_le hjn)
    rw [online_succ]
    refine ⟨?_, ?_, fun i => ?_⟩
    · show max (online s v j).m _ = _
      rw [hm, rowMax_succ]
    · show Ideal.exp ((online s v j).m - max (online s v j).m _) * (online s v j).l
          + ∑ k, Ideal.exp (s j k - max (online s v j).m _) = _
      rw [hm, hl, ← rowMax_succ, corr_mul_denom hs h0 hjn]
      unfold denom weight
      rw [Finset.sum_range_succ]
    · show Ideal.exp ((online s v j).m - max (online s v j).m _) * (online s v j).acc i
          + ∑ k, Ideal.exp (s j k - max (online s v j).m _) * v j k i = _
      rw [hm, hacc i, ← rowMax_succ, corr_mul_numer hs h0 hv hjn i]
      unfold numer weight
      rw [Finset.sum_range_succ]

/-- The maximum of the first n ≥ 1 blocks is attained: were every score strictly below it, so would their supremum be. -/
theorem exists_eq_rowMax (hn : 1 ≤ n) (hs : ∀ j < n, ∀ k, s j k ≠ ⊤) (h0 : ∃ k, s 0 k ≠ ⊥) :
    ∃ j, j < n ∧ ∃ k, s j k = rowMax s n := by
  by_contra hcon
  have hne : ∀ j, j < n → ∀ k, s j k ≠ rowMax s n := fun j hj k h => hcon ⟨j, hj, k, h⟩
  have hb : ⊥ < rowMax s n := bot_lt_iff_ne_bot.mpr (rowMax_real hs h0 hn le_rfl).2
  have hlt : rowMax s n < rowMax s n := by
    conv_lhs => unfold rowMax
    rw [Finset.sup_lt_iff hb]
    intro j hj
    rw [Finset.sup_lt_iff hb]
    intro k _
    exact lt_of_le_of_ne (le_rowMax s (Finset.mem_range.mp hj) k) (hne j (Finset.mem_range.mp hj) k)
  exact lt_irrefl _ hlt

/-- The real denominator is at least 1: the maximal score's weight is exp 0 = 1 and every weight is ≥ 0. -/
theorem one_le_sum_wt (hn : 1 ≤ n) (hs : ∀ j < n, ∀ k, s j k ≠ ⊤) (h0 : ∃ k, s 0 k ≠ ⊥) {a : ℝ}
    (ha : rowMax s n = (a : EReal)) : 1 ≤ ∑ j ∈ Finset.range n, ∑ k, wt (s j k) a := by
  obtain ⟨j0, hj0, k0, hk0⟩ := exists_eq_rowMax hn hs h0
  calc (1 : ℝ) = wt (s j0 k0) a := by rw [hk0, ha, wt_coe_self]
    _ ≤ ∑ k, wt (s j0 k) a :=
        Finset.single_le_sum (f := fun k => wt (s j0 k) a) (fun k _ => wt_nonneg _ _) (Finset.mem_univ k0)
    _ ≤ ∑ j ∈ Finset.range n, ∑ k, wt (s j k) a :=
        Finset.single_le_sum (f := fun j => ∑ k, wt (s j k) a)
          (fun j _ => Finset.sum_nonneg fun k _ => wt_nonneg _ _) (Finset.mem_range.mpr hj0)

/-- (2) The denominator is at least 1: the maximal score contributes exp 0 = 1 and every weight is ≥ 0. -/
theorem one_le_denom (hn : 1 ≤ n) (hs : ∀ j < n, ∀ k, s j k ≠ ⊤) (h0 : ∃ k, s 0 k ≠ ⊥) : 1 ≤ denom s n := by
  obtain ⟨a, ha⟩ := exists_rowMax_eq_coe hs h0 hn le_rfl
  rw [denom_eq_coe hs le_rfl ha, ← EReal.coe_one, EReal.coe_le_coe_iff]
  exact one_le_sum_wt hn hs h0 ha

/-- (2) The denominator is not +∞ (it is a finite sum of real numbers). -/
theorem denom_ne_top (hn : 1 ≤ n) (hs : ∀ j < n, ∀ k, s j k ≠ ⊤) (h0 : ∃ k, s 0 k ≠ ⊥) : denom s n ≠ ⊤ := by
  obtain ⟨a, ha⟩ := exists_rowMax_eq_coe hs h0 hn le_rfl
  rw [denom_eq_coe hs le_rfl ha]
  exact EReal.coe_ne_top _

/-- (2) The denominator is not 0. -/
theorem denom_ne_zero (hn : 1 ≤ n) (hs : ∀ j < n, ∀ k, s j k ≠ ⊤) (h0 : ∃ k, s 0 k ≠ ⊥) : denom s n ≠ 0 :=
  (lt_of_lt_of_le zero_lt_one (one_le_denom hn hs h0)).ne'

/-- (2) Clamping the denominator below by a constant c ≤ 1 does nothing. -/
theorem max_denom_eq (hn : 1 ≤ n) (hs : ∀ j < n, ∀ k, s j k ≠ ⊤) (h0 : ∃ k, s 0 k ≠ ⊥) {c : EReal} (hc : c ≤ 1) :
    max (denom s n) c = denom s n :=
  max_eq_left (le_trans hc (one_le_denom hn hs h0))

/-- (3) Dividing the unnormalized weighted sum by the denominator is the sum of the normalized weights times the
    values. -/
theorem div_numer_denom_eq_direct (hn : 1 ≤ n) (hs : ∀ j < n, ∀ k, s j k ≠ ⊤) (h0 : ∃ k, s 0 k ≠ ⊥)
    (hv : ∀ j < n, ∀ k i, v j k i ≠ ⊤ ∧ v j k i ≠ ⊥) (i : ι) :
    Ideal.div (numer s v n i) (denom s n) = direct s v n i := by
  obtain ⟨a, ha⟩ := exists_rowMax_eq_coe hs h0 hn le_rfl
  have hL : (∑ j ∈ Finset.range n, ∑ k, wt (s j k) a) ≠ 0 :=
    (lt_of_lt_of_le zero_lt_one (one_le_sum_wt hn hs h0 ha)).ne'
  unfold direct
  rw [numer_eq_coe hs hv le_rfl ha, denom_eq_coe hs le_rfl ha, Ideal.div_coe hL, ← EReal.coe_mul, Finset.sum_mul,
    coe_sum]
  refine Finset.sum_congr rfl fun j hj => ?_
  have hjn : j < n := Finset.mem_range.mp hj
  rw [Finset.sum_mul, coe_sum]
  refine Finset.sum_congr rfl fun k _ => ?_
  unfold weight
  rw [ha, exp_sub_coe (hs j hjn k) a, Ideal.div_coe hL, ← EReal.coe_mul]
  conv_rhs => rw [← EReal.coe_toReal (hv j hjn k i).1 (hv j hjn k i).2, ← EReal.coe_mul]
  congr 1
  ring

/-- (1)+(2)+(3) The result of the online recurrence after n ≥ 1 blocks, its weighted sum divided by its denominator
    clamped below by c ≤ 1, is the direct softmax-weighted sum over those n blocks. -/
theorem online_div_eq_direct (hn : 1 ≤ n) (hs : ∀ j < n, ∀ k, s j k ≠ ⊤) (h0 : ∃ k, s 0 k ≠ ⊥)
    (hv : ∀ j < n, ∀ k i, v j k i ≠ ⊤ ∧ v j k i ≠ ⊥) {c : EReal} (hc : c ≤ 1) (i : ι) :
    Ideal.div ((online s v n).acc i) (max (online s v n).l c) = direct s v n i := by
  obtain ⟨_, hl, hacc⟩ := online_invariant hs h0 hv (le_refl n)
  rw [hl, hacc i, max_denom_eq hn hs h0 hc]
  exact div_numer_denom_eq_direct hn hs h0 hv i

/-! ### Padding by masked blocks -/

/-- (4) Blocks of scores -∞ do not change the maximum. -/
theorem rowMax_pad {n' : ℕ} (hnn : n ≤ n') (hpad : ∀ j, n ≤ j → j < n' → ∀ k, s j k = ⊥) :
    rowMax s n' = rowMax s n := by
  apply le_antisymm
  · unfold rowMax
    refine Finset.sup_le fun j hj => ?_
    rcases lt_or_ge j n with hjn | hjn
    · exact Finset.le_sup (f := fun j => (Finset.univ : Finset (Fin b)).sup (s j)) (Finset.mem_range.mpr hjn)
    · refine le_trans (Finset.sup_le fun k _ => ?_) bot_le
      rw [hpad j hjn (Finset.mem_range.mp hj) k]
  · exact Finset.sup_mono (Finset.range_subset_range.mpr hnn)

/-- (4) Blocks of scores -∞ do not change the denominator. -/
theorem denom_pad {n' : ℕ} (hnn : n ≤ n') (hpad : ∀ j, n ≤ j → j < n' → ∀ k, s j k = ⊥) :
    denom s n' = denom s n := by
  unfold denom weight
  rw [rowMax_pad hnn hpad]
  symm
  refine Finset.sum_subset (Finset.range_subset_range.mpr hnn) fun j hj hjn => ?_
  refine Finset.sum_eq_zero fun k _ => ?_
  rw [hpad j (not_lt.mp fun h => hjn (Finset.mem_range.mpr h)) (Finset.mem_range.mp hj) k, EReal.bot_sub,
    Ideal.exp_bot]

/-- (4) Blocks of scores -∞ do not change the unnormalized weighted sum, whatever their values. -/
theorem numer_pad {n' : ℕ} (hnn : n ≤ n') (hpad : ∀ j, n ≤ j → j < n' → ∀ k, s j k = ⊥) (i : ι) :
    numer s v n' i = numer s v n i := by
  unfold numer weight
  rw [rowMax_pad hnn hpad]
  symm
  refine Finset.sum_subset (Finset.range_subset_range.mpr hnn) fun j hj hjn => ?_
  refine Finset.sum_eq_zero fun k _ => ?_
  rw [hpad j (not_lt.mp fun h => hjn (Finset.mem_range.mpr h)) (Finset.mem_range.mp hj) k, EReal.bot_sub,
    Ideal.exp_bot, zero_mul]

/-- (4) Blocks of scores -∞ do not change the direct softmax-weighted sum, whatever their values. -/
theorem direct_pad (hn : 1 ≤ n) (hs : ∀ j < n, ∀ k, s j k ≠ ⊤) (h0 : ∃ k, s 0 k ≠ ⊥) {n' : ℕ} (hnn : n ≤ n')
    (hpad : ∀ j, n ≤ j → j < n' → ∀ k, s j k = ⊥) (i : ι) :
    direct s v n' i = direct s v n i := by
  have hL : denom s n ≠ 0 := denom_ne_zero hn hs h0
  unfold direct weight
  rw [denom_pad hnn hpad, rowMax_pad hnn hpad]
  symm
  refine Finset.sum_subset (Finset.range_subset_range.mpr hnn) fun j hj hjn => ?_
  refine Finset.sum_eq_zero fun k _ => ?_
  rw [hpad j (not_lt.mp fun h => hjn (Finset.mem_range.mpr h)) (Finset.mem_range.mp hj) k, EReal.bot_sub,
    Ideal.exp_bot, Ideal.div, if_neg hL, zero_mul, zero_mul]

/-! ### A flat key axis cut into blocks

A row of scores sc t over a flat key index t, cut into blocks of length b (block j holds the keys j * b + k), has as
its direct form over the first n blocks the plain softmax-weighted sum over the first n * b keys. -/

/-- A sum over the first n blocks of length b is the sum over the first n * b indices. -/
theorem sum_range_blocks {A : Type*} [AddCommMonoid A] (g : ℕ → A) (n b : ℕ) :
    ∑ j ∈ Finset.range n, ∑ k : Fin b, g (j * b + k) = ∑ t ∈ Finset.range (n * b), g t := by
  induction n with
  | zero => simp
  | succ n ih =>
    rw [Finset.sum_range_succ, ih, Nat.succ_mul, Finset.sum_range_add,
      Fin.sum_univ_eq_sum_range (fun k => g (n * b + k)) b]

/-- A supremum over the first n blocks of length b is the supremum over the first n * b indices. -/
theorem sup_range_blocks {A : Type*} [SemilatticeSup A] [OrderBot A] (g : ℕ → A) (n b : ℕ) :
    ((Finset.range n).sup fun j => (Finset.univ : Finset (Fin b)).sup fun k => g (j * b + k))
      = (Finset.range (n * b)).sup g := by
  apply le_antisymm
  · refine Finset.sup_le fun j hj => Finset.sup_le fun k _ => Finset.le_sup (f := g) ?_
    rw [Finset.mem_range] at hj ⊢
    calc j * b + k < j * b + b := Nat.add_lt_add_left k.isLt _
      _ = (j + 1) * b := (Nat.succ_mul j b).symm
      _ ≤ n * b := Nat.mul_le_mul_right b hj
  · refine Finset.sup_le fun t ht => ?_
    rw [Finset.mem_range] at ht
    have hb : 0 < b := by
      rcases Nat.eq_zero_or_pos b with rfl | h
      · simp at ht
      · exact h
    have hj : t / b < n := Nat.div_lt_of_lt_mul (by rwa [Nat.mul_comm] at ht)
    have ht' : g t = g (t / b * b + ((⟨t % b, Nat.mod_lt _ hb⟩ : Fin b) : ℕ)) := by
      congr 1; exact (Nat.div_add_mod' t b).symm
    rw [ht']
    exact le_trans
      (Finset.le_sup (f := fun k : Fin b => g (t / b * b + k)) (Finset.mem_univ _))
      (Finset.le_sup (f := fun j => (Finset.univ : Finset (Fin b)).sup fun k => g (j * b + k))
        (Finset.mem_range.mpr hj))

/-- The maximum over the first n blocks of a flat row is the maximum over its first n * b keys. -/
theorem rowMax_flat (sc : ℕ → EReal) (n : ℕ) :
    rowMax (fun j (k : Fin b) => sc (j * b + k)) n = (Finset.range (n * b)).sup sc :=
  sup_range_blocks sc n b

/-- The denominator over the first n blocks of a flat row is the plain softmax denominator over its first n * b
    keys. -/
theorem denom_flat (sc : ℕ → EReal) (n : ℕ) :
    denom (fun j (k : Fin b) => sc (j * b + k)) n
      = ∑ t ∈ Finset.range (n * b), Ideal.exp (sc t - (Finset.range (n * b)).sup sc) := by
  unfold denom weight
  rw [rowMax_flat]
  exact sum_range_blocks (fun t => Ideal.exp (sc t - (Finset.range (n * b)).sup sc)) n b

/-- The direct form over the first n blocks of a flat row is the plain softmax-weighted sum over its first n * b
    keys. -/
theorem direct_flat (sc : ℕ → EReal) (vv : ℕ → ι → EReal) (n : ℕ) (i : ι) :
    direct (fun j (k : Fin b) => sc (j * b + k)) (fun j (k : Fin b) i => vv (j * b + k) i) n i
      = ∑ t ∈ Finset.range (n * b),
          Ideal.div (Ideal.exp (sc t - (Finset.range (n * b)).sup sc))
            (∑ t' ∈ Finset.range (n * b), Ideal.exp (sc t' - (Finset.range (n * b)).sup sc)) * vv t i := by
  unfold direct
  rw [denom_flat]
  unfold weight
  rw [rowMax_flat]
  exact sum_range_blocks (fun t => Ideal.div (Ideal.exp (sc t - (Finset.range (n * b)).sup sc))
    (∑ t' ∈ Finset.range (n * b), Ideal.exp (sc t' - (Finset.range (n * b)).sup sc)) * vv t i) n b

end Cert.Lib.OnlineSoftmax
-- ==== Proof.AttnPayDefs.lean ====
import proofs.«156199_j3478923510049_2_alg».proof.Proof.AttnDefs
import proofs.«156199_j3478923510049_2_alg».proof.Proof.LibOnlineSoftmax
import Idealize.ShloMosaic.Lib.ValueIdx
import Idealize.ShloMosaic.PureOps.Ideal

noncomputable section

namespace Cert.KernelIdeal.Pay

open Cert.KernelIdeal Cert.KernelIdeal.Gen Cert.KernelIdeal.Frame Cert.Lib.OnlineSoftmax Idealize.ShloMosaic Idealize.ShloMosaic.ValueIdx

/-! # One row of the attention block step: the names it is stated over

A row is (batch b, head h, position r inside the query block); the kernel keeps its running maximum, denominator and
numerator at row b·16 + h, r of the three carried buffers. -/

/-- The merged batch-and-head coordinate of the kernel's [32, 256, ·] buffers. -/
def bh (b : Fin 2) (h : Fin 16) : Fin 32 := ⟨b.val * 16 + h.val, by omega⟩

/-- The masked, scaled scores of row (b, h, r) of the query block against the 256 keys of the key block at grid point
    i = (query block, key block). -/
def sBlock (i : grid1.Coords) (q k : Vec Ideal S2x256x16x64 .f32) (b : Fin 2) (h : Fin 16) (r : Fin 256) : Fin 256 → EReal := fun kk =>
  if (i 1).val * 256 + kk.val ≤ (i 0).val * 256 + r.val then
    (∑ j : Fin 64, q (ix4 b r h j) * k (ix4 b kk h j)) * Ideal.ofBits .f32 0x3E000000#32
  else ⊥

/-- The value block's rows for head h of batch b. -/
def vBlock (v : Vec Ideal S2x256x16x64 .f32) (b : Fin 2) (h : Fin 16) : Fin 256 → Fin 64 → EReal := fun kk j => v (ix4 b kk h j)

/-- The row's running maximum, denominator and numerator, read off the three carried buffers. -/
def rowState (mx l : Vec Ideal S32x256x1 .f32) (acc : Vec Ideal S32x256x64 .f32) (b : Fin 2) (h : Fin 16) (r : Fin 256) : State (Fin 64) :=
  ⟨mx (ix3 (bh b h) r 0), l (ix3 (bh b h) r 0), fun j => acc (ix3 (bh b h) r j)⟩

end Cert.KernelIdeal.Pay

end
-- ==== Proof.AttnPay.lean ====
/-
  One row of the attention kernel's arithmetic is one step of the online softmax.

  The kernel's flash-attention call carries three buffers over the key blocks: the running row maximum [32, 256, 1],
  the running denominator [32, 256, 1] and the running numerator [32, 256, 64]; their leading axis is (batch, head)
  flattened, batch · 16 + head. Read at ONE row (batch b, head h, query row r of the query block) they are a state
  (m, l, acc) of the online-softmax recurrence over the 64 value coordinates. This file shows, on the extended reals:

   * what the reset stores is the recurrence's initial state (-∞, 0, 0)                          (`init_row`);
   * one block step of the three buffers is one step of the recurrence, with the block of scores
       s kk = (Σ_j q[b, r, h, j] · k[b, kk, h, j]) · (1/8)   if the key position is at or before the query position,
              -∞                                              otherwise,
     and the block of values v[b, kk, h, ·]                                                    (`step_row`);
   * what the last key block stores is numerator / max (denominator, 10^-30), at [b, r, h, j]    (`fin_row`).

  Each operation that is not elementwise is first read at an index over variables: the transpose-then-flatten of a
  [2, 256, 16, 64] block, the two batched products into a zero accumulator, the two lane reductions, the causal mask
  built from two coordinate counters, and the column broadcasts.
-/
import proofs.«156199_j3478923510049_2_alg».proof.Proof.AttnDefs
import proofs.«156199_j3478923510049_2_alg».proof.Proof.LibOnlineSoftmax
import proofs.«156199_j3478923510049_2_alg».proof.Proof.AttnPayDefs
import Idealize.ShloMosaic.PureOps.IdealRules
import Idealize.ShloMosaic.PureOps.Ideal.Laws
import Idealize.ShloMosaic.Lib.ValueIdx
import Idealize.ShloMosaic.Lib.Pipeline.Value

set_option maxRecDepth 16384

noncomputable section

namespace Cert.KernelIdeal.Pay

open Cert.KernelIdeal Cert.KernelIdeal.Gen Cert.KernelIdeal.Frame Cert.Lib.OnlineSoftmax
open Idealize.ShloMosaic Idealize.ShloMosaic.ValueIdx
open scoped BigOperators

/-! ### Layout operations read at literal coordinates -/

section Layout
variable {α : Type}

/-- Flattening (batch, head) and then moving the heads back beside the positions: the [2, 256, 16, 64] result at
    (b, r, h, j) is the [32, 256, 64] operand at (b · 16 + h, r, j). -/
theorem cast_transpose_apply (x : S32x256x64.Idx → α) (hc : S32x256x64.ShapeCasts S2x16x256x64)
    (ht : S2x16x256x64.Transposes [0, 2, 1, 3] S2x256x16x64) (b : Fin 2) (r : Fin 256) (h : Fin 16) (j : Fin 64) :
    transpose S2x256x16x64 [0, 2, 1, 3] (shapeCast S2x16x256x64 x hc) ht (ix4 b r h j) = x (ix3 (bh b h) r j) := by
  refine (transpose_apply _ _ ht (ix4 b r h j) (ix4 b h r j)
    (fun a => match a with | ⟨0, _⟩ => rfl | ⟨1, _⟩ => rfl | ⟨2, _⟩ => rfl | ⟨3, _⟩ => rfl)).trans ?_
  refine shapeCast_apply x hc (ix4 b h r j) (ix3 (bh b h) r j) ?_
  rw [Shape.rowMajor_val_three, Shape.rowMajor_val_four]
  show ((b.val * 16 + h.val) * 256 + r.val) * 64 + j.val = ((b.val * 16 + h.val) * 256 + r.val) * 64 + j.val
  rfl

/-- Moving the heads in front of the positions and then flattening (batch, head): the [32, 256, 64] result at
    (b · 16 + h, r, j) is the [2, 256, 16, 64] operand at (b, r, h, j). -/
theorem transpose_cast_apply (x : S2x256x16x64.Idx → α) (ht : S2x256x16x64.Transposes [0, 2, 1, 3] S2x16x256x64)
    (hc : S2x16x256x64.ShapeCasts S32x256x64) (b : Fin 2) (h : Fin 16) (r : Fin 256) (j : Fin 64) :
    shapeCast S32x256x64 (transpose S2x16x256x64 [0, 2, 1, 3] x ht) hc (ix3 (bh b h) r j) = x (ix4 b r h j) := by
  refine (shapeCast_apply _ hc (ix3 (bh b h) r j) (ix4 b h r j) ?_).trans ?_
  · rw [Shape.rowMajor_val_three, Shape.rowMajor_val_four]
    show ((b.val * 16 + h.val) * 256 + r.val) * 64 + j.val = ((b.val * 16 + h.val) * 256 + r.val) * 64 + j.val
    rfl
  · exact transpose_apply _ x ht (ix4 b h r j) (ix4 b r h j)
      (fun a => match a with | ⟨0, _⟩ => rfl | ⟨1, _⟩ => rfl | ⟨2, _⟩ => rfl | ⟨3, _⟩ => rfl)

/-- A column [32, 256, 1] broadcast along 64 lanes reads the column. -/
theorem bcast64_apply (x : S32x256x1.Idx → α) (hb : S32x256x1.Broadcasts S32x256x64) (c : Fin 32) (r : Fin 256) (j : Fin 64) :
    broadcastTo S32x256x64 x hb (ix3 c r j) = x (ix3 c r 0) :=
  broadcastTo_apply x hb (ix3 c r j) (ix3 c r 0)
    (fun a => match a with | ⟨0, _⟩ => rfl | ⟨1, _⟩ => rfl | ⟨2, _⟩ => rfl)

/-- A column [32, 256, 1] broadcast along 256 lanes reads the column. -/
theorem bcast256_apply (x : S32x256x1.Idx → α) (hb : S32x256x1.Broadcasts S32x256x256) (c : Fin 32) (r : Fin 256) (kk : Fin 256) :
    broadcastTo S32x256x256 x hb (ix3 c r kk) = x (ix3 c r 0) :=
  broadcastTo_apply x hb (ix3 c r kk) (ix3 c r 0)
    (fun a => match a with | ⟨0, _⟩ => rfl | ⟨1, _⟩ => rfl | ⟨2, _⟩ => rfl)

/-- A [32, 256] array given a trailing unit axis reads (c, r) at (c, r, 0). -/
theorem addUnit_apply (x : S32x256.Idx → α) (hc : S32x256.ShapeCasts S32x256x1) (c : Fin 32) (r : Fin 256) :
    shapeCast S32x256x1 x hc (ix3 c r 0) = x (ix2 c r) := by
  refine shapeCast_apply x hc (ix3 c r 0) (ix2 c r) ?_
  rw [Shape.rowMajor_val_two, Shape.rowMajor_val_three]
  show c.val * 256 + r.val = (c.val * 256 + r.val) * 1 + 0
  omega

end Layout

/-! ### The two named constants -/

/-- The mask value is -∞. -/
theorem neg_big : Named.named (F := Ideal) κ "neg_big" (φ := .f32) 0xFF333332#32 = ⊥ :=
  IdealRules.named_const.ideal_named_scalar _ _ _ _ rfl

/-- The clamp of the denominator is the rational 10^-30. -/
theorem tiny : Named.named (F := Ideal) κ "inv_1000000000000000000000000000000" (φ := .f32) 0x0DA24260#32
    = ((1 / 1000000000000000000000000000000 : ℝ) : EReal) :=
  IdealRules.named_const.ideal_named_scalar _ _ _ _ rfl

/-- The pattern of the float -∞ denotes -∞. -/
theorem ofBits_neg_inf : Ideal.ofBits .f32 0xFF800000#32 = ⊥ := by simp [Ideal.ofBits, Ideal.ieee]

/-! ### The two batched products and the two lane reductions, read at literal coordinates -/

section Contract
variable {φ₁ φ₂ : FTy}

/-! The operand indices of the score product at result index i and contraction index q: the batch axis and the
    row axis of each operand read i, the last axis reads q. -/
theorem scores_lhs_0 (i : S32x256x256.Idx) (q : dot_S32x256x64_S32x256x64_S32x256x256_2_2_1_1_0_0.contr.Idx) :
    (dot_S32x256x64_S32x256x64_S32x256x256_2_2_1_1_0_0.lhsIdx i q 0).val = (i 0).val := by
  unfold DotDims.lhsIdx
  rw [dif_pos (show (0 : Fin S32x256x64.rank) ∈ dot_S32x256x64_S32x256x64_S32x256x256_2_2_1_1_0_0.lhsBatch by decide)]
  rfl

theorem scores_lhs_1 (i : S32x256x256.Idx) (q : dot_S32x256x64_S32x256x64_S32x256x256_2_2_1_1_0_0.contr.Idx) :
    (dot_S32x256x64_S32x256x64_S32x256x256_2_2_1_1_0_0.lhsIdx i q 1).val = (i 1).val := by
  unfold DotDims.lhsIdx
  rw [dif_neg (show ¬(1 : Fin S32x256x64.rank) ∈ dot_S32x256x64_S32x256x64_S32x256x256_2_2_1_1_0_0.lhsBatch by decide), dif_pos (show (1 : Fin S32x256x64.rank) ∈ dot_S32x256x64_S32x256x64_S32x256x256_2_2_1_1_0_0.lhsNonContracting by decide)]
  rfl

theorem scores_rhs_0 (i : S32x256x256.Idx) (q : dot_S32x256x64_S32x256x64_S32x256x256_2_2_1_1_0_0.contr.Idx) :
    (dot_S32x256x64_S32x256x64_S32x256x256_2_2_1_1_0_0.rhsIdx i q 0).val = (i 0).val := by
  unfold DotDims.rhsIdx
  rw [dif_pos (show (0 : Fin S32x256x64.rank) ∈ dot_S32x256x64_S32x256x64_S32x256x256_2_2_1_1_0_0.rhsBatch by decide)]
  rfl

theorem scores_rhs_1 (i : S32x256x256.Idx) (q : dot_S32x256x64_S32x256x64_S32x256x256_2_2_1_1_0_0.contr.Idx) :
    (dot_S32x256x64_S32x256x64_S32x256x256_2_2_1_1_0_0.rhsIdx i q 1).val = (i 2).val := by
  unfold DotDims.rhsIdx
  rw [dif_neg (show ¬(1 : Fin S32x256x64.rank) ∈ dot_S32x256x64_S32x256x64_S32x256x256_2_2_1_1_0_0.rhsBatch by decide), dif_pos (show (1 : Fin S32x256x64.rank) ∈ dot_S32x256x64_S32x256x64_S32x256x256_2_2_1_1_0_0.rhsNonContracting by decide)]
  rfl

/-- The score product (batch axis 0, both operands contracted on their last axis) into a zero accumulator:
    at (c, r, kk), the sum over the 64 coordinates of lhs (c, r, ·) · rhs (c, kk, ·). -/
theorem scores_apply (lhs : FVec Ideal S32x256x64 φ₁) (rhs : FVec Ideal S32x256x64 φ₂) (c : Fin 32) (r kk : Fin 256) :
    matmul dot_S32x256x64_S32x256x64_S32x256x256_2_2_1_1_0_0 none lhs rhs (constant S32x256x256 .f32 0x00000000#32) (ix3 c r kk)
      = ∑ j : Fin 64, lhs (ix3 c r j) * rhs (ix3 c kk j) := by
  refine (Ideal.matmul_constant_zero_apply dot_S32x256x64_S32x256x64_S32x256x256_2_2_1_1_0_0 none lhs rhs (ix3 c r kk)).trans ?_
  rw [← Equiv.sum_comp (contrEquiv1 dot_S32x256x64_S32x256x64_S32x256x256_2_2_1_1_0_0 64 rfl rfl).symm]
  refine Finset.sum_congr rfl fun j _ => ?_
  have hk := contrEquiv1_symm_val dot_S32x256x64_S32x256x64_S32x256x256_2_2_1_1_0_0 64 rfl rfl j
  have el : dot_S32x256x64_S32x256x64_S32x256x256_2_2_1_1_0_0.lhsIdx (ix3 c r kk) ((contrEquiv1 dot_S32x256x64_S32x256x64_S32x256x256_2_2_1_1_0_0 64 rfl rfl).symm j) = ix3 c r j := funext fun a => Fin.ext (by
    match a with
    | ⟨0, _⟩ => exact scores_lhs_0 _ _
    | ⟨1, _⟩ => exact scores_lhs_1 _ _
    | ⟨2, _⟩ => exact (dot_S32x256x64_S32x256x64_S32x256x256_2_2_1_1_0_0.lhsIdx_val_of_single rfl _ _).trans hk)
  have er : dot_S32x256x64_S32x256x64_S32x256x256_2_2_1_1_0_0.rhsIdx (ix3 c r kk) ((contrEquiv1 dot_S32x256x64_S32x256x64_S32x256x256_2_2_1_1_0_0 64 rfl rfl).symm j) = ix3 c kk j := funext fun a => Fin.ext (by
    match a with
    | ⟨0, _⟩ => exact scores_rhs_0 _ _
    | ⟨1, _⟩ => exact scores_rhs_1 _ _
    | ⟨2, _⟩ => exact (dot_S32x256x64_S32x256x64_S32x256x256_2_2_1_1_0_0.rhsIdx_val_of_single rfl _ _).trans hk)
  rw [el, er]

/-! The operand indices of the value product: the weights read the result's batch and row and q on their last axis;
    the values read the result's batch and lane and q on their middle axis. -/
theorem weighted_lhs_0 (i : S32x256x64.Idx) (q : dot_S32x256x256_S32x256x64_S32x256x64_2_1_1_2_0_0.contr.Idx) :
    (dot_S32x256x256_S32x256x64_S32x256x64_2_1_1_2_0_0.lhsIdx i q 0).val = (i 0).val := by
  unfold DotDims.lhsIdx
  rw [dif_pos (show (0 : Fin S32x256x256.rank) ∈ dot_S32x256x256_S32x256x64_S32x256x64_2_1_1_2_0_0.lhsBatch by decide)]
  rfl

theorem weighted_lhs_1 (i : S32x256x64.Idx) (q : dot_S32x256x256_S32x256x64_S32x256x64_2_1_1_2_0_0.contr.Idx) :
    (dot_S32x256x256_S32x256x64_S32x256x64_2_1_1_2_0_0.lhsIdx i q 1).val = (i 1).val := by
  unfold DotDims.lhsIdx
  rw [dif_neg (show ¬(1 : Fin S32x256x256.rank) ∈ dot_S32x256x256_S32x256x64_S32x256x64_2_1_1_2_0_0.lhsBatch by decide), dif_pos (show (1 : Fin S32x256x256.rank) ∈ dot_S32x256x256_S32x256x64_S32x256x64_2_1_1_2_0_0.lhsNonContracting by decide)]
  rfl

theorem weighted_rhs_0 (i : S32x256x64.Idx) (q : dot_S32x256x256_S32x256x64_S32x256x64_2_1_1_2_0_0.contr.Idx) :
    (dot_S32x256x256_S32x256x64_S32x256x64_2_1_1_2_0_0.rhsIdx i q 0).val = (i 0).val := by
  unfold DotDims.rhsIdx
  rw [dif_pos (show (0 : Fin S32x256x64.rank) ∈ dot_S32x256x256_S32x256x64_S32x256x64_2_1_1_2_0_0.rhsBatch by decide)]
  rfl

theorem weighted_rhs_2 (i : S32x256x64.Idx) (q : dot_S32x256x256_S32x256x64_S32x256x64_2_1_1_2_0_0.contr.Idx) :
    (dot_S32x256x256_S32x256x64_S32x256x64_2_1_1_2_0_0.rhsIdx i q 2).val = (i 2).val := by
  unfold DotDims.rhsIdx
  rw [dif_neg (show ¬(2 : Fin S32x256x64.rank) ∈ dot_S32x256x256_S32x256x64_S32x256x64_2_1_1_2_0_0.rhsBatch by decide), dif_pos (show (2 : Fin S32x256x64.rank) ∈ dot_S32x256x256_S32x256x64_S32x256x64_2_1_1_2_0_0.rhsNonContracting by decide)]
  rfl

/-- The value product (batch axis 0, the weights contracted on their last axis against the values' middle axis) into a
    zero accumulator: at (c, r, j), the sum over the 256 key positions of lhs (c, r, ·) · rhs (c, ·, j). -/
theorem weighted_apply (lhs : FVec Ideal S32x256x256 φ₁) (rhs : FVec Ideal S32x256x64 φ₂) (c : Fin 32) (r : Fin 256) (j : Fin 64) :
    matmul dot_S32x256x256_S32x256x64_S32x256x64_2_1_1_2_0_0 none lhs rhs (constant S32x256x64 .f32 0x00000000#32) (ix3 c r j)
      = ∑ kk : Fin 256, lhs (ix3 c r kk) * rhs (ix3 c kk j) := by
  refine (Ideal.matmul_constant_zero_apply dot_S32x256x256_S32x256x64_S32x256x64_2_1_1_2_0_0 none lhs rhs (ix3 c r j)).trans ?_
  rw [← Equiv.sum_comp (contrEquiv1 dot_S32x256x256_S32x256x64_S32x256x64_2_1_1_2_0_0 256 rfl rfl).symm]
  refine Finset.sum_congr rfl fun kk _ => ?_
  have hk := contrEquiv1_symm_val dot_S32x256x256_S32x256x64_S32x256x64_2_1_1_2_0_0 256 rfl rfl kk
  have el : dot_S32x256x256_S32x256x64_S32x256x64_2_1_1_2_0_0.lhsIdx (ix3 c r j) ((contrEquiv1 dot_S32x256x256_S32x256x64_S32x256x64_2_1_1_2_0_0 256 rfl rfl).symm kk) = ix3 c r kk := funext fun a => Fin.ext (by
    match a with
    | ⟨0, _⟩ => exact weighted_lhs_0 _ _
    | ⟨1, _⟩ => exact weighted_lhs_1 _ _
    | ⟨2, _⟩ => exact (dot_S32x256x256_S32x256x64_S32x256x64_2_1_1_2_0_0.lhsIdx_val_of_single rfl _ _).trans hk)
  have er : dot_S32x256x256_S32x256x64_S32x256x64_2_1_1_2_0_0.rhsIdx (ix3 c r j) ((contrEquiv1 dot_S32x256x256_S32x256x64_S32x256x64_2_1_1_2_0_0 256 rfl rfl).symm kk) = ix3 c kk j := funext fun a => Fin.ext (by
    match a with
    | ⟨0, _⟩ => exact weighted_rhs_0 _ _
    | ⟨1, _⟩ => exact (dot_S32x256x256_S32x256x64_S32x256x64_2_1_1_2_0_0.rhsIdx_val_of_single rfl _ _).trans hk
    | ⟨2, _⟩ => exact weighted_rhs_2 _ _)
  rw [el, er]

/-- The lane maximum from -∞ of a [32, 256, 256] array: at (c, r), the fold of max from -∞ over the row (c, r, ·). -/
theorem laneMax_apply (src : FVec Ideal S32x256x256 .f32) (hr : S32x256x256.Reduces [2] S32x256) (hφ : FKind.Formats .f32)
    (hacc : (0xFF800000#32 : BitVec 32) = FKind.maximumf.neutral .f32 hφ) (c : Fin 32) (r : Fin 256) :
    multiReduction .maximumf [2] S32x256 src 0xFF800000#32 hr hφ hacc (ix2 c r)
      = (Finset.univ : Finset (Fin 256)).fold max ⊥ (fun kk => src (ix3 c r kk)) := by
  refine (Ideal.multiReduction_maximumf_single src _ hr hφ hacc (ix2 c r)).trans ?_
  have h0 : FloatOps.ofBits (F := Ideal) .f32 0xFF800000#32 = ⊥ := ofBits_neg_inf
  have hl : (src ∘ hr.lift (ix2 c r)) = fun kk : Fin 256 => src (ix3 c r kk) := funext fun kk =>
    congrArg src (funext fun a => Fin.ext (by
      match a with
      | ⟨0, _⟩ => rfl
      | ⟨1, _⟩ => rfl
      | ⟨2, _⟩ => rfl))
  rw [h0]
  exact congrArg (fun f : Fin 256 → EReal => (Finset.univ : Finset (Fin 256)).fold max ⊥ f) hl

/-- The lane sum of a [32, 256, 256] array: at (c, r), the sum over the row (c, r, ·). -/
theorem laneSum_apply (src : FVec Ideal S32x256x256 .f32) (hr : S32x256x256.Reduces [2] S32x256) (hφ : FKind.Formats .f32)
    (hacc : (0x00000000#32 : BitVec 32) = FKind.add.neutral .f32 hφ) (c : Fin 32) (r : Fin 256) :
    multiReduction .add [2] S32x256 src 0x00000000#32 hr hφ hacc (ix2 c r) = ∑ kk : Fin 256, src (ix3 c r kk) := by
  refine (Ideal.multiReduction_add_single src _ hr hφ hacc (ix2 c r)).trans ?_
  refine Finset.sum_congr rfl fun kk _ => ?_
  exact congrArg src (funext fun a => Fin.ext (by
    match a with
    | ⟨0, _⟩ => rfl
    | ⟨1, _⟩ => rfl
    | ⟨2, _⟩ => rfl))

end Contract

/-! ### The causal mask -/

/-- Below 2304 a 32-bit word's signed value is the number itself. -/
theorem toInt_small (a r : Nat) (ha : a < 8) (hr : r < 256) :
    (BitVec.ofNat 32 a * 256#32 + BitVec.ofNat 32 r).toInt = ((a * 256 + r : Nat) : Int) := by
  have hn : (BitVec.ofNat 32 a * 256#32 + BitVec.ofNat 32 r).toNat = a * 256 + r := by
    simp only [BitVec.toNat_add, BitVec.toNat_mul, BitVec.toNat_ofNat]
    omega
  rw [BitVec.toInt_eq_toNat_of_lt (by rw [hn]; omega), hn]

/-- The signed 32-bit comparison of two positions below 2304 is the comparison of the positions. -/
theorem sle_small (a b r kk : Nat) (ha : a < 8) (hb : b < 8) (hr : r < 256) (hk : kk < 256) :
    (BitVec.ofNat 32 b * 256#32 + BitVec.ofNat 32 kk).sle (BitVec.ofNat 32 a * 256#32 + BitVec.ofNat 32 r)
      = decide (b * 256 + kk ≤ a * 256 + r) := by
  rw [BitVec.sle_eq_decide, toInt_small b kk hb hk, toInt_small a r ha hr]
  simp only [Nat.cast_le]

/-- The mask bit at (c, r, kk): the query position (query block · 256 + r) is at or after the key position
    (key block · 256 + kk). Both positions are below 2304, so the signed 32-bit comparison does not wrap. -/
theorem mask_apply (i : grid1.Coords) (h1 : S32x256x256.Iotas .tc 32 [1]) (h2 : S32x256x256.Iotas .tc 32 [2])
    (c : Fin 32) (r kk : Fin 256) :
    cmpi .sge (addi (broadcast S32x256x256 (Scalar.muli (qw i) 256#32)) (iota .tc S32x256x256 32 [1] h1))
        (addi (broadcast S32x256x256 (Scalar.muli (kw i) 256#32)) (iota .tc S32x256x256 32 [2] h2)) (ix3 c r kk)
      = if (i 1).val * 256 + kk.val ≤ (i 0).val * 256 + r.val then 1#1 else 0#1 := by
  have hq : (i 0).val < 8 := (i 0).isLt
  have hk : (i 1).val < 8 := (i 1).isLt
  have e1 : iota .tc S32x256x256 32 [1] h1 (ix3 c r kk) = BitVec.ofNat 32 r.val := iota_single_apply .tc S32x256x256 32 1 h1 _
  have e2 : iota .tc S32x256x256 32 [2] h2 (ix3 c r kk) = BitVec.ofNat 32 kk.val := iota_single_apply .tc S32x256x256 32 2 h2 _
  show IntOp.cmpi .sge (IntOp.addi (IntOp.muli (BitVec.ofNat 32 (i 0).val) 256#32) (iota .tc S32x256x256 32 [1] h1 (ix3 c r kk)))
      (IntOp.addi (IntOp.muli (BitVec.ofNat 32 (i 1).val) 256#32) (iota .tc S32x256x256 32 [2] h2 (ix3 c r kk))) = _
  rw [e1, e2]
  show BitVec.ofBool ((BitVec.ofNat 32 (i 1).val * 256#32 + BitVec.ofNat 32 kk.val).sle
      (BitVec.ofNat 32 (i 0).val * 256#32 + BitVec.ofNat 32 r.val)) = _
  rw [sle_small _ _ _ _ hq hk r.isLt kk.isLt]
  by_cases hc : (i 1).val * 256 + kk.val ≤ (i 0).val * 256 + r.val
  · rw [if_pos hc, decide_eq_true hc]; rfl
  · rw [if_neg hc, decide_eq_false hc]; rfl

/-! ### The query, key and value blocks as the products read them -/

/-- A [2, 256, 16, 64] block narrowed, with the heads moved in front of the positions and (batch, head) flattened:
    at (b · 16 + h, r, j) it is the block at (b, r, h, j). -/
theorem block_apply (x : Vec Ideal S2x256x16x64 .f32) (hs : S2x256x16x64.ShapeCasts S2x256x16x64) (hlt : FTy.bits .bf16 < FTy.bits .f32)
    (ht : S2x256x16x64.Transposes [0, 2, 1, 3] S2x16x256x64) (hc : S2x16x256x64.ShapeCasts S32x256x64)
    (b : Fin 2) (h : Fin 16) (r : Fin 256) (j : Fin 64) :
    (shapeCast S32x256x64 (transpose S2x16x256x64 [0, 2, 1, 3]
        (truncf (F := Ideal) .bf16 (shapeCast S2x256x16x64 x hs : FVec Ideal S2x256x16x64 .f32) hlt) ht) hc
        (ix3 (bh b h) r j) : EReal) = x (ix4 b r h j) := by
  refine (transpose_cast_apply _ ht hc b h r j).trans ?_
  refine (truncf_apply _ hlt _).trans ?_
  exact congrFun (shapeCast_self x hs) _

/-! ### The block step's payloads read at one row -/

/-- A select on a decided bit is the conditional. -/
theorem select_ite {α : Type} (p : Prop) [Decidable p] (a b : α) :
    Scalar.select (if p then 1#1 else 0#1) a b = if p then a else b := by
  by_cases hp : p
  · rw [if_pos hp, if_pos hp]; exact select_one a b
  · rw [if_neg hp, if_neg hp]; exact select_zero a b

/-- The masked, scaled scores of the block at (b · 16 + h, r, kk) are the row's scores against key kk. -/
theorem pay9_apply (i : grid1.Coords) (q k : Vec Ideal S2x256x16x64 .f32) (b : Fin 2) (h : Fin 16) (r kk : Fin 256) :
    k1_pay9 (F := Ideal) (qw i) (kw i) q k (ix3 (bh b h) r kk) = sBlock i q k b h r kk := by
  unfold k1_pay9 sBlock
  refine (select_apply _ _ _ _).trans ?_
  refine (congrArg (fun c => Scalar.select c _ _) (mask_apply i _ _ (bh b h) r kk)).trans ?_
  refine (select_ite _ _ _).trans ?_
  refine ite_congr rfl (fun _ => ?_) (fun _ => ?_)
  · refine (mulf_apply _ _ _).trans ?_
    refine congrArg₂ (· * ·) ?_ rfl
    refine (scores_apply _ _ (bh b h) r kk).trans ?_
    exact Finset.sum_congr rfl fun j _ =>
      congrArg₂ (· * ·) (block_apply q _ _ _ _ b h r j) (block_apply k _ _ _ _ b h kk j)
  · exact (broadcast_apply _ _).trans neg_big

/-- The new running maximum of row (b, h, r): the old one against the maximum of the block's scores. -/
theorem pay10_apply (i : grid1.Coords) (q k : Vec Ideal S2x256x16x64 .f32) (mx : Vec Ideal S32x256x1 .f32)
    (b : Fin 2) (h : Fin 16) (r : Fin 256) :
    k1_pay10 (F := Ideal) (qw i) (kw i) q k mx (ix3 (bh b h) r (0 : Fin 1))
      = max (mx (ix3 (bh b h) r 0)) ((Finset.univ : Finset (Fin 256)).fold max ⊥ (sBlock i q k b h r)) := by
  unfold k1_pay10
  refine (maximumf_apply _ _ _).trans ?_
  refine congrArg (max (mx (ix3 (bh b h) r 0))) ?_
  refine (addUnit_apply _ _ (bh b h) r).trans ?_
  refine (laneMax_apply _ _ _ _ (bh b h) r).trans ?_
  exact congrArg (fun f : Fin 256 → EReal => (Finset.univ : Finset (Fin 256)).fold max ⊥ f)
    (funext fun kk => pay9_apply i q k b h r kk)

/-- The exponential of a vector at an index is the exponential of the element. -/
theorem exp_apply {s : Shape} {φ : FTy} (a : FVec Ideal s φ) (i : s.Idx) : exp a i = Ideal.exp (a i) := rfl

/-- The correction factor of row (b, h, r): exp (old maximum - new maximum). -/
theorem pay11_apply (i : grid1.Coords) (q k : Vec Ideal S2x256x16x64 .f32) (mx : Vec Ideal S32x256x1 .f32)
    (b : Fin 2) (h : Fin 16) (r : Fin 256) :
    k1_pay11 (F := Ideal) (qw i) (kw i) q k mx (ix3 (bh b h) r (0 : Fin 1))
      = Ideal.exp (mx (ix3 (bh b h) r 0)
          - max (mx (ix3 (bh b h) r 0)) ((Finset.univ : Finset (Fin 256)).fold max ⊥ (sBlock i q k b h r))) := by
  unfold k1_pay11
  refine (exp_apply _ _).trans ?_
  refine congrArg Ideal.exp ?_
  refine (subf_apply _ _ _).trans ?_
  exact congrArg (mx (ix3 (bh b h) r 0) - ·) (pay10_apply i q k mx b h r)

/-- The block's weights at (b · 16 + h, r, kk): exp (score of key kk - new maximum of the row). -/
theorem pay12_apply (i : grid1.Coords) (q k : Vec Ideal S2x256x16x64 .f32) (mx : Vec Ideal S32x256x1 .f32)
    (b : Fin 2) (h : Fin 16) (r kk : Fin 256) :
    k1_pay12 (F := Ideal) (qw i) (kw i) q k mx (ix3 (bh b h) r kk)
      = Ideal.exp (sBlock i q k b h r kk
          - max (mx (ix3 (bh b h) r 0)) ((Finset.univ : Finset (Fin 256)).fold max ⊥ (sBlock i q k b h r))) := by
  unfold k1_pay12
  refine (exp_apply _ _).trans ?_
  refine congrArg Ideal.exp ?_
  refine (subf_apply _ _ _).trans ?_
  exact congrArg₂ (· - ·) (pay9_apply i q k b h r kk)
    ((bcast256_apply _ _ (bh b h) r kk).trans (pay10_apply i q k mx b h r))

/-! ### One block step at one row -/

/-- The running maximum after the step. -/
theorem step_m (i : grid1.Coords) (q k : Vec Ideal S2x256x16x64 .f32) (mx : Vec Ideal S32x256x1 .f32)
    (b : Fin 2) (h : Fin 16) (r : Fin 256) :
    stepM (F := Ideal) i q k mx (ix3 (bh b h) r (0 : Fin 1))
      = max (mx (ix3 (bh b h) r 0)) ((Finset.univ : Finset (Fin 256)).fold max ⊥ (sBlock i q k b h r)) := by
  unfold stepM k1_pay6
  exact (congrFun (shapeCast_self _ _) _).trans (pay10_apply i q k mx b h r)

/-- The running denominator after the step: the old one rescaled plus the sum of the block's weights. -/
theorem step_l (i : grid1.Coords) (q k : Vec Ideal S2x256x16x64 .f32) (mx l : Vec Ideal S32x256x1 .f32)
    (b : Fin 2) (h : Fin 16) (r : Fin 256) :
    stepL (F := Ideal) i q k mx l (ix3 (bh b h) r (0 : Fin 1))
      = Ideal.exp (mx (ix3 (bh b h) r 0)
            - max (mx (ix3 (bh b h) r 0)) ((Finset.univ : Finset (Fin 256)).fold max ⊥ (sBlock i q k b h r)))
          * l (ix3 (bh b h) r 0)
        + ∑ kk : Fin 256, Ideal.exp (sBlock i q k b h r kk
            - max (mx (ix3 (bh b h) r 0)) ((Finset.univ : Finset (Fin 256)).fold max ⊥ (sBlock i q k b h r))) := by
  unfold stepL k1_pay4
  refine (congrFun (shapeCast_self _ _) _).trans ?_
  refine (addf_apply _ _ _).trans ?_
  refine congrArg₂ (· + ·) ?_ ?_
  · refine (mulf_apply _ _ _).trans ?_
    exact congrArg (· * l (ix3 (bh b h) r 0)) (pay11_apply i q k mx b h r)
  · refine (addUnit_apply _ _ (bh b h) r).trans ?_
    refine (laneSum_apply _ _ _ _ (bh b h) r).trans ?_
    exact Finset.sum_congr rfl fun kk _ => pay12_apply i q k mx b h r kk

/-- The running numerator after the step, at coordinate j: the old one rescaled plus the block's weights against the
    block's values. -/
theorem step_acc (i : grid1.Coords) (q k v : Vec Ideal S2x256x16x64 .f32) (mx : Vec Ideal S32x256x1 .f32)
    (acc : Vec Ideal S32x256x64 .f32) (b : Fin 2) (h : Fin 16) (r : Fin 256) (j : Fin 64) :
    stepA (F := Ideal) i q k v mx acc (ix3 (bh b h) r j)
      = Ideal.exp (mx (ix3 (bh b h) r 0)
            - max (mx (ix3 (bh b h) r 0)) ((Finset.univ : Finset (Fin 256)).fold max ⊥ (sBlock i q k b h r)))
          * acc (ix3 (bh b h) r j)
        + ∑ kk : Fin 256, Ideal.exp (sBlock i q k b h r kk
            - max (mx (ix3 (bh b h) r 0)) ((Finset.univ : Finset (Fin 256)).fold max ⊥ (sBlock i q k b h r)))
          * vBlock v b h kk j := by
  unfold stepA k1_pay5 k1_pay8
  refine (congrFun (shapeCast_self _ _) _).trans ?_
  refine (addf_apply _ _ _).trans ?_
  refine congrArg₂ (· + ·) ?_ ?_
  · refine (mulf_apply _ _ _).trans ?_
    refine congrArg (· * acc (ix3 (bh b h) r j)) ?_
    exact (bcast64_apply _ _ (bh b h) r j).trans (pay11_apply i q k mx b h r)
  · refine (weighted_apply _ _ (bh b h) r j).trans ?_
    refine Finset.sum_congr rfl fun kk _ => ?_
    refine congrArg₂ (· * ·) ?_ ?_
    · exact (truncf_apply (φ := .f32) (ψ := .bf16) _ _ _).trans (pay12_apply i q k mx b h r kk)
    · exact block_apply v _ _ _ _ b h kk j

/-! ### What the last key block stores -/

/-- The stored output at (b, r, h, j) is the numerator of row (b, h, r) at coordinate j over the row's denominator
    clamped below by 10^-30. -/
theorem fin_row (l : Vec Ideal S32x256x1 .f32) (acc : Vec Ideal S32x256x64 .f32) (b : Fin 2) (r : Fin 256) (h : Fin 16) (j : Fin 64) :
    finO (F := Ideal) l acc (ix4 b r h j) = Ideal.div (acc (ix3 (bh b h) r j)) (max (l (ix3 (bh b h) r 0)) (((1 / 1000000000000000000000000000000 : ℝ) : ℝ) : EReal)) := by
  unfold finO k1_pay7
  refine (cast_transpose_apply _ _ _ b r h j).trans ?_
  refine (divf_apply _ _ _).trans ?_
  refine congrArg (Ideal.div (acc (ix3 (bh b h) r j))) ?_
  refine (bcast64_apply _ _ (bh b h) r j).trans ?_
  refine (maximumf_apply _ _ _).trans ?_
  refine congrArg (max (l (ix3 (bh b h) r 0))) ?_
  exact (broadcast_apply _ _).trans tiny

/-! ### What the reset stores -/

/-- The reset leaves, at every row, the initial state of the recurrence: maximum -∞, denominator 0, numerator 0. -/
theorem init_row (b : Fin 2) (h : Fin 16) (r : Fin 256) : rowState (initM (F := Ideal)) initL initA b h r = (init : State (Fin 64)) := by
  unfold rowState init initM initL initA k1_pay1 k1_pay2 k1_pay3
  refine State.ext ?_ ?_ ?_
  · dsimp only
    refine (congrFun (shapeCast_self _ _) (ix3 (bh b h) r (0 : Fin 1))).trans ?_
    exact ofBits_neg_inf
  · dsimp only
    refine (congrFun (shapeCast_self _ _) (ix3 (bh b h) r (0 : Fin 1))).trans ?_
    exact Ideal.ofBits_zero_f32
  · funext j
    dsimp only
    refine (congrFun (shapeCast_self _ _) (ix3 (bh b h) r j)).trans ?_
    exact Ideal.ofBits_zero_f32

/-- One block step of the three carried buffers, read at row (b, h, r), is one step of the online-softmax recurrence on
    that row's state, with the block's masked, scaled scores and the block's values. -/
theorem step_row (i : grid1.Coords) (q k v : Vec Ideal S2x256x16x64 .f32) (mx l : Vec Ideal S32x256x1 .f32) (acc : Vec Ideal S32x256x64 .f32) (b : Fin 2) (h : Fin 16) (r : Fin 256) :
    rowState (stepM i q k mx) (stepL i q k mx l) (stepA i q k v mx acc) b h r = stepOnline (rowState mx l acc b h r) (sBlock i q k b h r) (vBlock v b h) := by
  refine State.ext ?_ ?_ ?_
  · exact step_m i q k mx b h r
  · exact step_l i q k mx l b h r
  · funext j
    exact step_acc i q k v mx acc b h r j

end Cert.KernelIdeal.Pay

end
-- ==== Proof.SpecAttn.lean ====
/-
  The attention row of the specification over three 4-dimensional arrays (batch, position, head, coordinate), and the
  same row along a FLAT key axis indexed by natural numbers — the form in which a block-by-block computation of the
  row is compared with it.  No program is imported.
-/
import proofs.«156199_j3478923510049_2_alg».proof.Proof.Spec

noncomputable section

namespace Cert.Spec

open Idealize.ShloMosaic Idealize.ShloMosaic.ValueIdx

abbrev S4 : Shape := ⟨4, ![2, 2048, 16, 64]⟩

/-- The scaled score of query position `q` against key position `k`, −∞ where the key is after the query. -/
def scoreOf (Q K : S4.Idx → EReal) (b : Fin 2) (h : Fin 16) (q k : Fin 2048) : EReal :=
  if k.val ≤ q.val then (∑ j : Fin 64, Q (ix4 b q h j) * K (ix4 b k h j)) * Ideal.ofBits .f32 0x3E000000#32 else ⊥

/-- The softmax-weighted value of a row. -/
def attnOf (Q K Vv : S4.Idx → EReal) (b : Fin 2) (q : Fin 2048) (h : Fin 16) (j : Fin 64) : EReal :=
  ∑ k : Fin 2048, Ideal.div (Ideal.exp (scoreOf Q K b h q k - (Finset.univ : Finset (Fin 2048)).sup (scoreOf Q K b h q)))
      (∑ k' : Fin 2048, Ideal.exp (scoreOf Q K b h q k' - (Finset.univ : Finset (Fin 2048)).sup (scoreOf Q K b h q))) * Vv (ix4 b k h j)

/-- The three projected arrays of the specification. -/
def projArr (X : SX.Idx → EReal) (Wq : SWq.Idx → EReal) (w : Fin 3) : S4.Idx → EReal := fun i => proj X Wq (i 0) (i 1) (feat w (i 2) (i 3))

theorem attn_eq_attnOf (X : SX.Idx → EReal) (Wq : SWq.Idx → EReal) (b : Fin 2) (q : Fin 2048) (h : Fin 16) (j : Fin 64) :
    attn X Wq b q h j = attnOf (projArr X Wq 0) (projArr X Wq 1) (projArr X Wq 2) b q h j := rfl

/-- The row's scores and values along the flat key axis (−∞ and 0 past its end). -/
def scFlat (Q K : S4.Idx → EReal) (b : Fin 2) (h : Fin 16) (q : Fin 2048) : ℕ → EReal :=
  fun n => if hn : n < 2048 then scoreOf Q K b h q ⟨n, hn⟩ else ⊥
def vvFlat (Vv : S4.Idx → EReal) (b : Fin 2) (h : Fin 16) : ℕ → Fin 64 → EReal :=
  fun n j => if hn : n < 2048 then Vv (ix4 b ⟨n, hn⟩ h j) else 0

theorem scFlat_val (Q K : S4.Idx → EReal) (b : Fin 2) (h : Fin 16) (q k : Fin 2048) : scFlat Q K b h q k.val = scoreOf Q K b h q k := by
  unfold scFlat; rw [dif_pos k.isLt]
theorem vvFlat_val (Vv : S4.Idx → EReal) (b : Fin 2) (h : Fin 16) (k : Fin 2048) (j : Fin 64) : vvFlat Vv b h k.val j = Vv (ix4 b k h j) := by
  unfold vvFlat; rw [dif_pos k.isLt]

/-- A supremum over `Fin n` of a function of the value is the supremum over the first `n` naturals. -/
theorem sup_fin_eq_sup_range {α : Type*} [SemilatticeSup α] [OrderBot α] (n : ℕ) (g : ℕ → α) :
    (Finset.univ : Finset (Fin n)).sup (fun k => g k.val) = (Finset.range n).sup g := by
  apply le_antisymm
  · exact Finset.sup_le fun k _ => Finset.le_sup (f := g) (Finset.mem_range.mpr k.isLt)
  · exact Finset.sup_le fun t ht => Finset.le_sup (f := fun k : Fin n => g k.val) (Finset.mem_univ ⟨t, Finset.mem_range.mp ht⟩)

/-- The row over the flat key axis. -/
theorem attnOf_eq_flat (Q K Vv : S4.Idx → EReal) (b : Fin 2) (q : Fin 2048) (h : Fin 16) (j : Fin 64) :
    attnOf Q K Vv b q h j
      = ∑ t ∈ Finset.range 2048, Ideal.div (Ideal.exp (scFlat Q K b h q t - (Finset.range 2048).sup (scFlat Q K b h q)))
          (∑ t' ∈ Finset.range 2048, Ideal.exp (scFlat Q K b h q t' - (Finset.range 2048).sup (scFlat Q K b h q))) * vvFlat Vv b h t j := by
  have hs : (Finset.univ : Finset (Fin 2048)).sup (scoreOf Q K b h q) = (Finset.range 2048).sup (scFlat Q K b h q) := by
    rw [← sup_fin_eq_sup_range 2048 (scFlat Q K b h q)]
    exact congrArg _ (funext fun k => (scFlat_val Q K b h q k).symm)
  unfold attnOf
  rw [hs, ← Fin.sum_univ_eq_sum_range (fun t => Ideal.exp (scFlat Q K b h q t - (Finset.range 2048).sup (scFlat Q K b h q))) 2048,
    ← Fin.sum_univ_eq_sum_range (fun t => Ideal.div (Ideal.exp (scFlat Q K b h q t - (Finset.range 2048).sup (scFlat Q K b h q)))
          (∑ k' : Fin 2048, Ideal.exp (scFlat Q K b h q k'.val - (Finset.range 2048).sup (scFlat Q K b h q))) * vvFlat Vv b h t j) 2048]
  simp only [scFlat_val, vvFlat_val]

end Cert.Spec

end
-- ==== Proof.ArrAttnRow.lean ====
import proofs.«156199_j3478923510049_2_alg».proof.Proof.AttnBody
import proofs.«156199_j3478923510049_2_alg».proof.Proof.ArrAttnBlocks
import proofs.«156199_j3478923510049_2_alg».proof.Proof.AttnPay
import proofs.«156199_j3478923510049_2_alg».proof.Proof.SpecAttn
import proofs.«156199_j3478923510049_2_alg».proof.Proof.LibOnlineSoftmax
import proofs.«156199_j3478923510049_2_alg».proof.Proof.LibEReal
import Idealize.ShloMosaic.Lib.Pipeline.Value
import Idealize.ShloMosaic.Lib.ValueIdx
import Idealize.ShloMosaic.PureOps.Ideal.Laws

set_option maxRecDepth 16384

noncomputable section

namespace Cert.KernelIdeal.Arr

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frame

variable (V : (c : Dev nD) → (b : Ref sig .tc) → Buf (Elt Ideal) ((c : Thread nD τ).loc b))

open Cert.KernelIdeal.Pay Cert.Lib.OnlineSoftmax Cert.Spec

/-! # One row of the attention call, block by block, is the specification's row

For the row of query position p = (query block) · 256 + r in head h of batch b: after the point of key block j the
carried state of the row is the online recurrence over key blocks 0 … min j (query block); at the last key block the
stored quotient is the softmax-weighted value of the whole row. -/

/-- The float word of the scale is the real 1/8. -/
theorem scale_eq : Ideal.ofBits .f32 0x3E000000#32 = ((1 / 8 : ℝ) : EReal) := by
  simp [Ideal.ofBits, Ideal.ieee, -EReal.coe_mul]; norm_num

theorem isReal_of_ne {x : EReal} (h : x ≠ ⊤ ∧ x ≠ ⊥) : IsReal x := ⟨x.toReal, (EReal.coe_toReal h.1 h.2).symm⟩
theorem ne_of_isReal {x : EReal} (h : IsReal x) : x ≠ ⊤ ∧ x ≠ ⊥ := by
  obtain ⟨a, rfl⟩ := h; exact ⟨EReal.coe_ne_top a, EReal.coe_ne_bot a⟩

section
variable (c : Dev nD)

/-- A score is never +∞ when the query and key arrays are real, -/
theorem scoreOf_ne_top (Q K : S4.Idx → EReal) (hQ : ∀ i, IsReal (Q i)) (hK : ∀ i, IsReal (K i)) (b : Fin 2) (h : Fin 16) (q k : Fin 2048) :
    scoreOf Q K b h q k ≠ ⊤ := by
  unfold scoreOf
  split_ifs
  · rw [scale_eq]
    exact (ne_of_isReal (IsReal.mul (IsReal.sum _ _ fun j => IsReal.mul (hQ _) (hK _)) (IsReal.coe _))).1
  · exact bot_ne_top
/-- and is a real at a key not after the query. -/
theorem scoreOf_ne_bot (Q K : S4.Idx → EReal) (hQ : ∀ i, IsReal (Q i)) (hK : ∀ i, IsReal (K i)) (b : Fin 2) (h : Fin 16) (q k : Fin 2048) (hk : k.val ≤ q.val) :
    scoreOf Q K b h q k ≠ ⊥ := by
  unfold scoreOf
  rw [if_pos hk, scale_eq]
  exact (ne_of_isReal (IsReal.mul (IsReal.sum _ _ fun j => IsReal.mul (hQ _) (hK _)) (IsReal.coe _))).2

/-- The scores of a row of the query block at point `t` against the key block there are the row's flat scores at the
    key block's positions (the key block at or below the diagonal). -/
theorem sBlock_eq (t : Fin cfg1.N) (hle : t.val % 8 ≤ t.val / 8) (b : Fin 2) (h : Fin 16) (r : Fin 256) (p : Fin 2048)
    (hp : p.val = (t.val / 8) * 256 + r.val) (jj : ℕ) (hjj : t.val % 8 = jj) :
    sBlock (grid1.coords t) (iblk1 V c 0 t) (iblk1 V c 1 t) b h r
      = fun kk => scFlat (V c main_v10) (V c main_v11) b h p (jj * 256 + kk.val) := by
  funext kk
  have hlt : t.val < 64 := lt_of_lt_of_eq t.isLt (show cfg1.N = 64 from N_1)
  have hn : jj * 256 + kk.val < 2048 := by have := kk.isLt; omega
  obtain ⟨hc0, hc1⟩ := coords1 t
  unfold sBlock scFlat
  rw [dif_pos hn]
  unfold scoreOf
  rw [hc0, hc1, hjj]
  have hcond : (jj * 256 + kk.val ≤ t.val / 8 * 256 + r.val) ↔ ((⟨jj * 256 + kk.val, hn⟩ : Fin 2048).val ≤ p.val) := by
    show _ ↔ jj * 256 + kk.val ≤ p.val; rw [hp]
  by_cases hk : jj * 256 + kk.val ≤ t.val / 8 * 256 + r.val
  · rw [if_pos hk, if_pos (hcond.mp hk)]
    refine congrArg (· * _) (Finset.sum_congr rfl fun j _ => ?_)
    rw [iblk1_0_apply V c t b r h j p hp, iblk1_1_apply V c t hle b kk h j ⟨jj * 256 + kk.val, hn⟩ (by show jj * 256 + kk.val = _; rw [hjj])]
  · rw [if_neg hk, if_neg (fun h' => hk (hcond.mpr h'))]

/-- The value block at point `t` likewise. -/
theorem vBlock_eq (t : Fin cfg1.N) (hle : t.val % 8 ≤ t.val / 8) (b : Fin 2) (h : Fin 16) (jj : ℕ) (hjj : t.val % 8 = jj) :
    vBlock (iblk1 V c 2 t) b h = fun kk j => vvFlat (V c main_v12) b h (jj * 256 + kk.val) j := by
  funext kk j
  have hlt : t.val < 64 := lt_of_lt_of_eq t.isLt (show cfg1.N = 64 from N_1)
  have hn : jj * 256 + kk.val < 2048 := by have := kk.isLt; omega
  unfold vBlock vvFlat
  rw [dif_pos hn]
  exact iblk1_2_apply V c t hle b kk h j ⟨jj * 256 + kk.val, hn⟩ (by show jj * 256 + kk.val = _; rw [hjj])

/-- THE ROW INVARIANT: after the point of key block `j` in query block `qi`, the row's carried state is the online
    recurrence over key blocks 0 … min j qi. -/
theorem row_inv (qi : ℕ) (hq : qi < 8) (b : Fin 2) (h : Fin 16) (r : Fin 256) (p : Fin 2048) (hp : p.val = qi * 256 + r.val) :
    ∀ (j : ℕ) (hj : j < 8),
      rowState (scAt V c (8 * qi + j) (by rw [show cfg1.N = 64 from N_1]; omega)).1 (scAt V c (8 * qi + j) (by rw [show cfg1.N = 64 from N_1]; omega)).2.1
          (scAt V c (8 * qi + j) (by rw [show cfg1.N = 64 from N_1]; omega)).2.2 b h r
        = online (fun jj (kk : Fin 256) => scFlat (V c main_v10) (V c main_v11) b h p (jj * 256 + kk.val))
            (fun jj (kk : Fin 256) jd => vvFlat (V c main_v12) b h (jj * 256 + kk.val) jd) (min j qi + 1) := by
  intro j
  induction j with
  | zero =>
    intro hj
    have hN : 8 * qi + 0 < cfg1.N := by rw [show cfg1.N = 64 from N_1]; omega
    have e := scAt_first V c ⟨8 * qi + 0, hN⟩ (by show (8 * qi + 0) % 8 = 0; omega)
    rw [show scAt V c (8 * qi + 0) _ = _ from e]
    unfold nextAt
    dsimp only
    rw [step_row, init_row,
      sBlock_eq V c ⟨8 * qi + 0, hN⟩ (by show (8 * qi + 0) % 8 ≤ (8 * qi + 0) / 8; omega) b h r p (by show p.val = (8 * qi + 0) / 8 * 256 + r.val; rw [hp]; omega) 0 (by show (8 * qi + 0) % 8 = 0; omega),
      vBlock_eq V c ⟨8 * qi + 0, hN⟩ (by show (8 * qi + 0) % 8 ≤ (8 * qi + 0) / 8; omega) b h 0 (by show (8 * qi + 0) % 8 = 0; omega)]
    rw [show min 0 qi + 1 = 0 + 1 from by omega, online_succ, online_zero]
  | succ j ih =>
    intro hj
    have ih' := ih (by omega)
    have hN : 8 * qi + (j + 1) < cfg1.N := by rw [show cfg1.N = 64 from N_1]; omega
    have h0 : ¬(8 * qi + (j + 1)) % 8 = 0 := by omega
    by_cases h1 : j + 1 ≤ qi
    · have e := scAt_step V c ⟨8 * qi + (j + 1), hN⟩ h0 (by show (8 * qi + (j + 1)) % 8 ≤ (8 * qi + (j + 1)) / 8; omega)
      rw [show scAt V c (8 * qi + (j + 1)) _ = _ from e]
      unfold nextAt
      dsimp only
      rw [step_row]
      rw [show scAt V c ((⟨8 * qi + (j + 1), hN⟩ : Fin cfg1.N).val - 1) _ = scAt V c (8 * qi + j) (by rw [show cfg1.N = 64 from N_1]; omega) from rfl]
      rw [ih',
        sBlock_eq V c ⟨8 * qi + (j + 1), hN⟩ (by show (8 * qi + (j + 1)) % 8 ≤ (8 * qi + (j + 1)) / 8; omega) b h r p (by show p.val = (8 * qi + (j + 1)) / 8 * 256 + r.val; rw [hp]; omega) (j + 1) (by show (8 * qi + (j + 1)) % 8 = j + 1; omega),
        vBlock_eq V c ⟨8 * qi + (j + 1), hN⟩ (by show (8 * qi + (j + 1)) % 8 ≤ (8 * qi + (j + 1)) / 8; omega) b h (j + 1) (by show (8 * qi + (j + 1)) % 8 = j + 1; omega)]
      rw [show min j qi + 1 = j + 1 from by omega, show min (j + 1) qi + 1 = (j + 1) + 1 from by omega, online_succ (j := j + 1)]
    · have e := scAt_skip V c ⟨8 * qi + (j + 1), hN⟩ h0 (by show ¬(8 * qi + (j + 1)) % 8 ≤ (8 * qi + (j + 1)) / 8; omega)
      rw [show scAt V c (8 * qi + (j + 1)) _ = _ from e]
      rw [show scAt V c ((⟨8 * qi + (j + 1), hN⟩ : Fin cfg1.N).val - 1) _ = scAt V c (8 * qi + j) (by rw [show cfg1.N = 64 from N_1]; omega) from rfl]
      rw [ih', show min (j + 1) qi = min j qi from by omega]

end

end Cert.KernelIdeal.Arr

end
-- ==== Proof.ArrAttn.lean ====
import proofs.«156199_j3478923510049_2_alg».proof.Proof.AttnBody
import proofs.«156199_j3478923510049_2_alg».proof.Proof.ArrAttnRow
import Idealize.ShloMosaic.Lib.Pipeline.Value
import Idealize.ShloMosaic.Lib.ValueIdx
import Idealize.ShloMosaic.PureOps.Ideal.Laws

set_option maxRecDepth 16384

noncomputable section

namespace Cert.KernelIdeal.Arr

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frame

variable (V : (c : Dev nD) → (b : Ref sig .tc) → Buf (Elt Ideal) ((c : Thread nD τ).loc b))

open Cert.KernelIdeal.Pay Cert.Lib.OnlineSoftmax Cert.Spec

/-! # What the attention call leaves in its output array

At the last key block of each query block the body stores, for every row, numerator over clamped denominator of the
online recurrence over the key blocks up to the diagonal; that is the softmax-weighted value of the whole row (the
blocks above the diagonal hold only −∞ scores, and the denominator is at least 1). The eight write-backs tile the array. -/

section
variable (c : Dev nD)

theorem scAt_congr {n n' : ℕ} (e : n = n') (h : n < cfg1.N) (h' : n' < cfg1.N) : scAt V c n h = scAt V c n' h' := by
  subst e; rfl

theorem scFlat_ne_top (Q K : S4.Idx → EReal) (hQ : ∀ i, IsReal (Q i)) (hK : ∀ i, IsReal (K i)) (b : Fin 2) (h : Fin 16) (p : Fin 2048) (n : ℕ) :
    scFlat Q K b h p n ≠ ⊤ := by
  unfold scFlat
  split_ifs
  · exact scoreOf_ne_top Q K hQ hK b h p _
  · exact bot_ne_top

theorem scFlat_after (Q K : S4.Idx → EReal) (b : Fin 2) (h : Fin 16) (p : Fin 2048) (n : ℕ) (hn : p.val < n) : scFlat Q K b h p n = ⊥ := by
  unfold scFlat
  split_ifs with h1
  · unfold scoreOf; exact if_neg (by show ¬ n ≤ p.val; omega)
  · rfl

/-- The row's stored value at the last key block is the specification's row. -/
theorem row_value (qi : ℕ) (hq : qi < 8) (hN : 8 * qi + 7 < cfg1.N) (b : Fin 2) (h : Fin 16) (r : Fin 256) (p : Fin 2048) (hp : p.val = qi * 256 + r.val) (jd : Fin 64)
    (hQ : ∀ i, IsReal ((V c main_v10 : S4.Idx → EReal) i)) (hK : ∀ i, IsReal ((V c main_v11 : S4.Idx → EReal) i)) (hV : ∀ i, IsReal ((V c main_v12 : S4.Idx → EReal) i)) :
    finO (F := Ideal) (scAt V c (8 * qi + 7) hN).2.1 (scAt V c (8 * qi + 7) hN).2.2 (ix4 b r h jd)
      = attnOf (V c main_v10) (V c main_v11) (V c main_v12) b p h jd := by
  have inv := row_inv V c qi hq b h r p hp 7 (by omega)
  rw [show min 7 qi + 1 = qi + 1 from by omega] at inv
  have inv' : rowState (scAt V c (8 * qi + 7) hN).1 (scAt V c (8 * qi + 7) hN).2.1 (scAt V c (8 * qi + 7) hN).2.2 b h r = _ := inv
  generalize scAt V c (8 * qi + 7) hN = S at inv' ⊢
  rw [fin_row]
  have e : Ideal.div (S.2.2 (ix3 (bh b h) r jd)) (max (S.2.1 (ix3 (bh b h) r 0)) (((1 / 1000000000000000000000000000000 : ℝ) : ℝ) : EReal))
      = Ideal.div ((rowState S.1 S.2.1 S.2.2 b h r).acc jd) (max (rowState S.1 S.2.1 S.2.2 b h r).l (((1 / 1000000000000000000000000000000 : ℝ) : ℝ) : EReal)) := rfl
  rw [e, inv']
  have hs : ∀ jj < qi + 1, ∀ kk : Fin 256, scFlat (V c main_v10) (V c main_v11) b h p (jj * 256 + kk.val) ≠ ⊤ :=
    fun jj _ kk => scFlat_ne_top _ _ hQ hK b h p _
  have h0 : ∃ kk : Fin 256, scFlat (V c main_v10) (V c main_v11) b h p (0 * 256 + kk.val) ≠ ⊥ := by
    refine ⟨⟨0, by omega⟩, ?_⟩
    show scFlat _ _ b h p (0 * 256 + 0) ≠ ⊥
    unfold scFlat
    rw [dif_pos (by omega : 0 * 256 + 0 < 2048)]
    exact scoreOf_ne_bot _ _ hQ hK b h p _ (Nat.zero_le _)
  have hv : ∀ jj < qi + 1, ∀ (kk : Fin 256) (i : Fin 64), vvFlat (V c main_v12) b h (jj * 256 + kk.val) i ≠ ⊤ ∧ vvFlat (V c main_v12) b h (jj * 256 + kk.val) i ≠ ⊥ := by
    intro jj hjj kk i
    have hn : jj * 256 + kk.val < 2048 := by have := kk.isLt; omega
    unfold vvFlat
    rw [dif_pos hn]
    exact ne_of_isReal (hV _)
  have hc : ((((1 / 1000000000000000000000000000000 : ℝ) : ℝ) : EReal)) ≤ 1 := by
    rw [← EReal.coe_one]; exact EReal.coe_le_coe_iff.mpr (by norm_num)
  have hpad : ∀ jj, qi + 1 ≤ jj → jj < 8 → ∀ kk : Fin 256, scFlat (V c main_v10) (V c main_v11) b h p (jj * 256 + kk.val) = ⊥ :=
    fun jj hjj _ kk => scFlat_after _ _ b h p _ (by have := r.isLt; rw [hp]; nlinarith)
  rw [online_div_eq_direct (by omega) hs h0 hv hc jd]
  rw [← direct_pad (by omega) hs h0 (by omega : qi + 1 ≤ 8) hpad jd]
  rw [direct_flat (b := 256) (scFlat (V c main_v10) (V c main_v11) b h p) (vvFlat (V c main_v12) b h) 8 jd]
  rw [attnOf_eq_flat]

/-- The array the attention call's output window ends holding: the specification's row at every (batch, position,
    head, coordinate), over the three arrays the call reads. -/
def attnArr : S2x2048x16x64.Idx → EReal := fun i => attnOf (V c main_v10) (V c main_v11) (V c main_v12) (i 0) (i 1) (i 2) (i 3)

theorem xsize1_3 : ∀ t : Fin cfg1.N, win1_3.xsize (grid1.coords t) 0 = 2 ∧ win1_3.xsize (grid1.coords t) 1 = 256 ∧ win1_3.xsize (grid1.coords t) 2 = 16 ∧ win1_3.xsize (grid1.coords t) 3 = 64 :=
  (by decide +kernel : ∀ t : Fin grid1.N, win1_3.xsize (grid1.coords t) 0 = 2 ∧ win1_3.xsize (grid1.coords t) 1 = 256 ∧ win1_3.xsize (grid1.coords t) 2 = 16 ∧ win1_3.xsize (grid1.coords t) 3 = 64)

/-- What the write-back at the last key block of a query block writes is that block of `attnArr`. -/
theorem flushed1 (hQ : ∀ i, IsReal ((V c main_v10 : S4.Idx → EReal) i)) (hK : ∀ i, IsReal ((V c main_v11 : S4.Idx → EReal) i)) (hV : ∀ i, IsReal ((V c main_v12 : S4.Idx → EReal) i))
    (t : Fin cfg1.N) (hf : (cfg1.win 3).flush t = true) :
    (dat1 (F := Ideal) V c).flushed 3 t = ((cfg1.win 3).blk t).view.read (Elt Ideal) (attnArr V c) := by
  have hlt : t.val < 64 := lt_of_lt_of_eq t.isLt (show cfg1.N = 64 from N_1)
  have h7 : t.val % 8 = 7 := (flush1_3 t).mp hf
  obtain ⟨i0, i1, i2, i3⟩ := idx1_3 t
  funext x
  obtain ⟨b, r, h, j, rfl⟩ : ∃ (b : Fin 2) (r : Fin 256) (h : Fin 16) (j : Fin 64), x = ix4 b r h j := ⟨x 0, x 1, x 2, x 3, eq_ix4 x⟩
  rw [View.read_apply]
  show (dat1 V c).after 3 t (ix4 b r h j) = attnArr V c (((cfg1.win 3).blk t).view.emb (ix4 b r h j))
  rw [after1_3]
  have hemb : ((cfg1.win 3).blk t).view.emb (ix4 b r h j) = ix4 b (⟨t.val / 8 * 256 + r.val, by have := r.isLt; omega⟩ : Fin 2048) h j := by
    funext a; apply Fin.ext
    match a with
    | ⟨0, _⟩ => show win1_3.index t 0 * 2 + 1 * b.val = b.val; rw [i0]; omega
    | ⟨1, _⟩ => show win1_3.index t 1 * 256 + 1 * r.val = t.val / 8 * 256 + r.val; rw [i1]; omega
    | ⟨2, _⟩ => show win1_3.index t 2 * 16 + 1 * h.val = h.val; rw [i2]; omega
    | ⟨3, _⟩ => show win1_3.index t 3 * 64 + 1 * j.val = j.val; rw [i3]; omega
  rw [hemb]
  have ht : t.val = 8 * (t.val / 8) + 7 := by omega
  have hN : 8 * (t.val / 8) + 7 < cfg1.N := lt_of_lt_of_eq (by omega : 8 * (t.val / 8) + 7 < 64) (show (64 : ℕ) = cfg1.N from N_1.symm)
  rw [scAt_congr V c ht t.isLt hN]
  exact row_value V c (t.val / 8) (by omega) hN b h r _ rfl j hQ hK hV

/-- The eight write-backs cover the array. -/
theorem cover1 (i : S2x2048x16x64.Idx) : ∃ t : Fin cfg1.N, (cfg1.win 3).flush t = true ∧ i ∈ ((cfg1.win 3).blk t).view.set := by
  have h0 : (i 0).val < 2 := (i 0).isLt
  have h1 : (i 1).val < 2048 := (i 1).isLt
  have h2 : (i 2).val < 16 := (i 2).isLt
  have h3 : (i 3).val < 64 := (i 3).isLt
  let t : Fin cfg1.N := ⟨8 * ((i 1).val / 256) + 7, by rw [show cfg1.N = 64 from N_1]; omega⟩
  have htv : t.val = 8 * ((i 1).val / 256) + 7 := rfl
  refine ⟨t, (flush1_3 t).mpr (by rw [htv]; omega), ?_⟩
  obtain ⟨i0, i1, i2, i3⟩ := idx1_3 t
  obtain ⟨x0, x1, x2, x3⟩ := xsize1_3 t
  show i ∈ ((View.whole main_v13).slice (win1_3.rect t)).set
  rw [View.set_slice_whole, Rect.mem_set_unit]
  intro a
  match a with
  | ⟨0, _⟩ => show win1_3.index t 0 * win1_3.size 0 ≤ (i 0 : Nat) ∧ (i 0 : Nat) < win1_3.index t 0 * win1_3.size 0 + win1_3.xsize (grid1.coords t) 0
              rw [i0, x0]; show 0 * 2 ≤ _ ∧ _ < 0 * 2 + 2; omega
  | ⟨1, _⟩ => show win1_3.index t 1 * win1_3.size 1 ≤ (i 1 : Nat) ∧ (i 1 : Nat) < win1_3.index t 1 * win1_3.size 1 + win1_3.xsize (grid1.coords t) 1
              rw [i1, x1, htv]; show (8 * ((i 1).val / 256) + 7) / 8 * 256 ≤ _ ∧ _ < (8 * ((i 1).val / 256) + 7) / 8 * 256 + 256; omega
  | ⟨2, _⟩ => show win1_3.index t 2 * win1_3.size 2 ≤ (i 2 : Nat) ∧ (i 2 : Nat) < win1_3.index t 2 * win1_3.size 2 + win1_3.xsize (grid1.coords t) 2
              rw [i2, x2]; show 0 * 16 ≤ _ ∧ _ < 0 * 16 + 16; omega
  | ⟨3, _⟩ => show win1_3.index t 3 * win1_3.size 3 ≤ (i 3 : Nat) ∧ (i 3 : Nat) < win1_3.index t 3 * win1_3.size 3 + win1_3.xsize (grid1.coords t) 3
              rw [i3, x3]; show 0 * 64 ≤ _ ∧ _ < 0 * 64 + 64; omega

/-- THE ARRAY after the attention call: the specification's rows over the three arrays it reads, when those are real. -/
theorem arr1 (hQ : ∀ i, IsReal ((V c main_v10 : S4.Idx → EReal) i)) (hK : ∀ i, IsReal ((V c main_v11 : S4.Idx → EReal) i)) (hV : ∀ i, IsReal ((V c main_v12 : S4.Idx → EReal) i)) :
    (dat1 (F := Ideal) V c).arrAt 3 cfg1.N = attnArr V c :=
  (dat1 (F := Ideal) V c).arrAt_eq_of_cover 3 (attnArr V c) (flushed1 V c hQ hK hV) cover1

end

end Cert.KernelIdeal.Arr

end
-- ==== Proof.ValueGlue.lean ====
import proofs.«156199_j3478923510049_2_alg».proof.Proof.FrameRun
import proofs.«156199_j3478923510049_2_alg».proof.Proof.ArrMatmul
import proofs.«156199_j3478923510049_2_alg».proof.Proof.ArrAttn
import proofs.«156199_j3478923510049_2_alg».proof.Proof.SpecAttn
import proofs.«156199_j3478923510049_2_alg».proof.Proof.LibEReal
import Idealize.ShloMosaic.Lib.Pipeline.Value
import Idealize.ShloMosaic.Lib.StableHlo.Run
import Idealize.ShloMosaic.Lib.ValueIdx

/-! THE VALUE OF THE RUN at the result buffer, over the extended reals: the last boundary's contents of `main_v16`
    read back through the four stretches of host operations (reshapes, transposes, slices, conversions: each a
    re-indexing) and the three regions' arrays (two matrix products and the attention rows), down to the
    specification function of the three argument arrays. -/

set_option maxRecDepth 16384

noncomputable section

namespace Cert.KernelIdeal.Glue

open Cert.KernelIdeal Cert.KernelIdeal.Gen Cert.KernelIdeal.Frame Cert.KernelIdeal.Arr Cert.Spec
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-! # The three arguments as launched -/

/-- The input activations [2, 2048, 1024], -/
abbrev argX : SX.Idx → EReal := m ((c.tc : Thread nD τ).loc main_arg0)
/-- the stacked query / key / value projection [3072, 1024], -/
abbrev argWq : SWq.Idx → EReal := m ((c.tc : Thread nD τ).loc main_arg1)
/-- and the output projection [1024, 1024]. -/
abbrev argWo : SWo.Idx → EReal := m ((c.tc : Thread nD τ).loc main_arg2)

/-- Row `r` of a [4096, ·] array as (batch, position): `r = b · 2048 + s`. -/
abbrev rowB (r : Fin 4096) : Fin 2 := ⟨r.val / 2048, by omega⟩
abbrev rowS (r : Fin 4096) : Fin 2048 := ⟨r.val % 2048, by omega⟩

/-! # Step 1: after the first host stretch (region 0's entry) -/

/-- The activations flattened to [4096, 1024]: row `b · 2048 + s` is position `s` of batch `b`. -/
theorem U1_v4 (r : Fin 4096) (d : Fin 1024) :
    (U1 (F := Ideal) m ρ c main_v4 : S4096x1024.Idx → EReal) (ix2 r d) = argX m c (ix3 (rowB r) (rowS r) d) := by
  have h : (U1 (F := Ideal) m ρ c main_v4 : S4096x1024.Idx → EReal)
      = shapeCast S4096x1024 (argX m c : S2x2048x1024.Idx → EReal) shapeCasts_S2x2048x1024_S4096x1024 := by
    show StableHlo.after hostOps0 (W0 m ρ c) (Proc.devRef .tc main_v4) = _
    after_results
    rfl
  rw [h]
  refine shapeCast_apply _ _ _ _ ?_
  rw [Shape.rowMajor_val_three, Shape.rowMajor_val_two]
  show (r.val / 2048 * 2048 + r.val % 2048) * 1024 + d.val = r.val * 1024 + d.val
  omega

/-- The stacked projection transposed to [1024, 3072] (and converted, which over the extended reals changes nothing). -/
theorem U1_v1 (d : Fin 1024) (e : Fin 3072) :
    (U1 (F := Ideal) m ρ c main_v1 : S1024x3072.Idx → EReal) (ix2 d e) = argWq m c (ix2 e d) := by
  have h : (U1 (F := Ideal) m ρ c main_v1 : S1024x3072.Idx → EReal)
      = transpose S1024x3072 [1, 0] (argWq m c : S3072x1024.Idx → EReal) transposes_S3072x1024_S1024x3072_1_0 := by
    show StableHlo.after hostOps0 (W0 m ρ c) (Proc.devRef .tc main_v1) = _
    after_results
    rfl
  rw [h]
  exact transpose_apply _ _ _ _ _ fun b => match b with
    | ⟨0, _⟩ => rfl
    | ⟨1, _⟩ => rfl

/-- The output projection transposed (and converted). -/
theorem U1_v3 (e : Fin 1024) (o : Fin 1024) :
    (U1 (F := Ideal) m ρ c main_v3 : S1024x1024.Idx → EReal) (ix2 e o) = argWo m c (ix2 o e) := by
  have h : (U1 (F := Ideal) m ρ c main_v3 : S1024x1024.Idx → EReal)
      = transpose S1024x1024 [1, 0] (argWo m c : S1024x1024.Idx → EReal) transposes_S1024x1024_S1024x1024_1_0 := by
    show StableHlo.after hostOps0 (W0 m ρ c) (Proc.devRef .tc main_v3) = _
    after_results
    rfl
  rw [h]
  exact transpose_apply _ _ _ _ _ fun b => match b with
    | ⟨0, _⟩ => rfl
    | ⟨1, _⟩ => rfl

/-! # Step 3: after the second host stretch (region 1's entry), as re-indexings of region 0's output -/

/-- Row `b · 2048 + s` of a [4096, ·] array. -/
abbrev rowOf (b : Fin 2) (s : Fin 2048) : Fin 4096 := ⟨b.val * 2048 + s.val, by omega⟩

/-- `main_v10` at (batch, position, head, coordinate) is region 0's output at row `b · 2048 + s`, feature
    `0 · 1024 + h · 64 + j`: a reshape to [2, 2048, 3072], the slice at feature offset 0, a reshape of the
    1024 features to [16, 64]. -/
theorem U3_v10_read (b : Fin 2) (s : Fin 2048) (h : Fin 16) (j : Fin 64) :
    (U3 (F := Ideal) m ρ c main_v10 : S2x2048x16x64.Idx → EReal) (ix4 b s h j)
      = (U2 (F := Ideal) m ρ c main_v5 : S4096x3072.Idx → EReal) (ix2 (rowOf b s) (feat 0 h j)) := by
  have hf : (U3 (F := Ideal) m ρ c main_v10 : S2x2048x16x64.Idx → EReal)
      = shapeCast S2x2048x16x64
          (extractStridedSlice S2x2048x1024 ![0, 0, 0]
            (shapeCast S2x2048x3072 (U2 (F := Ideal) m ρ c main_v5 : S4096x3072.Idx → EReal) shapeCasts_S4096x3072_S2x2048x3072)
            slices_S2x2048x3072_S2x2048x1024_0_0_0)
          shapeCasts_S2x2048x1024_S2x2048x16x64 := by
    show StableHlo.after hostOps1 (W2 m ρ c) (Proc.devRef .tc main_v10) = _
    after_results
    rfl
  have hb := b.isLt
  have hs := s.isLt
  have hh := h.isLt
  have hj := j.isLt
  rw [hf]
  -- the outer reshape: [2,2048,16,64] at (b,s,h,j) reads [2,2048,1024] at (b,s,h·64+j)
  refine (shapeCast_apply _ _ _ (ix3 b s (⟨h.val * 64 + j.val, by omega⟩ : Fin 1024)) (by
    rw [Shape.rowMajor_val_three, Shape.rowMajor_val_four]
    show (b.val * 2048 + s.val) * 1024 + (h.val * 64 + j.val) = ((b.val * 2048 + s.val) * 16 + h.val) * 64 + j.val
    omega)).trans ?_
  -- the slice: [2,2048,1024] at (b,s,f) reads [2,2048,3072] at (b,s,0+f)
  refine (extractStridedSlice_apply _ _ _ _ (ix3 b s (feat 0 h j)) (fun a => match a with
    | ⟨0, _⟩ => by show b.val = 0 + b.val; omega
    | ⟨1, _⟩ => by show s.val = 0 + s.val; omega
    | ⟨2, _⟩ => by show 0 * 1024 + h.val * 64 + j.val = 0 + (h.val * 64 + j.val); omega)).trans ?_
  -- the inner reshape: [2,2048,3072] at (b,s,e) reads [4096,3072] at (b·2048+s, e)
  refine shapeCast_apply _ _ _ _ ?_
  show (S4096x3072.rowMajor (ix2 (rowOf b s) _)).val = (S2x2048x3072.rowMajor (ix3 b s _)).val
  rw [Shape.rowMajor_val_two, Shape.rowMajor_val_three]
  show (b.val * 2048 + s.val) * 3072 + (0 * 1024 + h.val * 64 + j.val) = (b.val * 2048 + s.val) * 3072 + (0 * 1024 + h.val * 64 + j.val)
  rfl

/-- `main_v11` at (batch, position, head, coordinate) is region 0's output at row `b · 2048 + s`, feature
    `1 · 1024 + h · 64 + j`: a reshape to [2, 2048, 3072], the slice at feature offset 1024, a reshape of the
    1024 features to [16, 64]. -/
theorem U3_v11_read (b : Fin 2) (s : Fin 2048) (h : Fin 16) (j : Fin 64) :
    (U3 (F := Ideal) m ρ c main_v11 : S2x2048x16x64.Idx → EReal) (ix4 b s h j)
      = (U2 (F := Ideal) m ρ c main_v5 : S4096x3072.Idx → EReal) (ix2 (rowOf b s) (feat 1 h j)) := by
  have hf : (U3 (F := Ideal) m ρ c main_v11 : S2x2048x16x64.Idx → EReal)
      = shapeCast S2x2048x16x64
          (extractStridedSlice S2x2048x1024 ![0, 0, 1024]
            (shapeCast S2x2048x3072 (U2 (F := Ideal) m ρ c main_v5 : S4096x3072.Idx → EReal) shapeCasts_S4096x3072_S2x2048x3072)
            slices_S2x2048x3072_S2x2048x1024_0_0_1024)
          shapeCasts_S2x2048x1024_S2x2048x16x64 := by
    show StableHlo.after hostOps1 (W2 m ρ c) (Proc.devRef .tc main_v11) = _
    after_results
    rfl
  have hb := b.isLt
  have hs := s.isLt
  have hh := h.isLt
  have hj := j.isLt
  rw [hf]
  -- the outer reshape: [2,2048,16,64] at (b,s,h,j) reads [2,2048,1024] at (b,s,h·64+j)
  refine (shapeCast_apply _ _ _ (ix3 b s (⟨h.val * 64 + j.val, by omega⟩ : Fin 1024)) (by
    rw [Shape.rowMajor_val_three, Shape.rowMajor_val_four]
    show (b.val * 2048 + s.val) * 1024 + (h.val * 64 + j.val) = ((b.val * 2048 + s.val) * 16 + h.val) * 64 + j.val
    omega)).trans ?_
  -- the slice: [2,2048,1024] at (b,s,f) reads [2,2048,3072] at (b,s,1024+f)
  refine (extractStridedSlice_apply _ _ _ _ (ix3 b s (feat 1 h j)) (fun a => match a with
    | ⟨0, _⟩ => by show b.val = 0 + b.val; omega
    | ⟨1, _⟩ => by show s.val = 0 + s.val; omega
    | ⟨2, _⟩ => by show 1 * 1024 + h.val * 64 + j.val = 1024 + (h.val * 64 + j.val); omega)).trans ?_
  -- the inner reshape: [2,2048,3072] at (b,s,e) reads [4096,3072] at (b·2048+s, e)
  refine shapeCast_apply _ _ _ _ ?_
  show (S4096x3072.rowMajor (ix2 (rowOf b s) _)).val = (S2x2048x3072.rowMajor (ix3 b s _)).val
  rw [Shape.rowMajor_val_two, Shape.rowMajor_val_three]
  show (b.val * 2048 + s.val) * 3072 + (1 * 1024 + h.val * 64 + j.val) = (b.val * 2048 + s.val) * 3072 + (1 * 1024 + h.val * 64 + j.val)
  rfl

/-- `main_v12` at (batch, position, head, coordinate) is region 0's output at row `b · 2048 + s`, feature
    `2 · 1024 + h · 64 + j`: a reshape to [2, 2048, 3072], the slice at feature offset 2048, a reshape of the
    1024 features to [16, 64]. -/
theorem U3_v12_read (b : Fin 2) (s : Fin 2048) (h : Fin 16) (j : Fin 64) :
    (U3 (F := Ideal) m ρ c main_v12 : S2x2048x16x64.Idx → EReal) (ix4 b s h j)
      = (U2 (F := Ideal) m ρ c main_v5 : S4096x3072.Idx → EReal) (ix2 (rowOf b s) (feat 2 h j)) := by
  have hf : (U3 (F := Ideal) m ρ c main_v12 : S2x2048x16x64.Idx → EReal)
      = shapeCast S2x2048x16x64
          (extractStridedSlice S2x2048x1024 ![0, 0, 2048]
            (shapeCast S2x2048x3072 (U2 (F := Ideal) m ρ c main_v5 : S4096x3072.Idx → EReal) shapeCasts_S4096x3072_S2x2048x3072)
            slices_S2x2048x3072_S2x2048x1024_0_0_2048)
          shapeCasts_S2x2048x1024_S2x2048x16x64 := by
    show StableHlo.after hostOps1 (W2 m ρ c) (Proc.devRef .tc main_v12) = _
    after_results
    rfl
  have hb := b.isLt
  have hs := s.isLt
  have hh := h.isLt
  have hj := j.isLt
  rw [hf]
  -- the outer reshape: [2,2048,16,64] at (b,s,h,j) reads [2,2048,1024] at (b,s,h·64+j)
  refine (shapeCast_apply _ _ _ (ix3 b s (⟨h.val * 64 + j.val, by omega⟩ : Fin 1024)) (by
    rw [Shape.rowMajor_val_three, Shape.rowMajor_val_four]
    show (b.val * 2048 + s.val) * 1024 + (h.val * 64 + j.val) = ((b.val * 2048 + s.val) * 16 + h.val) * 64 + j.val
    omega)).trans ?_
  -- the slice: [2,2048,1024] at (b,s,f) reads [2,2048,3072] at (b,s,2048+f)
  refine (extractStridedSlice_apply _ _ _ _ (ix3 b s (feat 2 h j)) (fun a => match a with
    | ⟨0, _⟩ => by show b.val = 0 + b.val; omega
    | ⟨1, _⟩ => by show s.val = 0 + s.val; omega
    | ⟨2, _⟩ => by show 2 * 1024 + h.val * 64 + j.val = 2048 + (h.val * 64 + j.val); omega)).trans ?_
  -- the inner reshape: [2,2048,3072] at (b,s,e) reads [4096,3072] at (b·2048+s, e)
  refine shapeCast_apply _ _ _ _ ?_
  show (S4096x3072.rowMajor (ix2 (rowOf b s) _)).val = (S2x2048x3072.rowMajor (ix3 b s _)).val
  rw [Shape.rowMajor_val_two, Shape.rowMajor_val_three]
  show (b.val * 2048 + s.val) * 3072 + (2 * 1024 + h.val * 64 + j.val) = (b.val * 2048 + s.val) * 3072 + (2 * 1024 + h.val * 64 + j.val)
  rfl

/-- The transposed output projection is untouched by the second stretch and is no array of region 0. -/
theorem U3_v3 : (U3 (F := Ideal) m ρ c main_v3 : S1024x1024.Idx → EReal) = U1 (F := Ideal) m ρ c main_v3 :=
  calc W3 (F := Ideal) m ρ c (Proc.devRef .tc main_v3)
    _ = W2 (F := Ideal) m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 (F := Ideal) m ρ c (Proc.devRef .tc main_v3) := W2_of_ne m ρ c main_v3 (by decide)

/-! # Rows and (batch, position) -/

theorem rowB_rowOf (b : Fin 2) (s : Fin 2048) : rowB (rowOf b s) = b := Fin.ext (by show (b.val * 2048 + s.val) / 2048 = b.val; omega)
theorem rowS_rowOf (b : Fin 2) (s : Fin 2048) : rowS (rowOf b s) = s := Fin.ext (by show (b.val * 2048 + s.val) % 2048 = s.val; omega)

/-! # Step 2: region 0's output, the stacked projection of every position -/

theorem U2_v5 (r : Fin 4096) (e : Fin 3072) :
    (U2 (F := Ideal) m ρ c main_v5 : S4096x3072.Idx → EReal) (ix2 r e) = proj (argX m c) (argWq m c) (rowB r) (rowS r) e := by
  have h : (U2 (F := Ideal) m ρ c main_v5 : S4096x3072.Idx → EReal)
      = fun i => ∑ k : Fin 1024, HMul.hMul (α := EReal) (β := EReal) (γ := EReal) (U1 (F := Ideal) m ρ c main_v4 (ix2 (i 0) k)) (U1 (F := Ideal) m ρ c main_v1 (ix2 k (i 1))) :=
    (W2_arr m ρ c 2).trans (arr0 (U1 m ρ) c)
  rw [h]
  show (∑ k : Fin 1024, HMul.hMul (α := EReal) (β := EReal) (γ := EReal) (U1 (F := Ideal) m ρ c main_v4 (ix2 r k)) (U1 (F := Ideal) m ρ c main_v1 (ix2 k e))) = _
  unfold proj
  exact Finset.sum_congr rfl fun k _ => by rw [U1_v4, U1_v1]

/-! # Step 5: after the third host stretch (region 2's entry), as a re-indexing of region 1's output -/

/-- The attention rows flattened to [4096, 1024]: row `b · 2048 + s`, feature `h · 64 + j`. -/
theorem U5_v14_read (r : Fin 4096) (e : Fin 1024) :
    (U5 (F := Ideal) m ρ c main_v14 : S4096x1024.Idx → EReal) (ix2 r e)
      = (U4 (F := Ideal) m ρ c main_v13 : S2x2048x16x64.Idx → EReal) (ix4 (rowB r) (rowS r) (headOf e) (coordOf e)) := by
  have hf : (U5 (F := Ideal) m ρ c main_v14 : S4096x1024.Idx → EReal)
      = shapeCast S4096x1024 (U4 (F := Ideal) m ρ c main_v13 : S2x2048x16x64.Idx → EReal) shapeCasts_S2x2048x16x64_S4096x1024 := by
    show StableHlo.after hostOps2 (W4 m ρ c) (Proc.devRef .tc main_v14) = _
    after_results
    rfl
  have hr := r.isLt
  have he := e.isLt
  rw [hf]
  refine shapeCast_apply _ _ _ _ ?_
  show (S2x2048x16x64.rowMajor (ix4 (rowB r) (rowS r) (headOf e) (coordOf e))).val = (S4096x1024.rowMajor (ix2 r e)).val
  rw [Shape.rowMajor_val_four, Shape.rowMajor_val_two]
  show ((r.val / 2048 * 2048 + r.val % 2048) * 16 + e.val / 64) * 64 + e.val % 64 = r.val * 1024 + e.val
  omega

/-- The transposed output projection is untouched by the second and third stretches and is no array of regions 0 and 1. -/
theorem U5_v3 : (U5 (F := Ideal) m ρ c main_v3 : S1024x1024.Idx → EReal) = U1 (F := Ideal) m ρ c main_v3 :=
  calc W5 (F := Ideal) m ρ c (Proc.devRef .tc main_v3)
    _ = W4 (F := Ideal) m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 (F := Ideal) m ρ c (Proc.devRef .tc main_v3) := W4_of_ne m ρ c main_v3 (by decide)
    _ = W1 (F := Ideal) m ρ c (Proc.devRef .tc main_v3) := U3_v3 m ρ c

/-! # Step 7: after the last host stretch, as a re-indexing of region 2's output -/

theorem W7_v16_read (b : Fin 2) (s : Fin 2048) (o : Fin 1024) :
    (W7 (F := Ideal) m ρ c (Proc.devRef .tc main_v16) : S2x2048x1024.Idx → EReal) (ix3 b s o)
      = (U6 (F := Ideal) m ρ c main_v15 : S4096x1024.Idx → EReal) (ix2 (rowOf b s) o) := by
  have hf : (W7 (F := Ideal) m ρ c (Proc.devRef .tc main_v16) : S2x2048x1024.Idx → EReal)
      = shapeCast S2x2048x1024 (U6 (F := Ideal) m ρ c main_v15 : S4096x1024.Idx → EReal) shapeCasts_S4096x1024_S2x2048x1024 := by
    show StableHlo.after hostOps3 (W6 m ρ c) (Proc.devRef .tc main_v16) = _
    after_results
    rfl
  have hb := b.isLt
  have hs := s.isLt
  rw [hf]
  refine shapeCast_apply _ _ _ _ ?_
  show (S4096x1024.rowMajor (ix2 (rowOf b s) o)).val = (S2x2048x1024.rowMajor (ix3 b s o)).val
  rw [Shape.rowMajor_val_two, Shape.rowMajor_val_three]
  show (b.val * 2048 + s.val) * 1024 + o.val = (b.val * 2048 + s.val) * 1024 + o.val
  rfl

/-! # Step 3, concluded: region 1's three entry arrays are the specification's projected arrays -/

theorem U3_v10 : (U3 (F := Ideal) m ρ c main_v10 : S4.Idx → EReal) = projArr (argX m c) (argWq m c) 0 := by
  refine funext fun (i : S4.Idx) => ?_
  obtain ⟨b, s, h, j, rfl⟩ : ∃ (b : Fin 2) (s : Fin 2048) (h : Fin 16) (j : Fin 64), i = ix4 b s h j :=
    ⟨i 0, i 1, i 2, i 3, eq_ix4 i⟩
  calc (U3 (F := Ideal) m ρ c main_v10 : S4.Idx → EReal) (ix4 b s h j)
    _ = (U2 (F := Ideal) m ρ c main_v5 : S4096x3072.Idx → EReal) (ix2 (rowOf b s) (feat 0 h j)) := U3_v10_read m ρ c b s h j
    _ = proj (argX m c) (argWq m c) (rowB (rowOf b s)) (rowS (rowOf b s)) (feat 0 h j) := U2_v5 m ρ c _ _
    _ = proj (argX m c) (argWq m c) b s (feat 0 h j) := by rw [rowB_rowOf, rowS_rowOf]
    _ = projArr (argX m c) (argWq m c) 0 (ix4 b s h j) := rfl

theorem U3_v11 : (U3 (F := Ideal) m ρ c main_v11 : S4.Idx → EReal) = projArr (argX m c) (argWq m c) 1 := by
  refine funext fun (i : S4.Idx) => ?_
  obtain ⟨b, s, h, j, rfl⟩ : ∃ (b : Fin 2) (s : Fin 2048) (h : Fin 16) (j : Fin 64), i = ix4 b s h j :=
    ⟨i 0, i 1, i 2, i 3, eq_ix4 i⟩
  calc (U3 (F := Ideal) m ρ c main_v11 : S4.Idx → EReal) (ix4 b s h j)
    _ = (U2 (F := Ideal) m ρ c main_v5 : S4096x3072.Idx → EReal) (ix2 (rowOf b s) (feat 1 h j)) := U3_v11_read m ρ c b s h j
    _ = proj (argX m c) (argWq m c) (rowB (rowOf b s)) (rowS (rowOf b s)) (feat 1 h j) := U2_v5 m ρ c _ _
    _ = proj (argX m c) (argWq m c) b s (feat 1 h j) := by rw [rowB_rowOf, rowS_rowOf]
    _ = projArr (argX m c) (argWq m c) 1 (ix4 b s h j) := rfl

theorem U3_v12 : (U3 (F := Ideal) m ρ c main_v12 : S4.Idx → EReal) = projArr (argX m c) (argWq m c) 2 := by
  refine funext fun (i : S4.Idx) => ?_
  obtain ⟨b, s, h, j, rfl⟩ : ∃ (b : Fin 2) (s : Fin 2048) (h : Fin 16) (j : Fin 64), i = ix4 b s h j :=
    ⟨i 0, i 1, i 2, i 3, eq_ix4 i⟩
  calc (U3 (F := Ideal) m ρ c main_v12 : S4.Idx → EReal) (ix4 b s h j)
    _ = (U2 (F := Ideal) m ρ c main_v5 : S4096x3072.Idx → EReal) (ix2 (rowOf b s) (feat 2 h j)) := U3_v12_read m ρ c b s h j
    _ = proj (argX m c) (argWq m c) (rowB (rowOf b s)) (rowS (rowOf b s)) (feat 2 h j) := U2_v5 m ρ c _ _
    _ = proj (argX m c) (argWq m c) b s (feat 2 h j) := by rw [rowB_rowOf, rowS_rowOf]
    _ = projArr (argX m c) (argWq m c) 2 (ix4 b s h j) := rfl

/-! # Finiteness: a projection of finite activations by finite weights is finite -/

theorem proj_real (hX : ∀ i, IsReal ((m ((c.tc : Thread nD τ).loc main_arg0) : SX.Idx → EReal) i))
    (hWq : ∀ i, IsReal ((m ((c.tc : Thread nD τ).loc main_arg1) : SWq.Idx → EReal) i)) (b : Fin 2) (s : Fin 2048) (e : Fin 3072) :
    IsReal (proj (argX m c) (argWq m c) b s e) := by
  unfold proj
  exact IsReal.sum _ _ fun d => (hX _).mul (hWq _)

theorem projArr_real (hX : ∀ i, IsReal ((m ((c.tc : Thread nD τ).loc main_arg0) : SX.Idx → EReal) i))
    (hWq : ∀ i, IsReal ((m ((c.tc : Thread nD τ).loc main_arg1) : SWq.Idx → EReal) i)) (w : Fin 3) (i : S4.Idx) :
    IsReal (projArr (argX m c) (argWq m c) w i) :=
  proj_real m c hX hWq _ _ _

/-! # Step 4: region 1's output, the attention rows -/

theorem U4_v13 (hX : ∀ i, IsReal ((m ((c.tc : Thread nD τ).loc main_arg0) : SX.Idx → EReal) i))
    (hWq : ∀ i, IsReal ((m ((c.tc : Thread nD τ).loc main_arg1) : SWq.Idx → EReal) i)) (b : Fin 2) (s : Fin 2048) (h : Fin 16) (j : Fin 64) :
    (U4 (F := Ideal) m ρ c main_v13 : S2x2048x16x64.Idx → EReal) (ix4 b s h j) = attn (argX m c) (argWq m c) b s h j := by
  have h1 : (U4 (F := Ideal) m ρ c main_v13 : S2x2048x16x64.Idx → EReal) = attnArr (U3 (F := Ideal) m ρ) c :=
    (W4_arr m ρ c 3).trans (arr1 (U3 (F := Ideal) m ρ) c
      (fun i => by rw [U3_v10 m ρ c]; exact projArr_real m c hX hWq 0 i)
      (fun i => by rw [U3_v11 m ρ c]; exact projArr_real m c hX hWq 1 i)
      (fun i => by rw [U3_v12 m ρ c]; exact projArr_real m c hX hWq 2 i))
  rw [h1, attn_eq_attnOf]
  show attnOf (U3 (F := Ideal) m ρ c main_v10) (U3 (F := Ideal) m ρ c main_v11) (U3 (F := Ideal) m ρ c main_v12) b s h j = _
  rw [U3_v10, U3_v11, U3_v12]

/-! # Step 5, concluded -/

theorem U5_v14 (hX : ∀ i, IsReal ((m ((c.tc : Thread nD τ).loc main_arg0) : SX.Idx → EReal) i))
    (hWq : ∀ i, IsReal ((m ((c.tc : Thread nD τ).loc main_arg1) : SWq.Idx → EReal) i)) (r : Fin 4096) (e : Fin 1024) :
    (U5 (F := Ideal) m ρ c main_v14 : S4096x1024.Idx → EReal) (ix2 r e)
      = attn (argX m c) (argWq m c) (rowB r) (rowS r) (headOf e) (coordOf e) := by
  rw [U5_v14_read, U4_v13 m ρ c hX hWq]

/-! # Step 6: region 2's output, the output projection of the attention rows -/

theorem U6_v15 (hX : ∀ i, IsReal ((m ((c.tc : Thread nD τ).loc main_arg0) : SX.Idx → EReal) i))
    (hWq : ∀ i, IsReal ((m ((c.tc : Thread nD τ).loc main_arg1) : SWq.Idx → EReal) i)) (r : Fin 4096) (o : Fin 1024) :
    (U6 (F := Ideal) m ρ c main_v15 : S4096x1024.Idx → EReal) (ix2 r o)
      = outAt (argX m c) (argWq m c) (argWo m c) (rowB r) (rowS r) o := by
  have h : (U6 (F := Ideal) m ρ c main_v15 : S4096x1024.Idx → EReal)
      = fun i => ∑ k : Fin 1024, HMul.hMul (α := EReal) (β := EReal) (γ := EReal) (U5 (F := Ideal) m ρ c main_v14 (ix2 (i 0) k)) (U5 (F := Ideal) m ρ c main_v3 (ix2 k (i 1))) :=
    (W6_arr m ρ c 2).trans (arr2 (U5 m ρ) c)
  rw [h]
  show (∑ k : Fin 1024, HMul.hMul (α := EReal) (β := EReal) (γ := EReal) (U5 (F := Ideal) m ρ c main_v14 (ix2 r k)) (U5 (F := Ideal) m ρ c main_v3 (ix2 k o))) = _
  unfold outAt
  exact Finset.sum_congr rfl fun k _ => by rw [U5_v14 m ρ c hX hWq, U5_v3, U1_v3]

/-! # Step 7, concluded, and the result -/

theorem W7_v16 (hX : ∀ i, IsReal ((m ((c.tc : Thread nD τ).loc main_arg0) : SX.Idx → EReal) i))
    (hWq : ∀ i, IsReal ((m ((c.tc : Thread nD τ).loc main_arg1) : SWq.Idx → EReal) i)) (b : Fin 2) (s : Fin 2048) (o : Fin 1024) :
    (W7 (F := Ideal) m ρ c (Proc.devRef .tc main_v16) : S2x2048x1024.Idx → EReal) (ix3 b s o)
      = outAt (argX m c) (argWq m c) (argWo m c) b s o := by
  rw [W7_v16_read, U6_v15 m ρ c hX hWq, rowB_rowOf, rowS_rowOf]

/-- THE RESULT: for finite activations and a finite stacked projection, the last boundary's contents of the result
    buffer are the specification's function of the three argument arrays as launched. -/
theorem result_eq (hX : ∀ i, IsReal ((m ((c.tc : Thread nD τ).loc main_arg0) : SX.Idx → EReal) i)) (hWq : ∀ i, IsReal ((m ((c.tc : Thread nD τ).loc main_arg1) : SWq.Idx → EReal) i)) :
    (W7 (F := Ideal) m ρ c (Proc.devRef .tc main_v16) : SX.Idx → EReal) = Cert.Spec.out (m ((c.tc : Thread nD τ).loc main_arg0)) (m ((c.tc : Thread nD τ).loc main_arg1)) (m ((c.tc : Thread nD τ).loc main_arg2)) := by
  funext i
  rw [eq_ix3 i]
  exact W7_v16 m ρ c hX hWq _ _ _

end Cert.KernelIdeal.Glue

end
-- ==== Proof.lean ====
/-
  Causal multi-head attention on the TensorCore — a projection matmul, a block-causal flash attention with an online
  softmax, and an output matmul — against its plain reference, on the extended reals.

  FRAMES. Each of the three pallas_calls is run point by point: the two matmul bodies load their blocks and store the
  product; the attention body, at grid point (query block, key block), resets its three carried buffers at a first
  key block, takes one step of the online recurrence at or below the diagonal, and at the last key block divides and
  stores. The carried buffers' contents after each point are a recursion over the point's number, which is the
  region's invariant. The three regions and the four stretches of host operations between them compose into the run
  of the whole program; the same text serves the word-level program and its idealization.

  VALUES. Both programs compute `Cert.Spec.out`: with projected features p = X·Wqᵀ, row scores s = (q·k)/8 for keys not
  after the query and −∞ otherwise, the output is Σ_k exp(s_k − M)/L · v_k with M the row's maximum and L = Σ exp(s − M),
  then multiplied by Woᵀ. The kernel reaches the row's value block by block: after key block j the running maximum,
  denominator and numerator are those of the scores seen so far (exp(a − b)·exp(c − a) = exp(c − b)); the first block
  has a key not after the query, so the maximum is a real from then on; blocks above the diagonal hold only −∞
  scores and add nothing; L ≥ 1, so clamping the denominator below by 10⁻³⁰ changes nothing; and the numerator over
  L is the sum of the weights times the values because every quantity is a real — which is where the finiteness of
  the inputs is used. The fill constant of the mask denotes −∞ and the clamp constant 10⁻³⁰ by the certificate's table.
-/
import proofs.«156199_j3478923510049_2_alg».proof.Defs
import proofs.«156199_j3478923510049_2_alg».proof.Proof.Gen.Kernel
import proofs.«156199_j3478923510049_2_alg».proof.Proof.Gen.KernelIdeal
import proofs.«156199_j3478923510049_2_alg».proof.Proof.Gen.ReferenceIdeal
import proofs.«156199_j3478923510049_2_alg».proof.Proof.Gen.ReferenceIdeal.Run
import proofs.«156199_j3478923510049_2_alg».proof.Proof.Gen.ReferenceIdeal.Read
import proofs.«156199_j3478923510049_2_alg».proof.Proof.Gen.Pre_finite_inputs
import proofs.«156199_j3478923510049_2_alg».proof.Proof.FrameRun
import proofs.«156199_j3478923510049_2_alg».proof.Proof.WFrameRun
import proofs.«156199_j3478923510049_2_alg».proof.Proof.Finite
import proofs.«156199_j3478923510049_2_alg».proof.Proof.RefSpec
import proofs.«156199_j3478923510049_2_alg».proof.Proof.ValueGlue
import Idealize.ShloMosaic.Adequacy
import Idealize.ShloMosaic.Init

noncomputable section

namespace Cert.Proof

open Idealize.ShloMosaic Idealize.ShloMosaic.TcCoe Idealize.SL.Sem

/-- The word-level program runs to the end, faults nowhere and leaves its arguments as launched. -/
theorem frame_k : Cert.frame_Kernel := fun m ρ _ => Cert.Kernel.Frame.frame (F := Bits) m ρ

/-- So does its idealization. -/
theorem frame_ki : Cert.frame_KernelIdeal := fun m ρ _ => Cert.KernelIdeal.Frame.frame (F := Ideal) m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The table gives the mask's fill constant the value −∞ and the clamp constant the value 10⁻³⁰, and the printed
    constants are those values on the extended reals. -/
theorem preserves : Cert.preserves_Kernel_KernelIdeal :=
  ⟨IdealRules.named_const.statement Cert.KernelIdeal.κ "neg_big" .f32 0xFF333332#32 ⊥ rfl,
   IdealRules.named_const.statement Cert.KernelIdeal.κ "inv_1000000000000000000000000000000" .f32 0x0DA24260#32 ((1 / 1000000000000000000000000000000 : ℝ) : EReal) rfl⟩

/-- Run from memories that agree on the three arguments, both idealized programs end with the result array at
    `Cert.Spec.out` of the arguments. -/
theorem algebraic : Cert.algebraic_KernelIdeal_ReferenceIdeal := by
  intro m ρ m' ρ' hpre hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · -- the kernel: its run with the result buffer read off the last boundary's contents, which is the specification
    -- of the arguments once those are known to be real
    refine (θ_run Cert.KernelIdeal.defs _ _).mono (fun r h c => ?_) (Cert.KernelIdeal.Frame.run_result (F := Ideal) m ρ)
    obtain ⟨hX, hWq, -⟩ := Cert.Finite.finite_of_pre _ _ _ (hpre c)
    exact ⟨(h c).1.trans (Cert.KernelIdeal.Glue.result_eq m ρ c hX hWq), (h c).2⟩
  · -- the reference: its generated run, whose result term is the specification of its own arguments, which agree
    refine (θ_run Cert.ReferenceIdeal.defs _ _).mono (fun r h c => ⟨(h c).1.trans ?_, (h c).2⟩)
      (Cert.ReferenceIdeal.Value.run (F := Ideal) m' ρ')
    rw [Cert.ReferenceIdeal.RefSpec.res_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
